-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part6 {F : FTy → Type} [FloatOps F] (main_arg21 : FVec F S128 .f32) (main_v98 : IVec S_ 1) (main_v101 : IVec S128x128 1) (main_c_39 : IVec S_ 1) : IVec S_ 1 :=
  let main_v102 : IVec S_ 1 := (fun x v => Host.reduce IntOp.andi x v reducesTo_S128x128_S_d0_1 h_S_) main_v101 main_c_39
  let main_v103 : IVec S_ 1 := andi main_v98 main_v102
  let main_v104 : FVec F S128 .f32 := Host.absf main_arg21
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  main_v108

def fn_part5 {F : FTy → Type} [FloatOps F] (main_arg18 : FVec F S128x128 .f32) (main_arg19 : FVec F S128 .f32) (main_arg20 : FVec F S128x128 .f32) (main_arg21 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg18
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x128 .f32 := Host.absf main_arg20
  let main_cst_38 : FVec F S_ .f32 := constant S_ .f32 0x7F800000#32
  let main_v100 : FVec F S128x128 .f32 := broadcastInDim S128x128 ![] bcast_S_S128x128 main_cst_38
  let main_v101 : IVec S128x128 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg16
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S640x10000 : Shape := ⟨2, ![640, 10000]⟩
abbrev S640x128 : Shape := ⟨2, ![640, 128]⟩
abbrev S10240x128 : Shape := ⟨2, ![10240, 128]⟩

abbrev nBuf : Space → Nat
  | .hbm => 33
  | .vmem => 26
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S128x128, .f32⟩
  | .hbm, ⟨21, _⟩ => ⟨S128, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S10000x128, .f32⟩
  | .local _ .vmem, ⟨0, _⟩ => ⟨S10000x128, .f32⟩
  | .local _ .vmem, ⟨1, _⟩ => ⟨S640x10000, .f32⟩
  | .local _ .vmem, ⟨2, _⟩ => ⟨S640x10000, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S128x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S640x128, .f32⟩
  | .local _ .vmem, ⟨24, _⟩ => ⟨S640x128, .f32⟩
  | .local _ .vmem, ⟨25, _⟩ => ⟨S10240x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_v0 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg22_1 : Ref sig .tc := ⟨.vmem, 24, rfl⟩
abbrev cc0_scratch0 : Ref sig .tc := ⟨.vmem, 25, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem22_1 : DmaSem sig := 24

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c640_i32 : BitVec 32 := 640#32
  let v22 : BitVec 32 := Scalar.muli arg0 c640_i32
  let v23 : Index := Scalar.indexCast v22
  let c0_15 : Index := 0#32
  ![v23.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S640x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S640x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10240x128_S10000x128_0_0 : ∀ a, (![0, 0] : Fin 2 → Nat) a + S10000x128.size a ≤ S10240x128.size a
  shapeCasts_S10000x128_S10000x128 : S10000x128.ShapeCasts S10000x128
  inb_S640x10000_S640x10000_0_0 : ∀ a, (![0, 0] : Fin 2 → Nat) a + S640x10000.size a ≤ S640x10000.size a
  h_S640x10000 : 0 < S640x10000.numel
  bitsLt_bf16_f32 : FTy.bits .bf16 < FTy.bits .f32
  broadcasts_S1x128_S640x128 : S1x128.Broadcasts S640x128
  h_S640x128 : 0 < S640x128.numel
  inb_S640x128_S640x128_0_0 : ∀ a, (![0, 0] : Fin 2 → Nat) a + S640x128.size a ≤ S640x128.size a
  dot_S10000x128_S128x128_S10000x128_1_0_0_1_n_n_wf : DotDims.WF S10000x128 S128x128 S10000x128 [1] [0] [0] [1] [] []
  dot_S640x10000_S10000x128_S640x128_1_0_0_1_n_n_wf : DotDims.WF S640x10000 S10000x128 S640x128 [1] [0] [0] [1] [] []
  dot_S640x128_S128x128_S640x128_1_0_0_1_n_n_wf : DotDims.WF S640x128 S128x128 S640x128 [1] [0] [0] [1] [] []
  hrank0 : 0 < grid0.rank
  k0_off1_inb : ∀ i : grid0.Coords, ∀ a, (k0_off1 i) a + S640x128.size a ≤ S10240x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S640x10000.size a < S10000x10000.size a
  hwx0_1 : ∀ i : grid0.Coords, EltTy.bits .f32 = 32 ∨ (Rect.unit (s := S10000x10000) (fun a => cc0_transform_1 i a * S640x10000.size a) (fun a => (Pipeline.Clip.of (cc0_transform_1 i a) (S640x10000.size a) (S10000x10000.size a)).extent (S640x10000.size a)) fun a => Pipeline.Clip.inb (Pipeline.Clip.ok_of (hstart0_1 i a))).WholeWords (EltTy.packing .f32)
  hwxs0_1 : ∀ i : grid0.Coords, EltTy.bits .f32 = 32 ∨ (Rect.unit (s := S640x10000) (fun _ => 0) (fun a => (Pipeline.Clip.of (cc0_transform_1 i a) (S640x10000.size a) (S10000x10000.size a)).extent (S640x10000.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x128.size a ≤ S128x128.size a
  hwx0_14 : ∀ i : grid0.Coords, EltTy.bits .f32 = 32 ∨ (Rect.block (s := S128x128) S128x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x128.size a ≤ S1x128.size a
  hwx0_15 : ∀ i : grid0.Coords, EltTy.bits .f32 = 32 ∨ (Rect.block (s := S1x128) S1x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128x128.size a ≤ S128x128.size a
  hwx0_16 : ∀ i : grid0.Coords, EltTy.bits .f32 = 32 ∨ (Rect.block (s := S128x128) S128x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x128.size a ≤ S1x128.size a
  hwx0_17 : ∀ i : grid0.Coords, EltTy.bits .f32 = 32 ∨ (Rect.block (s := S1x128) S1x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S128x128.size a ≤ S128x128.size a
  hwx0_18 : ∀ i : grid0.Coords, EltTy.bits .f32 = 32 ∨ (Rect.block (s := S128x128) S128x128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x128.size a ≤ S1x128.size a
  hwx0_19 : ∀ i : grid0.Coords, EltTy.bits .f32 = 32 ∨ (Rect.block (s := S1x128) S1x128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S128x128.size a ≤ S128x128.size a
  hwx0_20 : ∀ i : grid0.Coords, EltTy.bits .f32 = 32 ∨ (Rect.block (s := S128x128) S128x128.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x128.size a ≤ S1x128.size a
  hwx0_21 : ∀ i : grid0.Coords, EltTy.bits .f32 = 32 ∨ (Rect.block (s := S1x128) S1x128.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hstart0_22 : ∀ (i : grid0.Coords) a, cc0_transform_22 i a * S640x128.size a < S10000x128.size a
  hwx0_22 : ∀ i : grid0.Coords, EltTy.bits .f32 = 32 ∨ (Rect.unit (s := S10000x128) (fun a => cc0_transform_22 i a * S640x128.size a) (fun a => (Pipeline.Clip.of (cc0_transform_22 i a) (S640x128.size a) (S10000x128.size a)).extent (S640x128.size a)) fun a => Pipeline.Clip.inb (Pipeline.Clip.ok_of (hstart0_22 i a))).WholeWords (EltTy.packing .f32)
  hwxs0_22 : ∀ i : grid0.Coords, EltTy.bits .f32 = 32 ∨ (Rect.unit (s := S640x128) (fun _ => 0) (fun a => (Pipeline.Clip.of (cc0_transform_22 i a) (S640x128.size a) (S10000x128.size a)).extent (S640x128.size a)) fun a => (Nat.zero_add _).trans_le (Pipeline.Clip.extent_le (Pipeline.Clip.ok_of (hstart0_22 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S640x10000_S10000x128_S640x128_1_0_0_1_n_n : DotDims S640x10000 S10000x128 S640x128 where
  lhsContracting := [1]
  rhsContracting := [0]
  lhsNonContracting := [0]
  rhsNonContracting := [1]
  lhsBatch := []
  rhsBatch := []
  wf := dot_S640x10000_S10000x128_S640x128_1_0_0_1_n_n_wf
def dot_S640x128_S128x128_S640x128_1_0_0_1_n_n : DotDims S640x128 S128x128 S640x128 where
  lhsContracting := [1]
  rhsContracting := [0]
  lhsNonContracting := [0]
  rhsNonContracting := [1]
  lhsBatch := []
  rhsBatch := []
  wf := dot_S640x128_S128x128_S640x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S640x10000.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v2) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v3) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v4) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_call0_v5) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S128x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_call0_v6) S1x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S128x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_call0_v7) S1x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S128x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_call0_v8) S1x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S128x128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_call0_v9) S1x128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpecClip (Memref.whole main_v0) S640x128.size cc0_transform_22 reads0_22 true false 2 stage0_22 sem0_22
    hrank0 hreads0_22 hstart0_22 nbuf0_22 (Memref.isWhole_whole _) hwx0_22 hwxs0_22 hstage0_22

abbrev win0 : Fin 23 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | ⟨_ + 23, h⟩ => absurd h (Nat.not_lt.2 (Nat.le_add_left _ _))
abbrev spec0 : Fin 23 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 96
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S128x128, .f32⟩
  | .hbm, ⟨21, _⟩ => ⟨S128, .f32⟩
  | .hbm, ⟨22, _⟩ => ⟨S10000x128, .f32⟩
  | .hbm, ⟨23, _⟩ => ⟨S1x128, .f32⟩
  | .hbm, ⟨24, _⟩ => ⟨S10000x128, .f32⟩
  | .hbm, ⟨25, _⟩ => ⟨S10000x128, .f32⟩
  | .hbm, ⟨26, _⟩ => ⟨S_, .f32⟩
  | .hbm, ⟨27, _⟩ => ⟨S10000x128, .f32⟩
  | .hbm, ⟨28, _⟩ => ⟨S10000x128, .f32⟩
  | .hbm, ⟨29, _⟩ => ⟨S10000x128, .f32⟩
  | .hbm, ⟨30, _⟩ => ⟨S1x128, .f32⟩
  | .hbm, ⟨31, _⟩ => ⟨S10000x128, .f32⟩
  | .hbm, ⟨32, _⟩ => ⟨S10000x128, .f32⟩
  | .hbm, ⟨33, _⟩ => ⟨S10000x128, .f32⟩
  | .hbm, ⟨34, _⟩ => ⟨S10000x128, .f32⟩
  | .hbm, ⟨35, _⟩ => ⟨S1x128, .f32⟩
  | .hbm, ⟨36, _⟩ => ⟨S10000x128, .f32⟩
  | .hbm, ⟨37, _⟩ => ⟨S10000x128, .f32⟩
  | .hbm, ⟨38, _⟩ => ⟨S_, .f32⟩
  | .hbm, ⟨39, _⟩ => ⟨S10000x128, .f32⟩
  | .hbm, ⟨40, _⟩ => ⟨S10000x128, .f32⟩
  | .hbm, ⟨41, _⟩ => ⟨S10000x128, .f32⟩
  | .hbm, ⟨42, _⟩ => ⟨S1x128, .f32⟩
  | .hbm, ⟨43, _⟩ => ⟨S10000x128, .f32⟩
  | .hbm, ⟨44, _⟩ => ⟨S10000x128, .f32⟩
  | .hbm, ⟨45, _⟩ => ⟨S10000x128, .f32⟩
  | .hbm, ⟨46, _⟩ => ⟨S1x128, .f32⟩
  | .hbm, ⟨47, _⟩ => ⟨S10000x128, .f32⟩
  | .hbm, ⟨48, _⟩ => ⟨S10000x128, .f32⟩
  | .hbm, ⟨49, _⟩ => ⟨S10000x128, .f32⟩
  | .hbm, ⟨50, _⟩ => ⟨S10000x128, .f32⟩
  | .hbm, ⟨51, _⟩ => ⟨S1x128, .f32⟩
  | .hbm, ⟨52, _⟩ => ⟨S10000x128, .f32⟩
  | .hbm, ⟨53, _⟩ => ⟨S10000x128, .f32⟩
  | .hbm, ⟨54, _⟩ => ⟨S10000x128, .f32⟩
  | .hbm, ⟨55, _⟩ => ⟨S10000x128, .f32⟩
  | .hbm, ⟨56, _⟩ => ⟨S_, .f32⟩
  | .hbm, ⟨57, _⟩ => ⟨S10000x128, .f32⟩
  | .hbm, ⟨58, _⟩ => ⟨S10000x128, .f32⟩
  | .hbm, ⟨59, _⟩ => ⟨S_, .f32⟩
  | .hbm, ⟨60, _⟩ => ⟨S10000x128, .f32⟩
  | .hbm, ⟨61, _⟩ => ⟨S10000x128, .f32⟩
  | .hbm, ⟨62, _⟩ => ⟨S10000x128, .f32⟩
  | .hbm, ⟨63, _⟩ => ⟨S1x128, .f32⟩
  | .hbm, ⟨64, _⟩ => ⟨S10000x128, .f32⟩
  | .hbm, ⟨65, _⟩ => ⟨S10000x128, .f32⟩
  | .hbm, ⟨66, _⟩ => ⟨S10000x128, .f32⟩
  | .hbm, ⟨67, _⟩ => ⟨S10000x128, .f32⟩
  | .hbm, ⟨68, _⟩ => ⟨S1x128, .f32⟩
  | .hbm, ⟨69, _⟩ => ⟨S10000x128, .f32⟩
  | .hbm, ⟨70, _⟩ => ⟨S10000x128, .f32⟩
  | .hbm, ⟨71, _⟩ => ⟨S10000x128, .f32⟩
  | .hbm, ⟨72, _⟩ => ⟨S10000x128, .f32⟩
  | .hbm, ⟨73, _⟩ => ⟨S_, .f32⟩
  | .hbm, ⟨74, _⟩ => ⟨S10000x128, .f32⟩
  | .hbm, ⟨75, _⟩ => ⟨S10000x128, .f32⟩
  | .hbm, ⟨76, _⟩ => ⟨S_, .f32⟩
  | .hbm, ⟨77, _⟩ => ⟨S10000x128, .f32⟩
  | .hbm, ⟨78, _⟩ => ⟨S10000x128, .f32⟩
  | .hbm, ⟨79, _⟩ => ⟨S10000x128, .f32⟩
  | .hbm, ⟨80, _⟩ => ⟨S1x128, .f32⟩
  | .hbm, ⟨81, _⟩ => ⟨S10000x128, .f32⟩
  | .hbm, ⟨82, _⟩ => ⟨S10000x128, .f32⟩
  | .hbm, ⟨83, _⟩ => ⟨S10000x128, .f32⟩
  | .hbm, ⟨84, _⟩ => ⟨S10000x128, .f32⟩
  | .hbm, ⟨85, _⟩ => ⟨S10000x128, .f32⟩
  | .hbm, ⟨86, _⟩ => ⟨S1x128, .f32⟩
  | .hbm, ⟨87, _⟩ => ⟨S10000x128, .f32⟩
  | .hbm, ⟨88, _⟩ => ⟨S10000x128, .f32⟩
  | .hbm, ⟨89, _⟩ => ⟨S10000x128, .f32⟩
  | .hbm, ⟨90, _⟩ => ⟨S_, .f32⟩
  | .hbm, ⟨91, _⟩ => ⟨S10000x128, .f32⟩
  | .hbm, ⟨92, _⟩ => ⟨S10000x128, .f32⟩
  | .hbm, ⟨93, _⟩ => ⟨S10000x128, .f32⟩
  | .hbm, ⟨94, _⟩ => ⟨S10000x128, .f32⟩
  | .hbm, ⟨95, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_call0_cst : Ref sig .tc := ⟨.hbm, 26, rfl⟩
abbrev main_call0_v0 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_call1_cst : Ref sig .tc := ⟨.hbm, 38, rfl⟩
abbrev main_call1_v0 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst : Ref sig .tc := ⟨.hbm, 56, rfl⟩
abbrev main_v30 : Ref sig .tc := ⟨.hbm, 57, rfl⟩
abbrev main_v31 : Ref sig .tc := ⟨.hbm, 58, rfl⟩
abbrev main_cst_0 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_1 : Ref sig .tc := ⟨.hbm, 73, rfl⟩
abbrev main_v45 : Ref sig .tc := ⟨.hbm, 74, rfl⟩
abbrev main_v46 : Ref sig .tc := ⟨.hbm, 75, rfl⟩
abbrev main_cst_2 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_3 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.LibWhole.lean ====
/-
  Loads and stores through the rectangle of a WHOLE buffer (every coordinate of the shape, from offset zero at
  unit stride): the rectangle places an index at itself, so a load through it reads the buffer's contents as they
  are, and a store through it leaves exactly its payload, whatever the buffer held before.
-/
import Idealize.ShloMosaic.Lib.Pipeline.FrameBody

namespace Idealize.ShloMosaic

variable {sig : RefSig} {κ : Kind} {sp : Space} {s : Shape} {e : EltTy} {Val : EltTy → Type}

/-- The whole rectangle places every index at itself. -/
theorem Rect.unit_whole_idx (off : Fin s.rank → ℕ) (hoff : ∀ a, off a = 0) (inb : ∀ a, off a + s.size a ≤ s.size a)
    (x : s.Idx) : (Rect.unit (s := s) off s.size inb).toLoadRect.idx x = x := by
  funext a
  apply Fin.ext
  show off a + 1 * (x a).val = (x a).val
  rw [hoff a, Nat.zero_add, Nat.one_mul]

/-- Every index lies in the whole rectangle. -/
theorem Rect.unit_whole_mem (off : Fin s.rank → ℕ) (hoff : ∀ a, off a = 0) (inb : ∀ a, off a + s.size a ≤ s.size a)
    (y : s.Idx) : y ∈ (Rect.unit (s := s) off s.size inb).set :=
  Rect.mem_set_unit.mpr fun a => ⟨by rw [hoff a]; exact Nat.zero_le _, by rw [hoff a, Nat.zero_add]; exact (y a).isLt⟩

/-- The offsets `![0, 0]` of a whole rank-2 buffer's rectangle are zero. -/
theorem vecZero2 : ∀ a : Fin 2, (![0, 0] : Fin 2 → ℕ) a = 0 := by decide

namespace View

/-- A load through the whole rectangle reads the contents as they are. -/
theorem readAt_unit_whole (v : View sig κ sp s e) (off : Fin s.rank → ℕ) (hoff : ∀ a, off a = 0)
    (inb : ∀ a, off a + s.size a ≤ s.size a) (f : v.ty.Contents Val) :
    v.readAt Val (Rect.unit (s := s) off s.size inb).toLoadRect f = v.read Val f :=
  funext fun x => congrArg (v.read Val f) (Rect.unit_whole_idx off hoff inb x)

/-- One store through the whole rectangle leaves its payload, whatever was there. -/
theorem read_writes_unit_whole [∀ e, Nonempty (Val e)] (v : View sig κ sp s e) (off : Fin s.rank → ℕ) (hoff : ∀ a, off a = 0)
    (inb : ∀ a, off a + s.size a ≤ s.size a) (f : v.ty.Contents Val) (w : s.Idx → Val e)
    (L : List (Piece Val s e)) :
    v.read Val (v.writes Val f (⟨Rect.unit (s := s) off s.size inb, w⟩ :: L)) = w :=
  funext fun x => by
    have h := read_writes_cons_emb v f (Rect.unit (s := s) off s.size inb) w L x
    rw [show (Rect.unit (s := s) off s.size inb).emb x = x from Rect.unit_whole_idx off hoff inb x] at h
    exact h

end View

end Idealize.ShloMosaic
-- ==== Proof.LibOneStore.lean ====
/-
  A buffer after ONE store through a rectangle, read back.

  Storing a payload through a rectangle replaces the buffer's contents on the rectangle's indices and leaves every
  other index as it was: read back whole, the buffer is the old contents overlaid with the payload. So a load through
  the store's own rectangle reads the payload, whatever the buffer held before, and a load through any other
  rectangle reads the overlay at that rectangle's indices. Nothing here mentions a program.
-/
import Idealize.ShloMosaic.Lib.Pipeline.FrameBody
import Idealize.ShloMosaic.Lib.Exec.Geometry

namespace Idealize.ShloMosaic

variable {sig : RefSig} {κ : Kind} {sp : Space} {s : Shape} {e : EltTy} {Val : EltTy → Type}

namespace View

/-- Read back whole, a buffer after one store through the rectangle r is its old contents overlaid with the payload. -/
theorem read_writes_one (v : View sig κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [read_writes_cons_emb, Rect.overlay_emb]
  · rw [read_writes_apply_of_forall_not_mem v f y _ (fun p hp => by rw [List.mem_singleton.mp hp]; exact hy),
      Rect.overlay_of_not_mem _ _ _ hy]

/-- A load through the store's own rectangle, covered by that one store, reads the payload. -/
theorem readCov_one_self [∀ e, Nonempty (Val e)] (v : View sig κ sp s e) (r : Rect s) (w : r.shape.Idx → Val e) :
    v.readCov [(⟨r, w⟩ : Piece Val s e)] r.toLoadRect = w := by
  rw [readCov_eq_canon v _ _ fun j => ⟨_, List.mem_singleton_self _, r.idx_mem j⟩]
  funext j
  exact canon_cons_emb r w [] j

/-- The overlay read through the overlaid rectangle is the payload. -/
theorem ld_overlay_self {α : EltTy → Type} (r : Rect s) (X : s.Idx → α e) (w : r.shape.Idx → α e) :
    ld (Val := α) (r.overlay X w) r = w :=
  funext fun x => r.overlay_emb X w x

end View

end Idealize.ShloMosaic
-- ==== Proof.BitsBodyDefs.lean ====
/-
  What the kernel body reads and writes at one grid point, as functions of the buffers' contents.

  The body keeps the transformed node features in a scratch of 10240 rows. Its one branch, taken at the first grid
  point only, fills the scratch's first 10000 rows with the features of the whole input. At every point it then reads
  those 10000 rows (all of the features), the 640 rows of the scratch that belong to the point's block (the block's
  own features), the block of 640 rows of the adjacency matrix and the weights, and stores the gated update of the
  block's rows into the output block. The definitions below name these reads and the stored value; they are generic
  in the number format, so they serve the program read at words and read at extended reals alike.
-/
import proofs.«174394_g59339268162203_cont_sun_m_386_9_alg».proof.Proof.Gen.Kernel.Frame
import proofs.«174394_g59339268162203_cont_sun_m_386_9_alg».proof.Proof.Gen.Kernel.Skeleton
import proofs.«174394_g59339268162203_cont_sun_m_386_9_alg».proof.Proof.LibWhole
import proofs.«174394_g59339268162203_cont_sun_m_386_9_alg».proof.Proof.LibOneStore
import Idealize.ShloMosaic.Lib.Pipeline.FrameBody
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The condition of the body's one branch, from the grid coordinates. -/
abbrev atFirst (i : grid0.Coords) : Prop :=
  (Scalar.cmpi .ne (Scalar.extui (Scalar.cmpi .eq (BitVec.ofNat 32 (i 0).val) 0#32)) 0#32) = 1#1

/-- It holds at the first of the sixteen grid points and at no other: decided over the grid. -/
theorem atFirst_iff : ∀ t : Fin cfg0.N, atFirst (grid0.coords t) ↔ t.val = 0 :=
  (by decide +kernel : ∀ t : Fin grid0.N, atFirst (grid0.coords t) ↔ t.val = 0)

/-- The rectangle of the scratch's first 10000 rows. -/
abbrev topRect : Rect S10240x128 :=
  Rect.unit (s := S10240x128) ![0, 0] S10000x128.size inb_S10240x128_S10000x128_0_0

/-- The first 10000 rows of scratch contents. -/
def scrTop (s : Vec F S10240x128 .f32) : Vec F S10000x128 .f32 := View.ld s topRect

/-- The 640 rows of scratch contents that belong to the block of the point with coordinates i. -/
def scrBlk (i : grid0.Coords) (s : Vec F S10240x128 .f32) : Vec F S640x128 .f32 :=
  View.ld s (Rect.unit (s := S10240x128) (k0_off1 i) S640x128.size (k0_off1_inb i))

/-- What the body stores into the output block: from the adjacency block x2, the weights and biases of the second
    perceptron and of the three gates, and the scratch contents s. -/
def outOf (i : grid0.Coords) (x2 : Vec F S640x10000 .f32) (x7 : Vec F S128x128 .f32) (x8 : Vec F S1x128 .f32) (x9 : Vec F S128x128 .f32) (x10 : Vec F S1x128 .f32) (x11 : Vec F S128x128 .f32) (x12 : Vec F S1x128 .f32) (x13 : Vec F S128x128 .f32) (x14 : Vec F S1x128 .f32) (x15 : Vec F S128x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32)
    (s : Vec F S10240x128 .f32) : FVec F S640x128 .f32 :=
  k0_pay1 (scrBlk i s)
    (k0_pay5 (scrBlk i s) (k0_pay4 x2 (scrTop s) x7 x8 x9 x10 x11 x12) x13 x14)
    (k0_pay6 (k0_pay3 x2 (scrTop s) x7 x8 x9 x10) (scrBlk i s) x15 x16 x17 x18 x19 x20 x21 x22)

/-- The scratch after the first point's store: its first 10000 rows replaced by the transformed features of the
    whole input x1 (weights x3, x5; biases x4, x6), the rest as it was. -/
def scrNew (x1 : Vec F S10000x128 .f32) (x3 : Vec F S128x128 .f32) (x4 : Vec F S1x128 .f32) (x5 : Vec F S128x128 .f32)
    (x6 : Vec F S1x128 .f32) (s : Vec F S10240x128 .f32) : Vec F S10240x128 .f32 :=
  topRect.overlay s (k0_pay2 x1 x3 x4 x5 x6)

/-- Its first 10000 rows are those features. -/
theorem scrTop_scrNew (x1 : Vec F S10000x128 .f32) (x3 : Vec F S128x128 .f32) (x4 : Vec F S1x128 .f32)
    (x5 : Vec F S128x128 .f32) (x6 : Vec F S1x128 .f32) (s : Vec F S10240x128 .f32) :
    scrTop (scrNew x1 x3 x4 x5 x6 s) = k0_pay2 x1 x3 x4 x5 x6 :=
  View.ld_overlay_self (α := Elt F) topRect s _

/-- The scratch the kernel carries between grid points, as a whole memref. -/
abbrev scM : Memref sig .tc .vmem S10240x128 .f32 := Memref.whole cc0_scratch0

/-- The region's invariant with the scratch as a memref owned at some contents: what the body obligation hands the
    body and takes back. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Body

end
-- ==== Proof.BitsBodyLater.lean ====
/-
  The kernel body at a grid point other than the first, on any whole buffers.

  The branch is not taken. The body loads every input buffer whole, the scratch's first 10000 rows and the 640 rows
  of the scratch that belong to the point's block, and stores one value, whole, into the output buffer. So from any
  contents of the inputs and of the scratch it runs to the end without a fault, leaves the inputs and the scratch as
  they were, and leaves the output buffer holding the stored value as a function of what it loaded.
-/
import proofs.«174394_g59339268162203_cont_sun_m_386_9_alg».proof.Proof.BitsBodyDefs
import Idealize.ShloMosaic.Lib.Pipeline.FrameBody
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 4000000 in
/-- The body where the branch is not taken: inputs and scratch unchanged, the output buffer at the stored value. -/
theorem run_later (c : Dev nD) (i : grid0.Coords) (arg1 : Memref sig .tc .vmem S10000x128 .f32) (harg1 : arg1.IsWhole) (arg2 : Memref sig .tc .vmem S640x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S128x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S640x128 .f32) (harg23 : arg23.IsWhole) (arg24 : Memref sig .tc .vmem S10240x128 .f32) (harg24 : arg24.IsWhole) (hc0 : ¬atFirst i)
    (x1 : Vec F S10000x128 .f32) (x2 : Vec F S640x10000 .f32) (x3 : Vec F S128x128 .f32) (x4 : Vec F S1x128 .f32) (x5 : Vec F S128x128 .f32) (x6 : Vec F S1x128 .f32) (x7 : Vec F S128x128 .f32) (x8 : Vec F S1x128 .f32) (x9 : Vec F S128x128 .f32) (x10 : Vec F S1x128 .f32) (x11 : Vec F S128x128 .f32) (x12 : Vec F S1x128 .f32) (x13 : Vec F S128x128 .f32) (x14 : Vec F S1x128 .f32) (x15 : Vec F S128x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32) (s : Vec F S10240x128 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ (∃ d, owns (c : Thread nD τ) arg23 fullShare d) ∗ owns (c : Thread nD τ) arg24 fullShare s
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare (outOf i x2 x7 x8 x9 x10 x11 x12 x13 x14 x15 x16 x17 x18 x19 x20 x21 x22 s) ∗ owns (c : Thread nD τ) arg24 fullShare s) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0__fused_kernel_eq_skeleton]; unfold cc0__fused_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, %hf23, H23⟩, ⟨%f24, %hf24, H24⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22
  obtain rfl := harg24.eq_unread hf24
  sl_exec (disch := first | exact hc0)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr; · ipureintro; exact harg20.read_unread _
    iexact H20
  isplitl [H21]
  · iexists _; isplitr; · ipureintro; exact harg21.read_unread _
    iexact H21
  isplitl [H22]
  · iexists _; isplitr; · ipureintro; exact harg22.read_unread _
    iexact H22
  isplitl [H23]
  · iexists _; isplitr
    swap; · iexact H23
    ipureintro
    rw [View.read_writes_unit_whole _ _ vecZero2]
    have hz : (![0, 0] : Fin 2 → Nat) = fun _ => 0 := funext fun a => by fin_cases a <;> rfl
    sl_unfold_run_names
    simp only [View.readAt_eq_ld, Memref.IsWhole.read_unread, View.ld_unit_zero (S := S10000x128) hz, View.ld_unit_zero (S := S640x10000) hz, View.ld_unit_zero (S := S128x128) hz, View.ld_unit_zero (S := S1x128) hz]
    rfl
  · iexists _; isplitr; · ipureintro; exact harg24.read_unread _
    iexact H24

end Cert.Kernel.Body

end
-- ==== Proof.BitsBodyFirst.lean ====
/-
  The kernel body at the first grid point, on any whole buffers.

  The branch is taken: the body loads the whole input features and the first perceptron's weights and biases and
  stores the transformed features into the scratch's first 10000 rows. Everything it loads from the scratch
  afterwards it reads from the scratch as that store left it: the first 10000 rows are the stored features
  themselves, and the block's 640 rows are read off the old contents overlaid with them. The rest is as at any other
  point. So from any contents it runs to the end without a fault, leaves the inputs as they were, the scratch at its
  old contents overlaid with the features, and the output buffer at the stored value computed from that scratch.
-/
import proofs.«174394_g59339268162203_cont_sun_m_386_9_alg».proof.Proof.BitsBodyDefs
import Idealize.ShloMosaic.Lib.Pipeline.FrameBody
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 4000000 in
/-- The body where the branch is taken: inputs unchanged, the scratch's first 10000 rows at the transformed features,
    the output buffer at the stored value read off the new scratch. -/
theorem run_first (c : Dev nD) (i : grid0.Coords) (arg1 : Memref sig .tc .vmem S10000x128 .f32) (harg1 : arg1.IsWhole) (arg2 : Memref sig .tc .vmem S640x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S128x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S640x128 .f32) (harg23 : arg23.IsWhole) (arg24 : Memref sig .tc .vmem S10240x128 .f32) (harg24 : arg24.IsWhole) (hc0 : atFirst i)
    (x1 : Vec F S10000x128 .f32) (x2 : Vec F S640x10000 .f32) (x3 : Vec F S128x128 .f32) (x4 : Vec F S1x128 .f32) (x5 : Vec F S128x128 .f32) (x6 : Vec F S1x128 .f32) (x7 : Vec F S128x128 .f32) (x8 : Vec F S1x128 .f32) (x9 : Vec F S128x128 .f32) (x10 : Vec F S1x128 .f32) (x11 : Vec F S128x128 .f32) (x12 : Vec F S1x128 .f32) (x13 : Vec F S128x128 .f32) (x14 : Vec F S1x128 .f32) (x15 : Vec F S128x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32) (s : Vec F S10240x128 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ (∃ d, owns (c : Thread nD τ) arg23 fullShare d) ∗ owns (c : Thread nD τ) arg24 fullShare s
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare (outOf i x2 x7 x8 x9 x10 x11 x12 x13 x14 x15 x16 x17 x18 x19 x20 x21 x22 (scrNew x1 x3 x4 x5 x6 s)) ∗ owns (c : Thread nD τ) arg24 fullShare (scrNew x1 x3 x4 x5 x6 s)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0__fused_kernel_eq_skeleton]; unfold cc0__fused_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, %hf23, H23⟩, ⟨%f24, %hf24, H24⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22
  obtain rfl := harg24.eq_unread hf24
  sl_exec (disch := first | exact hc0)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr; · ipureintro; exact harg20.read_unread _
    iexact H20
  isplitl [H21]
  · iexists _; isplitr; · ipureintro; exact harg21.read_unread _
    iexact H21
  isplitl [H22]
  · iexists _; isplitr; · ipureintro; exact harg22.read_unread _
    iexact H22
  isplitl [H23]
  · iexists _; isplitr
    swap; · iexact H23
    ipureintro
    rw [View.read_writes_unit_whole _ _ vecZero2]
    have hz : (![0, 0] : Fin 2 → Nat) = fun _ => 0 := funext fun a => by fin_cases a <;> rfl
    sl_unfold_run_names
    simp only [View.readCov_one_self, View.readAt_eq_ld, View.read_writes_one, Memref.IsWhole.read_unread,
      View.ld_unit_zero (S := S10000x128) hz, View.ld_unit_zero (S := S640x10000) hz, View.ld_unit_zero (S := S128x128) hz, View.ld_unit_zero (S := S1x128) hz]
    unfold outOf
    rw [scrTop_scrNew]
    rfl
  · iexists _; isplitr
    swap; · iexact H24
    ipureintro
    have hz : (![0, 0] : Fin 2 → Nat) = fun _ => 0 := funext fun a => by fin_cases a <;> rfl
    sl_unfold_run_names
    simp only [View.readAt_eq_ld, View.read_writes_one, Memref.IsWhole.read_unread, View.ld_unit_zero (S := S10000x128) hz, View.ld_unit_zero (S := S640x10000) hz, View.ld_unit_zero (S := S128x128) hz, View.ld_unit_zero (S := S1x128) hz]
    rfl

end Cert.Kernel.Body

end
-- ==== Proof.BitsFrameRel.lean ====
/-
  The program runs to the end, faults nowhere, and leaves its argument arrays as they were.

  For this claim nothing needs to be said of what the body computes. The proof data is relational and says nothing
  of what the body leaves in any staging buffer; the region's invariant is the plain one, the scratch at any contents.
  The body obligation is then only that, at every grid point and from ANY contents of the staging buffers and of the
  scratch, the body runs to the end without a fault and hands every buffer back: at the first point by the run with
  the branch taken, at every other point by the run with the branch not taken. An argument array that a window stages
  is an input of the pipeline, which never writes it back, so it ends as the region found it; an argument array no
  window stages bypasses the region; and no host operation before the region writes an argument. This is generic in
  the number format, so it gives the frame of the program read at words and at extended reals alike.
-/
import proofs.«174394_g59339268162203_cont_sun_m_386_9_alg».proof.Proof.BitsBodyLater
import proofs.«174394_g59339268162203_cont_sun_m_386_9_alg».proof.Proof.BitsBodyFirst
import Idealize.ShloMosaic.Lib.Pipeline.FrameBody
import Idealize.ShloMosaic.Lib.Pipeline.Value
import Idealize.ShloMosaic.Lib.Tactic

set_option maxRecDepth 16384

noncomputable section

namespace Cert.Kernel.FrameRel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Cert.Kernel.Body

variable (m : (ℓ : Loc nD τ sig) → Buf (Elt F) ℓ) (ρ : Dev nD → PrngReg)

/-- The relational proof data of the one pipeline on core c: the arrays as the region finds them, nothing said of what
    the body leaves in a staging buffer, the plain invariant, nothing owed, full shares. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

set_option maxHeartbeats 4000000 in
/-- The body at any grid point, from any contents of the staging buffers: it runs, and hands every buffer back. -/
theorem sound_body (c : Dev nD) (t : Fin cfg0.N)
    (Y : (w : Fin cfg0.W) → (cfg0.win w).block.Idx → Elt F (cfg0.win w).elt) :
    iprop(Pipeline.ΦA spec0 c ∗ (rdat m c).owesAt () t.castSucc ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10) ∗ owns (c : Thread nD τ) (st0_11 t) fullShare (Y 11) ∗ owns (c : Thread nD τ) (st0_12 t) fullShare (Y 12) ∗ owns (c : Thread nD τ) (st0_13 t) fullShare (Y 13) ∗ owns (c : Thread nD τ) (st0_14 t) fullShare (Y 14) ∗ owns (c : Thread nD τ) (st0_15 t) fullShare (Y 15) ∗ owns (c : Thread nD τ) (st0_16 t) fullShare (Y 16) ∗ owns (c : Thread nD τ) (st0_17 t) fullShare (Y 17) ∗ owns (c : Thread nD τ) (st0_18 t) fullShare (Y 18) ∗ owns (c : Thread nD τ) (st0_19 t) fullShare (Y 19) ∗ owns (c : Thread nD τ) (st0_20 t) fullShare (Y 20) ∗ owns (c : Thread nD τ) (st0_21 t) fullShare (Y 21) ∗ owns (c : Thread nD τ) (st0_22 t) fullShare (Y 22))
      ⊢ wp frame (wpE (defs₀ (F := F)) Variants.none c none) Set.univ (bodyAt0 t) (fun _ =>
          iprop(Pipeline.ΦA spec0 c ∗ (rdat m c).owesAt () t.succ ∗ (∃ X, ⌜(rdat m c).after 0 t (Y 0) X⌝ ∗ owns (c : Thread nD τ) (st0_0 t) fullShare X) ∗ (∃ X, ⌜(rdat m c).after 1 t (Y 1) X⌝ ∗ owns (c : Thread nD τ) (st0_1 t) fullShare X) ∗ (∃ X, ⌜(rdat m c).after 2 t (Y 2) X⌝ ∗ owns (c : Thread nD τ) (st0_2 t) fullShare X) ∗ (∃ X, ⌜(rdat m c).after 3 t (Y 3) X⌝ ∗ owns (c : Thread nD τ) (st0_3 t) fullShare X) ∗ (∃ X, ⌜(rdat m c).after 4 t (Y 4) X⌝ ∗ owns (c : Thread nD τ) (st0_4 t) fullShare X) ∗ (∃ X, ⌜(rdat m c).after 5 t (Y 5) X⌝ ∗ owns (c : Thread nD τ) (st0_5 t) fullShare X) ∗ (∃ X, ⌜(rdat m c).after 6 t (Y 6) X⌝ ∗ owns (c : Thread nD τ) (st0_6 t) fullShare X) ∗ (∃ X, ⌜(rdat m c).after 7 t (Y 7) X⌝ ∗ owns (c : Thread nD τ) (st0_7 t) fullShare X) ∗ (∃ X, ⌜(rdat m c).after 8 t (Y 8) X⌝ ∗ owns (c : Thread nD τ) (st0_8 t) fullShare X) ∗ (∃ X, ⌜(rdat m c).after 9 t (Y 9) X⌝ ∗ owns (c : Thread nD τ) (st0_9 t) fullShare X) ∗ (∃ X, ⌜(rdat m c).after 10 t (Y 10) X⌝ ∗ owns (c : Thread nD τ) (st0_10 t) fullShare X) ∗ (∃ X, ⌜(rdat m c).after 11 t (Y 11) X⌝ ∗ owns (c : Thread nD τ) (st0_11 t) fullShare X) ∗ (∃ X, ⌜(rdat m c).after 12 t (Y 12) X⌝ ∗ owns (c : Thread nD τ) (st0_12 t) fullShare X) ∗ (∃ X, ⌜(rdat m c).after 13 t (Y 13) X⌝ ∗ owns (c : Thread nD τ) (st0_13 t) fullShare X) ∗ (∃ X, ⌜(rdat m c).after 14 t (Y 14) X⌝ ∗ owns (c : Thread nD τ) (st0_14 t) fullShare X) ∗ (∃ X, ⌜(rdat m c).after 15 t (Y 15) X⌝ ∗ owns (c : Thread nD τ) (st0_15 t) fullShare X) ∗ (∃ X, ⌜(rdat m c).after 16 t (Y 16) X⌝ ∗ owns (c : Thread nD τ) (st0_16 t) fullShare X) ∗ (∃ X, ⌜(rdat m c).after 17 t (Y 17) X⌝ ∗ owns (c : Thread nD τ) (st0_17 t) fullShare X) ∗ (∃ X, ⌜(rdat m c).after 18 t (Y 18) X⌝ ∗ owns (c : Thread nD τ) (st0_18 t) fullShare X) ∗ (∃ X, ⌜(rdat m c).after 19 t (Y 19) X⌝ ∗ owns (c : Thread nD τ) (st0_19 t) fullShare X) ∗ (∃ X, ⌜(rdat m c).after 20 t (Y 20) X⌝ ∗ owns (c : Thread nD τ) (st0_20 t) fullShare X) ∗ (∃ X, ⌜(rdat m c).after 21 t (Y 21) X⌝ ∗ owns (c : Thread nD τ) (st0_21 t) fullShare X) ∗ (∃ X, ⌜(rdat m c).after 22 t (Y 22) X⌝ ∗ owns (c : Thread nD τ) (st0_22 t) fullShare X))) := by
  rw [show (rdat m c).owesAt () t.succ = (rdat m c).owesAt () t.castSucc from rfl, PhiA_eq]
  iintro ⟨⟨⟨%ds, HS⟩, Hg⟩, Ho, H0, H1, H2, H3, H4, H5, H6, H7, H8, H9, H10, H11, H12, H13, H14, H15, H16, H17, H18, H19, H20, H21, H22⟩
  by_cases h0 : t.val = 0
  · have hc : atFirst (grid0.coords t) := (atFirst_iff t).mpr h0
    iapply (run_first c (grid0.coords t) _ _ _ _ _ _ _ _ _ _ _ _ _ _ _ _ _ _ _ _ _ _ _ _ _ _ _ _ _ _ _ _ _ _ _ _ _ _ _ _ _ _ _ _ _ _ _ _ hc (Y 0) (Y 1) (Y 2) (Y 3) (Y 4) (Y 5) (Y 6) (Y 7) (Y 8) (Y 9) (Y 10) (Y 11) (Y 12) (Y 13) (Y 14) (Y 15) (Y 16) (Y 17) (Y 18) (Y 19) (Y 20) (Y 21) ds Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexists _; iexact H22
    isplitl [HS]; · iexact HS
    iintro ⟨H0, H1, H2, H3, H4, H5, H6, H7, H8, H9, H10, H11, H12, H13, H14, H15, H16, H17, H18, H19, H20, H21, H22, HS⟩
    isplitl [HS Hg]
    · isplitl [HS]; · iexists _; iexact HS
      iexact Hg
    isplitl [Ho]; · iexact Ho
    isplitl [H0]
    · iexists _; isplitr
      swap; · iexact H0
      ipureintro; trivial
    isplitl [H1]
    · iexists _; isplitr
      swap; · iexact H1
      ipureintro; trivial
    isplitl [H2]
    · iexists _; isplitr
      swap; · iexact H2
      ipureintro; trivial
    isplitl [H3]
    · iexists _; isplitr
      swap; · iexact H3
      ipureintro; trivial
    isplitl [H4]
    · iexists _; isplitr
      swap; · iexact H4
      ipureintro; trivial
    isplitl [H5]
    · iexists _; isplitr
      swap; · iexact H5
      ipureintro; trivial
    isplitl [H6]
    · iexists _; isplitr
      swap; · iexact H6
      ipureintro; trivial
    isplitl [H7]
    · iexists _; isplitr
      swap; · iexact H7
      ipureintro; trivial
    isplitl [H8]
    · iexists _; isplitr
      swap; · iexact H8
      ipureintro; trivial
    isplitl [H9]
    · iexists _; isplitr
      swap; · iexact H9
      ipureintro; trivial
    isplitl [H10]
    · iexists _; isplitr
      swap; · iexact H10
      ipureintro; trivial
    isplitl [H11]
    · iexists _; isplitr
      swap; · iexact H11
      ipureintro; trivial
    isplitl [H12]
    · iexists _; isplitr
      swap; · iexact H12
      ipureintro; trivial
    isplitl [H13]
    · iexists _; isplitr
      swap; · iexact H13
      ipureintro; trivial
    isplitl [H14]
    · iexists _; isplitr
      swap; · iexact H14
      ipureintro; trivial
    isplitl [H15]
    · iexists _; isplitr
      swap; · iexact H15
      ipureintro; trivial
    isplitl [H16]
    · iexists _; isplitr
      swap; · iexact H16
      ipureintro; trivial
    isplitl [H17]
    · iexists _; isplitr
      swap; · iexact H17
      ipureintro; trivial
    isplitl [H18]
    · iexists _; isplitr
      swap; · iexact H18
      ipureintro; trivial
    isplitl [H19]
    · iexists _; isplitr
      swap; · iexact H19
      ipureintro; trivial
    isplitl [H20]
    · iexists _; isplitr
      swap; · iexact H20
      ipureintro; trivial
    isplitl [H21]
    · iexists _; isplitr
      swap; · iexact H21
      ipureintro; trivial
    iexists _; isplitr
    swap; · iexact H22
    ipureintro; trivial
  · have hc : ¬atFirst (grid0.coords t) := fun h => h0 ((atFirst_iff t).mp h)
    iapply (run_later c (grid0.coords t) _ _ _ _ _ _ _ _ _ _ _ _ _ _ _ _ _ _ _ _ _ _ _ _ _ _ _ _ _ _ _ _ _ _ _ _ _ _ _ _ _ _ _ _ _ _ _ _ hc (Y 0) (Y 1) (Y 2) (Y 3) (Y 4) (Y 5) (Y 6) (Y 7) (Y 8) (Y 9) (Y 10) (Y 11) (Y 12) (Y 13) (Y 14) (Y 15) (Y 16) (Y 17) (Y 18) (Y 19) (Y 20) (Y 21) ds Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexists _; iexact H22
    isplitl [HS]; · iexact HS
    iintro ⟨H0, H1, H2, H3, H4, H5, H6, H7, H8, H9, H10, H11, H12, H13, H14, H15, H16, H17, H18, H19, H20, H21, H22, HS⟩
    isplitl [HS Hg]
    · isplitl [HS]; · iexists _; iexact HS
      iexact Hg
    isplitl [Ho]; · iexact Ho
    isplitl [H0]
    · iexists _; isplitr
      swap; · iexact H0
      ipureintro; trivial
    isplitl [H1]
    · iexists _; isplitr
      swap; · iexact H1
      ipureintro; trivial
    isplitl [H2]
    · iexists _; isplitr
      swap; · iexact H2
      ipureintro; trivial
    isplitl [H3]
    · iexists _; isplitr
      swap; · iexact H3
      ipureintro; trivial
    isplitl [H4]
    · iexists _; isplitr
      swap; · iexact H4
      ipureintro; trivial
    isplitl [H5]
    · iexists _; isplitr
      swap; · iexact H5
      ipureintro; trivial
    isplitl [H6]
    · iexists _; isplitr
      swap; · iexact H6
      ipureintro; trivial
    isplitl [H7]
    · iexists _; isplitr
      swap; · iexact H7
      ipureintro; trivial
    isplitl [H8]
    · iexists _; isplitr
      swap; · iexact H8
      ipureintro; trivial
    isplitl [H9]
    · iexists _; isplitr
      swap; · iexact H9
      ipureintro; trivial
    isplitl [H10]
    · iexists _; isplitr
      swap; · iexact H10
      ipureintro; trivial
    isplitl [H11]
    · iexists _; isplitr
      swap; · iexact H11
      ipureintro; trivial
    isplitl [H12]
    · iexists _; isplitr
      swap; · iexact H12
      ipureintro; trivial
    isplitl [H13]
    · iexists _; isplitr
      swap; · iexact H13
      ipureintro; trivial
    isplitl [H14]
    · iexists _; isplitr
      swap; · iexact H14
      ipureintro; trivial
    isplitl [H15]
    · iexists _; isplitr
      swap; · iexact H15
      ipureintro; trivial
    isplitl [H16]
    · iexists _; isplitr
      swap; · iexact H16
      ipureintro; trivial
    isplitl [H17]
    · iexists _; isplitr
      swap; · iexact H17
      ipureintro; trivial
    isplitl [H18]
    · iexists _; isplitr
      swap; · iexact H18
      ipureintro; trivial
    isplitl [H19]
    · iexists _; isplitr
      swap; · iexact H19
      ipureintro; trivial
    isplitl [H20]
    · iexists _; isplitr
      swap; · iexact H20
      ipureintro; trivial
    isplitl [H21]
    · iexists _; isplitr
      swap; · iexact H21
      ipureintro; trivial
    iexists _; isplitr
    swap; · iexact H22
    ipureintro; trivial

/-- The library's relational body obligation, at every point. -/
theorem body_obligation (c : Dev nD) :
    (rdat m c).BodyObligation (defs₀ (F := F)) Variants.none () Set.univ := fun t Y _ => by
  rw [bigSep_W0, bigSep_W0]
  exact sound_body m c t Y

set_option backward.isDefEq.respectTransparency.types false in
/-- Every weakly fair execution of the program terminates, nothing faulting, with every array of the pipeline at
    contents the relational data allows and every other unscoped buffer as the region found it. -/
theorem run_main : θ_run defs (onTc (τ := τ) (main (F := F))) (s₀ m ρ) (Pipeline.RDat.FramePost cfg0 (rdat m) (V m)) :=
  Pipeline.RDat.θ_run_frame cfgs (0 : Fin 1) launch0 defs₀ Variants.none (rdat m) m ρ main
    (hbody := body_obligation m) (hshare := fun c w => by unfold RDat.share; split <;> rfl)
    (howed := fun _ _ => rfl) (V := V m) (hmain := hmain m Variants.none) (hA := fun _ _ => rfl)
    (hΦ := fun _ _ => rfl)

set_option maxHeartbeats 1600000 in
/-- The frame: the program runs and its twenty-two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => ⟨(Eq.mp (congrFun ((rdat m c).ArrAt_in 0 rfl cfg0.N) _) ((h c).1 0)).trans (V_main_arg0 m c),
      (Eq.mp (congrFun ((rdat m c).ArrAt_in 1 rfl cfg0.N) _) ((h c).1 1)).trans (V_main_arg1 m c),
      (Eq.mp (congrFun ((rdat m c).ArrAt_in 2 rfl cfg0.N) _) ((h c).1 2)).trans (V_main_arg2 m c),
      ((h c).2 main_arg3 (Pipeline.mem_restRefs_of main_arg3 (by decide) (by decide))).trans (V_main_arg3 m c),
      (Eq.mp (congrFun ((rdat m c).ArrAt_in 4 rfl cfg0.N) _) ((h c).1 4)).trans (V_main_arg4 m c),
      ((h c).2 main_arg5 (Pipeline.mem_restRefs_of main_arg5 (by decide) (by decide))).trans (V_main_arg5 m c),
      (Eq.mp (congrFun ((rdat m c).ArrAt_in 6 rfl cfg0.N) _) ((h c).1 6)).trans (V_main_arg6 m c),
      ((h c).2 main_arg7 (Pipeline.mem_restRefs_of main_arg7 (by decide) (by decide))).trans (V_main_arg7 m c),
      (Eq.mp (congrFun ((rdat m c).ArrAt_in 8 rfl cfg0.N) _) ((h c).1 8)).trans (V_main_arg8 m c),
      ((h c).2 main_arg9 (Pipeline.mem_restRefs_of main_arg9 (by decide) (by decide))).trans (V_main_arg9 m c),
      (Eq.mp (congrFun ((rdat m c).ArrAt_in 10 rfl cfg0.N) _) ((h c).1 10)).trans (V_main_arg10 m c),
      ((h c).2 main_arg11 (Pipeline.mem_restRefs_of main_arg11 (by decide) (by decide))).trans (V_main_arg11 m c),
      (Eq.mp (congrFun ((rdat m c).ArrAt_in 12 rfl cfg0.N) _) ((h c).1 12)).trans (V_main_arg12 m c),
      ((h c).2 main_arg13 (Pipeline.mem_restRefs_of main_arg13 (by decide) (by decide))).trans (V_main_arg13 m c),
      (Eq.mp (congrFun ((rdat m c).ArrAt_in 14 rfl cfg0.N) _) ((h c).1 14)).trans (V_main_arg14 m c),
      ((h c).2 main_arg15 (Pipeline.mem_restRefs_of main_arg15 (by decide) (by decide))).trans (V_main_arg15 m c),
      (Eq.mp (congrFun ((rdat m c).ArrAt_in 16 rfl cfg0.N) _) ((h c).1 16)).trans (V_main_arg16 m c),
      ((h c).2 main_arg17 (Pipeline.mem_restRefs_of main_arg17 (by decide) (by decide))).trans (V_main_arg17 m c),
      (Eq.mp (congrFun ((rdat m c).ArrAt_in 18 rfl cfg0.N) _) ((h c).1 18)).trans (V_main_arg18 m c),
      ((h c).2 main_arg19 (Pipeline.mem_restRefs_of main_arg19 (by decide) (by decide))).trans (V_main_arg19 m c),
      (Eq.mp (congrFun ((rdat m c).ArrAt_in 20 rfl cfg0.N) _) ((h c).1 20)).trans (V_main_arg20 m c),
      ((h c).2 main_arg21 (Pipeline.mem_restRefs_of main_arg21 (by decide) (by decide))).trans (V_main_arg21 m c)⟩) (run_main m ρ)

end Cert.Kernel.FrameRel

end
-- ==== Proof.IdealBodyDefs.lean ====
/-
  What the kernel body reads and writes at one grid point, as functions of the buffers' contents.

  The body keeps the transformed node features in a scratch of 10240 rows. Its one branch, taken at the first grid
  point only, fills the scratch's first 10000 rows with the features of the whole input. At every point it then reads
  those 10000 rows (all of the features), the 640 rows of the scratch that belong to the point's block (the block's
  own features), the block of 640 rows of the adjacency matrix and the weights, and stores the gated update of the
  block's rows into the output block. The definitions below name these reads and the stored value; they are generic
  in the number format, so they serve the program read at words and read at extended reals alike.
-/
import proofs.«174394_g59339268162203_cont_sun_m_386_9_alg».proof.Proof.Gen.KernelIdeal.Frame
import proofs.«174394_g59339268162203_cont_sun_m_386_9_alg».proof.Proof.Gen.KernelIdeal.Skeleton
import proofs.«174394_g59339268162203_cont_sun_m_386_9_alg».proof.Proof.LibWhole
import proofs.«174394_g59339268162203_cont_sun_m_386_9_alg».proof.Proof.LibOneStore
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The condition of the body's one branch, from the grid coordinates. -/
abbrev atFirst (i : grid0.Coords) : Prop :=
  (Scalar.cmpi .ne (Scalar.extui (Scalar.cmpi .eq (BitVec.ofNat 32 (i 0).val) 0#32)) 0#32) = 1#1

/-- It holds at the first of the sixteen grid points and at no other: decided over the grid. -/
theorem atFirst_iff : ∀ t : Fin cfg0.N, atFirst (grid0.coords t) ↔ t.val = 0 :=
  (by decide +kernel : ∀ t : Fin grid0.N, atFirst (grid0.coords t) ↔ t.val = 0)

/-- The rectangle of the scratch's first 10000 rows. -/
abbrev topRect : Rect S10240x128 :=
  Rect.unit (s := S10240x128) ![0, 0] S10000x128.size inb_S10240x128_S10000x128_0_0

/-- The first 10000 rows of scratch contents. -/
def scrTop (s : Vec F S10240x128 .f32) : Vec F S10000x128 .f32 := View.ld s topRect

/-- The 640 rows of scratch contents that belong to the block of the point with coordinates i. -/
def scrBlk (i : grid0.Coords) (s : Vec F S10240x128 .f32) : Vec F S640x128 .f32 :=
  View.ld s (Rect.unit (s := S10240x128) (k0_off1 i) S640x128.size (k0_off1_inb i))

/-- What the body stores into the output block: from the adjacency block x2, the weights and biases of the second
    perceptron and of the three gates, and the scratch contents s. -/
def outOf (i : grid0.Coords) (x2 : Vec F S640x10000 .f32) (x7 : Vec F S128x128 .f32) (x8 : Vec F S1x128 .f32) (x9 : Vec F S128x128 .f32) (x10 : Vec F S1x128 .f32) (x11 : Vec F S128x128 .f32) (x12 : Vec F S1x128 .f32) (x13 : Vec F S128x128 .f32) (x14 : Vec F S1x128 .f32) (x15 : Vec F S128x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32)
    (s : Vec F S10240x128 .f32) : FVec F S640x128 .f32 :=
  k0_pay1 (scrBlk i s)
    (k0_pay5 (scrBlk i s) (k0_pay4 x2 (scrTop s) x7 x8 x9 x10 x11 x12) x13 x14)
    (k0_pay6 (k0_pay3 x2 (scrTop s) x7 x8 x9 x10) (scrBlk i s) x15 x16 x17 x18 x19 x20 x21 x22)

/-- The scratch after the first point's store: its first 10000 rows replaced by the transformed features of the
    whole input x1 (weights x3, x5; biases x4, x6), the rest as it was. -/
def scrNew (x1 : Vec F S10000x128 .f32) (x3 : Vec F S128x128 .f32) (x4 : Vec F S1x128 .f32) (x5 : Vec F S128x128 .f32)
    (x6 : Vec F S1x128 .f32) (s : Vec F S10240x128 .f32) : Vec F S10240x128 .f32 :=
  topRect.overlay s (k0_pay2 x1 x3 x4 x5 x6)

/-- Its first 10000 rows are those features. -/
theorem scrTop_scrNew (x1 : Vec F S10000x128 .f32) (x3 : Vec F S128x128 .f32) (x4 : Vec F S1x128 .f32)
    (x5 : Vec F S128x128 .f32) (x6 : Vec F S1x128 .f32) (s : Vec F S10240x128 .f32) :
    scrTop (scrNew x1 x3 x4 x5 x6 s) = k0_pay2 x1 x3 x4 x5 x6 :=
  View.ld_overlay_self (α := Elt F) topRect s _

/-- The scratch the kernel carries between grid points, as a whole memref. -/
abbrev scM : Memref sig .tc .vmem S10240x128 .f32 := Memref.whole cc0_scratch0

/-- The region's invariant with the scratch as a memref owned at some contents: what the body obligation hands the
    body and takes back. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Body

end
-- ==== Proof.IdealBodyLater.lean ====
/-
  The kernel body at a grid point other than the first, on any whole buffers.

  The branch is not taken. The body loads every input buffer whole, the scratch's first 10000 rows and the 640 rows
  of the scratch that belong to the point's block, and stores one value, whole, into the output buffer. So from any
  contents of the inputs and of the scratch it runs to the end without a fault, leaves the inputs and the scratch as
  they were, and leaves the output buffer holding the stored value as a function of what it loaded.
-/
import proofs.«174394_g59339268162203_cont_sun_m_386_9_alg».proof.Proof.IdealBodyDefs
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 4000000 in
/-- The body where the branch is not taken: inputs and scratch unchanged, the output buffer at the stored value. -/
theorem run_later (c : Dev nD) (i : grid0.Coords) (arg1 : Memref sig .tc .vmem S10000x128 .f32) (harg1 : arg1.IsWhole) (arg2 : Memref sig .tc .vmem S640x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S128x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S640x128 .f32) (harg23 : arg23.IsWhole) (arg24 : Memref sig .tc .vmem S10240x128 .f32) (harg24 : arg24.IsWhole) (hc0 : ¬atFirst i)
    (x1 : Vec F S10000x128 .f32) (x2 : Vec F S640x10000 .f32) (x3 : Vec F S128x128 .f32) (x4 : Vec F S1x128 .f32) (x5 : Vec F S128x128 .f32) (x6 : Vec F S1x128 .f32) (x7 : Vec F S128x128 .f32) (x8 : Vec F S1x128 .f32) (x9 : Vec F S128x128 .f32) (x10 : Vec F S1x128 .f32) (x11 : Vec F S128x128 .f32) (x12 : Vec F S1x128 .f32) (x13 : Vec F S128x128 .f32) (x14 : Vec F S1x128 .f32) (x15 : Vec F S128x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32) (s : Vec F S10240x128 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ (∃ d, owns (c : Thread nD τ) arg23 fullShare d) ∗ owns (c : Thread nD τ) arg24 fullShare s
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare (outOf i x2 x7 x8 x9 x10 x11 x12 x13 x14 x15 x16 x17 x18 x19 x20 x21 x22 s) ∗ owns (c : Thread nD τ) arg24 fullShare s) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0__fused_kernel_eq_skeleton]; unfold cc0__fused_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, %hf23, H23⟩, ⟨%f24, %hf24, H24⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22
  obtain rfl := harg24.eq_unread hf24
  sl_exec (disch := first | exact hc0)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr; · ipureintro; exact harg20.read_unread _
    iexact H20
  isplitl [H21]
  · iexists _; isplitr; · ipureintro; exact harg21.read_unread _
    iexact H21
  isplitl [H22]
  · iexists _; isplitr; · ipureintro; exact harg22.read_unread _
    iexact H22
  isplitl [H23]
  · iexists _; isplitr
    swap; · iexact H23
    ipureintro
    rw [View.read_writes_unit_whole _ _ vecZero2]
    have hz : (![0, 0] : Fin 2 → Nat) = fun _ => 0 := funext fun a => by fin_cases a <;> rfl
    sl_unfold_run_names
    simp only [View.readAt_eq_ld, Memref.IsWhole.read_unread, View.ld_unit_zero (S := S10000x128) hz, View.ld_unit_zero (S := S640x10000) hz, View.ld_unit_zero (S := S128x128) hz, View.ld_unit_zero (S := S1x128) hz]
    rfl
  · iexists _; isplitr; · ipureintro; exact harg24.read_unread _
    iexact H24

end Cert.KernelIdeal.Body

end
-- ==== Proof.IdealBodyFirst.lean ====
/-
  The kernel body at the first grid point, on any whole buffers.

  The branch is taken: the body loads the whole input features and the first perceptron's weights and biases and
  stores the transformed features into the scratch's first 10000 rows. Everything it loads from the scratch
  afterwards it reads from the scratch as that store left it: the first 10000 rows are the stored features
  themselves, and the block's 640 rows are read off the old contents overlaid with them. The rest is as at any other
  point. So from any contents it runs to the end without a fault, leaves the inputs as they were, the scratch at its
  old contents overlaid with the features, and the output buffer at the stored value computed from that scratch.
-/
import proofs.«174394_g59339268162203_cont_sun_m_386_9_alg».proof.Proof.IdealBodyDefs
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 4000000 in
/-- The body where the branch is taken: inputs unchanged, the scratch's first 10000 rows at the transformed features,
    the output buffer at the stored value read off the new scratch. -/
theorem run_first (c : Dev nD) (i : grid0.Coords) (arg1 : Memref sig .tc .vmem S10000x128 .f32) (harg1 : arg1.IsWhole) (arg2 : Memref sig .tc .vmem S640x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S128x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S128x128 .f32) (harg21 : arg21.IsWhole) (arg22 : Memref sig .tc .vmem S1x128 .f32) (harg22 : arg22.IsWhole) (arg23 : Memref sig .tc .vmem S640x128 .f32) (harg23 : arg23.IsWhole) (arg24 : Memref sig .tc .vmem S10240x128 .f32) (harg24 : arg24.IsWhole) (hc0 : atFirst i)
    (x1 : Vec F S10000x128 .f32) (x2 : Vec F S640x10000 .f32) (x3 : Vec F S128x128 .f32) (x4 : Vec F S1x128 .f32) (x5 : Vec F S128x128 .f32) (x6 : Vec F S1x128 .f32) (x7 : Vec F S128x128 .f32) (x8 : Vec F S1x128 .f32) (x9 : Vec F S128x128 .f32) (x10 : Vec F S1x128 .f32) (x11 : Vec F S128x128 .f32) (x12 : Vec F S1x128 .f32) (x13 : Vec F S128x128 .f32) (x14 : Vec F S1x128 .f32) (x15 : Vec F S128x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32) (s : Vec F S10240x128 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ (∃ d, owns (c : Thread nD τ) arg23 fullShare d) ∗ owns (c : Thread nD τ) arg24 fullShare s
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare (outOf i x2 x7 x8 x9 x10 x11 x12 x13 x14 x15 x16 x17 x18 x19 x20 x21 x22 (scrNew x1 x3 x4 x5 x6 s)) ∗ owns (c : Thread nD τ) arg24 fullShare (scrNew x1 x3 x4 x5 x6 s)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0__fused_kernel_eq_skeleton]; unfold cc0__fused_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, %hf23, H23⟩, ⟨%f24, %hf24, H24⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22
  obtain rfl := harg24.eq_unread hf24
  sl_exec (disch := first | exact hc0)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr; · ipureintro; exact harg20.read_unread _
    iexact H20
  isplitl [H21]
  · iexists _; isplitr; · ipureintro; exact harg21.read_unread _
    iexact H21
  isplitl [H22]
  · iexists _; isplitr; · ipureintro; exact harg22.read_unread _
    iexact H22
  isplitl [H23]
  · iexists _; isplitr
    swap; · iexact H23
    ipureintro
    rw [View.read_writes_unit_whole _ _ vecZero2]
    have hz : (![0, 0] : Fin 2 → Nat) = fun _ => 0 := funext fun a => by fin_cases a <;> rfl
    sl_unfold_run_names
    simp only [View.readCov_one_self, View.readAt_eq_ld, View.read_writes_one, Memref.IsWhole.read_unread,
      View.ld_unit_zero (S := S10000x128) hz, View.ld_unit_zero (S := S640x10000) hz, View.ld_unit_zero (S := S128x128) hz, View.ld_unit_zero (S := S1x128) hz]
    unfold outOf
    rw [scrTop_scrNew]
    rfl
  · iexists _; isplitr
    swap; · iexact H24
    ipureintro
    have hz : (![0, 0] : Fin 2 → Nat) = fun _ => 0 := funext fun a => by fin_cases a <;> rfl
    sl_unfold_run_names
    simp only [View.readAt_eq_ld, View.read_writes_one, Memref.IsWhole.read_unread, View.ld_unit_zero (S := S10000x128) hz, View.ld_unit_zero (S := S640x10000) hz, View.ld_unit_zero (S := S128x128) hz, View.ld_unit_zero (S := S1x128) hz]
    rfl

end Cert.KernelIdeal.Body

end
-- ==== Proof.IdealFrameRel.lean ====
/-
  The program runs to the end, faults nowhere, and leaves its argument arrays as they were.

  For this claim nothing needs to be said of what the body computes. The proof data is relational and says nothing
  of what the body leaves in any staging buffer; the region's invariant is the plain one, the scratch at any contents.
  The body obligation is then only that, at every grid point and from ANY contents of the staging buffers and of the
  scratch, the body runs to the end without a fault and hands every buffer back: at the first point by the run with
  the branch taken, at every other point by the run with the branch not taken. An argument array that a window stages
  is an input of the pipeline, which never writes it back, so it ends as the region found it; an argument array no
  window stages bypasses the region; and no host operation before the region writes an argument. This is generic in
  the number format, so it gives the frame of the program read at words and at extended reals alike.
-/
import proofs.«174394_g59339268162203_cont_sun_m_386_9_alg».proof.Proof.IdealBodyLater
import proofs.«174394_g59339268162203_cont_sun_m_386_9_alg».proof.Proof.IdealBodyFirst
import Idealize.ShloMosaic.Lib.Pipeline.FrameBody
import Idealize.ShloMosaic.Lib.Pipeline.Value
import Idealize.ShloMosaic.Lib.Tactic

set_option maxRecDepth 16384

noncomputable section

namespace Cert.KernelIdeal.FrameRel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Cert.KernelIdeal.Body

variable (m : (ℓ : Loc nD τ sig) → Buf (Elt F) ℓ) (ρ : Dev nD → PrngReg)

/-- The relational proof data of the one pipeline on core c: the arrays as the region finds them, nothing said of what
    the body leaves in a staging buffer, the plain invariant, nothing owed, full shares. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

set_option maxHeartbeats 4000000 in
/-- The body at any grid point, from any contents of the staging buffers: it runs, and hands every buffer back. -/
theorem sound_body (c : Dev nD) (t : Fin cfg0.N)
    (Y : (w : Fin cfg0.W) → (cfg0.win w).block.Idx → Elt F (cfg0.win w).elt) :
    iprop(Pipeline.ΦA spec0 c ∗ (rdat m c).owesAt () t.castSucc ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10) ∗ owns (c : Thread nD τ) (st0_11 t) fullShare (Y 11) ∗ owns (c : Thread nD τ) (st0_12 t) fullShare (Y 12) ∗ owns (c : Thread nD τ) (st0_13 t) fullShare (Y 13) ∗ owns (c : Thread nD τ) (st0_14 t) fullShare (Y 14) ∗ owns (c : Thread nD τ) (st0_15 t) fullShare (Y 15) ∗ owns (c : Thread nD τ) (st0_16 t) fullShare (Y 16) ∗ owns (c : Thread nD τ) (st0_17 t) fullShare (Y 17) ∗ owns (c : Thread nD τ) (st0_18 t) fullShare (Y 18) ∗ owns (c : Thread nD τ) (st0_19 t) fullShare (Y 19) ∗ owns (c : Thread nD τ) (st0_20 t) fullShare (Y 20) ∗ owns (c : Thread nD τ) (st0_21 t) fullShare (Y 21) ∗ owns (c : Thread nD τ) (st0_22 t) fullShare (Y 22))
      ⊢ wp frame (wpE (defs₀ (F := F)) Variants.none c none) Set.univ (bodyAt0 t) (fun _ =>
          iprop(Pipeline.ΦA spec0 c ∗ (rdat m c).owesAt () t.succ ∗ (∃ X, ⌜(rdat m c).after 0 t (Y 0) X⌝ ∗ owns (c : Thread nD τ) (st0_0 t) fullShare X) ∗ (∃ X, ⌜(rdat m c).after 1 t (Y 1) X⌝ ∗ owns (c : Thread nD τ) (st0_1 t) fullShare X) ∗ (∃ X, ⌜(rdat m c).after 2 t (Y 2) X⌝ ∗ owns (c : Thread nD τ) (st0_2 t) fullShare X) ∗ (∃ X, ⌜(rdat m c).after 3 t (Y 3) X⌝ ∗ owns (c : Thread nD τ) (st0_3 t) fullShare X) ∗ (∃ X, ⌜(rdat m c).after 4 t (Y 4) X⌝ ∗ owns (c : Thread nD τ) (st0_4 t) fullShare X) ∗ (∃ X, ⌜(rdat m c).after 5 t (Y 5) X⌝ ∗ owns (c : Thread nD τ) (st0_5 t) fullShare X) ∗ (∃ X, ⌜(rdat m c).after 6 t (Y 6) X⌝ ∗ owns (c : Thread nD τ) (st0_6 t) fullShare X) ∗ (∃ X, ⌜(rdat m c).after 7 t (Y 7) X⌝ ∗ owns (c : Thread nD τ) (st0_7 t) fullShare X) ∗ (∃ X, ⌜(rdat m c).after 8 t (Y 8) X⌝ ∗ owns (c : Thread nD τ) (st0_8 t) fullShare X) ∗ (∃ X, ⌜(rdat m c).after 9 t (Y 9) X⌝ ∗ owns (c : Thread nD τ) (st0_9 t) fullShare X) ∗ (∃ X, ⌜(rdat m c).after 10 t (Y 10) X⌝ ∗ owns (c : Thread nD τ) (st0_10 t) fullShare X) ∗ (∃ X, ⌜(rdat m c).after 11 t (Y 11) X⌝ ∗ owns (c : Thread nD τ) (st0_11 t) fullShare X) ∗ (∃ X, ⌜(rdat m c).after 12 t (Y 12) X⌝ ∗ owns (c : Thread nD τ) (st0_12 t) fullShare X) ∗ (∃ X, ⌜(rdat m c).after 13 t (Y 13) X⌝ ∗ owns (c : Thread nD τ) (st0_13 t) fullShare X) ∗ (∃ X, ⌜(rdat m c).after 14 t (Y 14) X⌝ ∗ owns (c : Thread nD τ) (st0_14 t) fullShare X) ∗ (∃ X, ⌜(rdat m c).after 15 t (Y 15) X⌝ ∗ owns (c : Thread nD τ) (st0_15 t) fullShare X) ∗ (∃ X, ⌜(rdat m c).after 16 t (Y 16) X⌝ ∗ owns (c : Thread nD τ) (st0_16 t) fullShare X) ∗ (∃ X, ⌜(rdat m c).after 17 t (Y 17) X⌝ ∗ owns (c : Thread nD τ) (st0_17 t) fullShare X) ∗ (∃ X, ⌜(rdat m c).after 18 t (Y 18) X⌝ ∗ owns (c : Thread nD τ) (st0_18 t) fullShare X) ∗ (∃ X, ⌜(rdat m c).after 19 t (Y 19) X⌝ ∗ owns (c : Thread nD τ) (st0_19 t) fullShare X) ∗ (∃ X, ⌜(rdat m c).after 20 t (Y 20) X⌝ ∗ owns (c : Thread nD τ) (st0_20 t) fullShare X) ∗ (∃ X, ⌜(rdat m c).after 21 t (Y 21) X⌝ ∗ owns (c : Thread nD τ) (st0_21 t) fullShare X) ∗ (∃ X, ⌜(rdat m c).after 22 t (Y 22) X⌝ ∗ owns (c : Thread nD τ) (st0_22 t) fullShare X))) := by
  rw [show (rdat m c).owesAt () t.succ = (rdat m c).owesAt () t.castSucc from rfl, PhiA_eq]
  iintro ⟨⟨⟨%ds, HS⟩, Hg⟩, Ho, H0, H1, H2, H3, H4, H5, H6, H7, H8, H9, H10, H11, H12, H13, H14, H15, H16, H17, H18, H19, H20, H21, H22⟩
  by_cases h0 : t.val = 0
  · have hc : atFirst (grid0.coords t) := (atFirst_iff t).mpr h0
    iapply (run_first c (grid0.coords t) _ _ _ _ _ _ _ _ _ _ _ _ _ _ _ _ _ _ _ _ _ _ _ _ _ _ _ _ _ _ _ _ _ _ _ _ _ _ _ _ _ _ _ _ _ _ _ _ hc (Y 0) (Y 1) (Y 2) (Y 3) (Y 4) (Y 5) (Y 6) (Y 7) (Y 8) (Y 9) (Y 10) (Y 11) (Y 12) (Y 13) (Y 14) (Y 15) (Y 16) (Y 17) (Y 18) (Y 19) (Y 20) (Y 21) ds Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexists _; iexact H22
    isplitl [HS]; · iexact HS
    iintro ⟨H0, H1, H2, H3, H4, H5, H6, H7, H8, H9, H10, H11, H12, H13, H14, H15, H16, H17, H18, H19, H20, H21, H22, HS⟩
    isplitl [HS Hg]
    · isplitl [HS]; · iexists _; iexact HS
      iexact Hg
    isplitl [Ho]; · iexact Ho
    isplitl [H0]
    · iexists _; isplitr
      swap; · iexact H0
      ipureintro; trivial
    isplitl [H1]
    · iexists _; isplitr
      swap; · iexact H1
      ipureintro; trivial
    isplitl [H2]
    · iexists _; isplitr
      swap; · iexact H2
      ipureintro; trivial
    isplitl [H3]
    · iexists _; isplitr
      swap; · iexact H3
      ipureintro; trivial
    isplitl [H4]
    · iexists _; isplitr
      swap; · iexact H4
      ipureintro; trivial
    isplitl [H5]
    · iexists _; isplitr
      swap; · iexact H5
      ipureintro; trivial
    isplitl [H6]
    · iexists _; isplitr
      swap; · iexact H6
      ipureintro; trivial
    isplitl [H7]
    · iexists _; isplitr
      swap; · iexact H7
      ipureintro; trivial
    isplitl [H8]
    · iexists _; isplitr
      swap; · iexact H8
      ipureintro; trivial
    isplitl [H9]
    · iexists _; isplitr
      swap; · iexact H9
      ipureintro; trivial
    isplitl [H10]
    · iexists _; isplitr
      swap; · iexact H10
      ipureintro; trivial
    isplitl [H11]
    · iexists _; isplitr
      swap; · iexact H11
      ipureintro; trivial
    isplitl [H12]
    · iexists _; isplitr
      swap; · iexact H12
      ipureintro; trivial
    isplitl [H13]
    · iexists _; isplitr
      swap; · iexact H13
      ipureintro; trivial
    isplitl [H14]
    · iexists _; isplitr
      swap; · iexact H14
      ipureintro; trivial
    isplitl [H15]
    · iexists _; isplitr
      swap; · iexact H15
      ipureintro; trivial
    isplitl [H16]
    · iexists _; isplitr
      swap; · iexact H16
      ipureintro; trivial
    isplitl [H17]
    · iexists _; isplitr
      swap; · iexact H17
      ipureintro; trivial
    isplitl [H18]
    · iexists _; isplitr
      swap; · iexact H18
      ipureintro; trivial
    isplitl [H19]
    · iexists _; isplitr
      swap; · iexact H19
      ipureintro; trivial
    isplitl [H20]
    · iexists _; isplitr
      swap; · iexact H20
      ipureintro; trivial
    isplitl [H21]
    · iexists _; isplitr
      swap; · iexact H21
      ipureintro; trivial
    iexists _; isplitr
    swap; · iexact H22
    ipureintro; trivial
  · have hc : ¬atFirst (grid0.coords t) := fun h => h0 ((atFirst_iff t).mp h)
    iapply (run_later c (grid0.coords t) _ _ _ _ _ _ _ _ _ _ _ _ _ _ _ _ _ _ _ _ _ _ _ _ _ _ _ _ _ _ _ _ _ _ _ _ _ _ _ _ _ _ _ _ _ _ _ _ hc (Y 0) (Y 1) (Y 2) (Y 3) (Y 4) (Y 5) (Y 6) (Y 7) (Y 8) (Y 9) (Y 10) (Y 11) (Y 12) (Y 13) (Y 14) (Y 15) (Y 16) (Y 17) (Y 18) (Y 19) (Y 20) (Y 21) ds Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexists _; iexact H22
    isplitl [HS]; · iexact HS
    iintro ⟨H0, H1, H2, H3, H4, H5, H6, H7, H8, H9, H10, H11, H12, H13, H14, H15, H16, H17, H18, H19, H20, H21, H22, HS⟩
    isplitl [HS Hg]
    · isplitl [HS]; · iexists _; iexact HS
      iexact Hg
    isplitl [Ho]; · iexact Ho
    isplitl [H0]
    · iexists _; isplitr
      swap; · iexact H0
      ipureintro; trivial
    isplitl [H1]
    · iexists _; isplitr
      swap; · iexact H1
      ipureintro; trivial
    isplitl [H2]
    · iexists _; isplitr
      swap; · iexact H2
      ipureintro; trivial
    isplitl [H3]
    · iexists _; isplitr
      swap; · iexact H3
      ipureintro; trivial
    isplitl [H4]
    · iexists _; isplitr
      swap; · iexact H4
      ipureintro; trivial
    isplitl [H5]
    · iexists _; isplitr
      swap; · iexact H5
      ipureintro; trivial
    isplitl [H6]
    · iexists _; isplitr
      swap; · iexact H6
      ipureintro; trivial
    isplitl [H7]
    · iexists _; isplitr
      swap; · iexact H7
      ipureintro; trivial
    isplitl [H8]
    · iexists _; isplitr
      swap; · iexact H8
      ipureintro; trivial
    isplitl [H9]
    · iexists _; isplitr
      swap; · iexact H9
      ipureintro; trivial
    isplitl [H10]
    · iexists _; isplitr
      swap; · iexact H10
      ipureintro; trivial
    isplitl [H11]
    · iexists _; isplitr
      swap; · iexact H11
      ipureintro; trivial
    isplitl [H12]
    · iexists _; isplitr
      swap; · iexact H12
      ipureintro; trivial
    isplitl [H13]
    · iexists _; isplitr
      swap; · iexact H13
      ipureintro; trivial
    isplitl [H14]
    · iexists _; isplitr
      swap; · iexact H14
      ipureintro; trivial
    isplitl [H15]
    · iexists _; isplitr
      swap; · iexact H15
      ipureintro; trivial
    isplitl [H16]
    · iexists _; isplitr
      swap; · iexact H16
      ipureintro; trivial
    isplitl [H17]
    · iexists _; isplitr
      swap; · iexact H17
      ipureintro; trivial
    isplitl [H18]
    · iexists _; isplitr
      swap; · iexact H18
      ipureintro; trivial
    isplitl [H19]
    · iexists _; isplitr
      swap; · iexact H19
      ipureintro; trivial
    isplitl [H20]
    · iexists _; isplitr
      swap; · iexact H20
      ipureintro; trivial
    isplitl [H21]
    · iexists _; isplitr
      swap; · iexact H21
      ipureintro; trivial
    iexists _; isplitr
    swap; · iexact H22
    ipureintro; trivial

/-- The library's relational body obligation, at every point. -/
theorem body_obligation (c : Dev nD) :
    (rdat m c).BodyObligation (defs₀ (F := F)) Variants.none () Set.univ := fun t Y _ => by
  rw [bigSep_W0, bigSep_W0]
  exact sound_body m c t Y

set_option backward.isDefEq.respectTransparency.types false in
/-- Every weakly fair execution of the program terminates, nothing faulting, with every array of the pipeline at
    contents the relational data allows and every other unscoped buffer as the region found it. -/
theorem run_main : θ_run defs (onTc (τ := τ) (main (F := F))) (s₀ m ρ) (Pipeline.RDat.FramePost cfg0 (rdat m) (V m)) :=
  Pipeline.RDat.θ_run_frame cfgs (0 : Fin 1) launch0 defs₀ Variants.none (rdat m) m ρ main
    (hbody := body_obligation m) (hshare := fun c w => by unfold RDat.share; split <;> rfl)
    (howed := fun _ _ => rfl) (V := V m) (hmain := hmain m Variants.none) (hA := fun _ _ => rfl)
    (hΦ := fun _ _ => rfl)

set_option maxHeartbeats 1600000 in
/-- The frame: the program runs and its twenty-two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => ⟨(Eq.mp (congrFun ((rdat m c).ArrAt_in 0 rfl cfg0.N) _) ((h c).1 0)).trans (V_main_arg0 m c),
      (Eq.mp (congrFun ((rdat m c).ArrAt_in 1 rfl cfg0.N) _) ((h c).1 1)).trans (V_main_arg1 m c),
      (Eq.mp (congrFun ((rdat m c).ArrAt_in 2 rfl cfg0.N) _) ((h c).1 2)).trans (V_main_arg2 m c),
      ((h c).2 main_arg3 (Pipeline.mem_restRefs_of main_arg3 (by decide) (by decide))).trans (V_main_arg3 m c),
      (Eq.mp (congrFun ((rdat m c).ArrAt_in 4 rfl cfg0.N) _) ((h c).1 4)).trans (V_main_arg4 m c),
      ((h c).2 main_arg5 (Pipeline.mem_restRefs_of main_arg5 (by decide) (by decide))).trans (V_main_arg5 m c),
      (Eq.mp (congrFun ((rdat m c).ArrAt_in 6 rfl cfg0.N) _) ((h c).1 6)).trans (V_main_arg6 m c),
      ((h c).2 main_arg7 (Pipeline.mem_restRefs_of main_arg7 (by decide) (by decide))).trans (V_main_arg7 m c),
      (Eq.mp (congrFun ((rdat m c).ArrAt_in 8 rfl cfg0.N) _) ((h c).1 8)).trans (V_main_arg8 m c),
      ((h c).2 main_arg9 (Pipeline.mem_restRefs_of main_arg9 (by decide) (by decide))).trans (V_main_arg9 m c),
      (Eq.mp (congrFun ((rdat m c).ArrAt_in 10 rfl cfg0.N) _) ((h c).1 10)).trans (V_main_arg10 m c),
      ((h c).2 main_arg11 (Pipeline.mem_restRefs_of main_arg11 (by decide) (by decide))).trans (V_main_arg11 m c),
      (Eq.mp (congrFun ((rdat m c).ArrAt_in 12 rfl cfg0.N) _) ((h c).1 12)).trans (V_main_arg12 m c),
      ((h c).2 main_arg13 (Pipeline.mem_restRefs_of main_arg13 (by decide) (by decide))).trans (V_main_arg13 m c),
      (Eq.mp (congrFun ((rdat m c).ArrAt_in 14 rfl cfg0.N) _) ((h c).1 14)).trans (V_main_arg14 m c),
      ((h c).2 main_arg15 (Pipeline.mem_restRefs_of main_arg15 (by decide) (by decide))).trans (V_main_arg15 m c),
      (Eq.mp (congrFun ((rdat m c).ArrAt_in 16 rfl cfg0.N) _) ((h c).1 16)).trans (V_main_arg16 m c),
      ((h c).2 main_arg17 (Pipeline.mem_restRefs_of main_arg17 (by decide) (by decide))).trans (V_main_arg17 m c),
      (Eq.mp (congrFun ((rdat m c).ArrAt_in 18 rfl cfg0.N) _) ((h c).1 18)).trans (V_main_arg18 m c),
      ((h c).2 main_arg19 (Pipeline.mem_restRefs_of main_arg19 (by decide) (by decide))).trans (V_main_arg19 m c),
      (Eq.mp (congrFun ((rdat m c).ArrAt_in 20 rfl cfg0.N) _) ((h c).1 20)).trans (V_main_arg20 m c),
      ((h c).2 main_arg21 (Pipeline.mem_restRefs_of main_arg21 (by decide) (by decide))).trans (V_main_arg21 m c)⟩) (run_main m ρ)

end Cert.KernelIdeal.FrameRel

end
-- ==== Proof.IdealBlocks.lean ====
/-
  What the pipeline's windows hold: the windows' blocks as parts of the argument arrays.

  Twenty-one of the twenty-three windows have one block, their whole array, at every grid point: the block read is the
  array. Ten of those arrays are written by the host before the region: a bias vector of 128 entries re-shaped into a
  1×128 row. The adjacency window's block at point t is rows 640·t … of the matrix and the output window's block is
  the same rows of the result; at the last point both overhang the 10000 rows by 240, and the part inside is 400
  rows. The scratch rows the body reads for the block of point t start at row 640·t as well. All of this is decided
  over the sixteen points of the grid.
-/
import proofs.«174394_g59339268162203_cont_sun_m_386_9_alg».proof.Proof.IdealBodyDefs
import Idealize.ShloMosaic.Lib.Pipeline.FrameBody
import Idealize.ShloMosaic.Lib.Pipeline.Value
import Idealize.ShloMosaic.Lib.Tactic

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Cert.KernelIdeal.Body

variable (m : (ℓ : Loc nD τ sig) → Buf (Elt F) ℓ)

/-! ## The bias rows the host lays out before the region -/

/-- The first re-shaped bias vector: argument 3 as a 1×128 row. -/
theorem V_v0 (c : Dev nD) : (V m c main_call0_v0 : S1x128.Idx → Elt F .f32)
    = shapeCast S1x128 (m ((c : Thread nD τ).loc main_arg3) : S128.Idx → Elt F .f32) shapeCasts_S128_S1x128 := by
  dsimp only [V, hostOps0]; after_results; rfl

/-- The next re-shaped bias vector: argument 5 as a 1×128 row. -/
theorem V_v1 (c : Dev nD) : (V m c main_call0_v1 : S1x128.Idx → Elt F .f32)
    = shapeCast S1x128 (m ((c : Thread nD τ).loc main_arg5) : S128.Idx → Elt F .f32) shapeCasts_S128_S1x128 := by
  dsimp only [V, hostOps0]; after_results; rfl

/-- The next re-shaped bias vector: argument 7 as a 1×128 row. -/
theorem V_v2 (c : Dev nD) : (V m c main_call0_v2 : S1x128.Idx → Elt F .f32)
    = shapeCast S1x128 (m ((c : Thread nD τ).loc main_arg7) : S128.Idx → Elt F .f32) shapeCasts_S128_S1x128 := by
  dsimp only [V, hostOps0]; after_results; rfl

/-- The next re-shaped bias vector: argument 9 as a 1×128 row. -/
theorem V_v3 (c : Dev nD) : (V m c main_call0_v3 : S1x128.Idx → Elt F .f32)
    = shapeCast S1x128 (m ((c : Thread nD τ).loc main_arg9) : S128.Idx → Elt F .f32) shapeCasts_S128_S1x128 := by
  dsimp only [V, hostOps0]; after_results; rfl

/-- The next re-shaped bias vector: argument 11 as a 1×128 row. -/
theorem V_v4 (c : Dev nD) : (V m c main_call0_v4 : S1x128.Idx → Elt F .f32)
    = shapeCast S1x128 (m ((c : Thread nD τ).loc main_arg11) : S128.Idx → Elt F .f32) shapeCasts_S128_S1x128 := by
  dsimp only [V, hostOps0]; after_results; rfl

/-- The next re-shaped bias vector: argument 13 as a 1×128 row. -/
theorem V_v5 (c : Dev nD) : (V m c main_call0_v5 : S1x128.Idx → Elt F .f32)
    = shapeCast S1x128 (m ((c : Thread nD τ).loc main_arg13) : S128.Idx → Elt F .f32) shapeCasts_S128_S1x128 := by
  dsimp only [V, hostOps0]; after_results; rfl

/-- The next re-shaped bias vector: argument 15 as a 1×128 row. -/
theorem V_v6 (c : Dev nD) : (V m c main_call0_v6 : S1x128.Idx → Elt F .f32)
    = shapeCast S1x128 (m ((c : Thread nD τ).loc main_arg15) : S128.Idx → Elt F .f32) shapeCasts_S128_S1x128 := by
  dsimp only [V, hostOps0]; after_results; rfl

/-- The next re-shaped bias vector: argument 17 as a 1×128 row. -/
theorem V_v7 (c : Dev nD) : (V m c main_call0_v7 : S1x128.Idx → Elt F .f32)
    = shapeCast S1x128 (m ((c : Thread nD τ).loc main_arg17) : S128.Idx → Elt F .f32) shapeCasts_S128_S1x128 := by
  dsimp only [V, hostOps0]; after_results; rfl

/-- The next re-shaped bias vector: argument 19 as a 1×128 row. -/
theorem V_v8 (c : Dev nD) : (V m c main_call0_v8 : S1x128.Idx → Elt F .f32)
    = shapeCast S1x128 (m ((c : Thread nD τ).loc main_arg19) : S128.Idx → Elt F .f32) shapeCasts_S128_S1x128 := by
  dsimp only [V, hostOps0]; after_results; rfl

/-- The next re-shaped bias vector: argument 21 as a 1×128 row. -/
theorem V_v9 (c : Dev nD) : (V m c main_call0_v9 : S1x128.Idx → Elt F .f32)
    = shapeCast S1x128 (m ((c : Thread nD τ).loc main_arg21) : S128.Idx → Elt F .f32) shapeCasts_S128_S1x128 := by
  dsimp only [V, hostOps0]; after_results; rfl

/-! ## The schedule's arithmetic, decided over the grid -/

/-- The scratch rows read for the block of point t start at row 640·t, column 0. -/
theorem off_blk : ∀ t : Fin cfg0.N, k0_off1 (grid0.coords t) 0 = 640 * t.val ∧ k0_off1 (grid0.coords t) 1 = 0 :=
  (by decide +kernel : ∀ t : Fin grid0.N, k0_off1 (grid0.coords t) 0 = 640 * t.val ∧ k0_off1 (grid0.coords t) 1 = 0)

/-- The output window's block at point t: block row t, block column 0; the part inside the array is
    min 640 (10000 − 640·t) rows by 128 columns. -/
theorem idx22 : ∀ t : Fin cfg0.N, win0_22.index t 0 = t.val ∧ win0_22.index t 1 = 0
    ∧ win0_22.xsize (grid0.coords t) 0 = min 640 (10000 - 640 * t.val) ∧ win0_22.xsize (grid0.coords t) 1 = 128 :=
  (by decide +kernel : ∀ t : Fin grid0.N, win0_22.index t 0 = t.val ∧ win0_22.index t 1 = 0
    ∧ win0_22.xsize (grid0.coords t) 0 = min 640 (10000 - 640 * t.val) ∧ win0_22.xsize (grid0.coords t) 1 = 128)

/-- The adjacency window's block at point t: the same rows, all 10000 columns. -/
theorem idx1 : ∀ t : Fin cfg0.N, win0_1.index t 0 = t.val ∧ win0_1.index t 1 = 0
    ∧ win0_1.xsize (grid0.coords t) 0 = min 640 (10000 - 640 * t.val) ∧ win0_1.xsize (grid0.coords t) 1 = 10000 :=
  (by decide +kernel : ∀ t : Fin grid0.N, win0_1.index t 0 = t.val ∧ win0_1.index t 1 = 0
    ∧ win0_1.xsize (grid0.coords t) 0 = min 640 (10000 - 640 * t.val) ∧ win0_1.xsize (grid0.coords t) 1 = 10000)

/-! ## A window whose one block is its whole array reads the array -/

theorem idxz_0 : ∀ t : Fin cfg0.N, win0_0.index t 0 = 0 ∧ win0_0.index t 1 = 0 :=
  (by decide +kernel : ∀ t : Fin grid0.N, win0_0.index t 0 = 0 ∧ win0_0.index t 1 = 0)

/-- Window 0's block at every point is its array. -/
theorem iblk_0 (c : Dev nD) (t : Fin cfg0.N) : iblk m c 0 t = V m c main_arg0 := by
  funext y
  show V m c main_arg0 (((cfg0.win 0).blk t).view.emb y) = V m c main_arg0 y
  refine congrArg _ (funext fun a => Fin.ext ?_)
  have h := idxz_0 t
  match a with
  | ⟨0, _⟩ => show win0_0.index t 0 * 10000 + 1 * (y 0).val = (y 0).val; rw [h.1]; omega
  | ⟨1, _⟩ => show win0_0.index t 1 * 128 + 1 * (y 1).val = (y 1).val; rw [h.2]; omega

theorem idxz_2 : ∀ t : Fin cfg0.N, win0_2.index t 0 = 0 ∧ win0_2.index t 1 = 0 :=
  (by decide +kernel : ∀ t : Fin grid0.N, win0_2.index t 0 = 0 ∧ win0_2.index t 1 = 0)

/-- Window 2's block at every point is its array. -/
theorem iblk_2 (c : Dev nD) (t : Fin cfg0.N) : iblk m c 2 t = V m c main_arg2 := by
  funext y
  show V m c main_arg2 (((cfg0.win 2).blk t).view.emb y) = V m c main_arg2 y
  refine congrArg _ (funext fun a => Fin.ext ?_)
  have h := idxz_2 t
  match a with
  | ⟨0, _⟩ => show win0_2.index t 0 * 128 + 1 * (y 0).val = (y 0).val; rw [h.1]; omega
  | ⟨1, _⟩ => show win0_2.index t 1 * 128 + 1 * (y 1).val = (y 1).val; rw [h.2]; omega

theorem idxz_3 : ∀ t : Fin cfg0.N, win0_3.index t 0 = 0 ∧ win0_3.index t 1 = 0 :=
  (by decide +kernel : ∀ t : Fin grid0.N, win0_3.index t 0 = 0 ∧ win0_3.index t 1 = 0)

/-- Window 3's block at every point is its array. -/
theorem iblk_3 (c : Dev nD) (t : Fin cfg0.N) : iblk m c 3 t = V m c main_call0_v0 := by
  funext y
  show V m c main_call0_v0 (((cfg0.win 3).blk t).view.emb y) = V m c main_call0_v0 y
  refine congrArg _ (funext fun a => Fin.ext ?_)
  have h := idxz_3 t
  match a with
  | ⟨0, _⟩ => show win0_3.index t 0 * 1 + 1 * (y 0).val = (y 0).val; rw [h.1]; omega
  | ⟨1, _⟩ => show win0_3.index t 1 * 128 + 1 * (y 1).val = (y 1).val; rw [h.2]; omega

theorem idxz_4 : ∀ t : Fin cfg0.N, win0_4.index t 0 = 0 ∧ win0_4.index t 1 = 0 :=
  (by decide +kernel : ∀ t : Fin grid0.N, win0_4.index t 0 = 0 ∧ win0_4.index t 1 = 0)

/-- Window 4's block at every point is its array. -/
theorem iblk_4 (c : Dev nD) (t : Fin cfg0.N) : iblk m c 4 t = V m c main_arg4 := by
  funext y
  show V m c main_arg4 (((cfg0.win 4).blk t).view.emb y) = V m c main_arg4 y
  refine congrArg _ (funext fun a => Fin.ext ?_)
  have h := idxz_4 t
  match a with
  | ⟨0, _⟩ => show win0_4.index t 0 * 128 + 1 * (y 0).val = (y 0).val; rw [h.1]; omega
  | ⟨1, _⟩ => show win0_4.index t 1 * 128 + 1 * (y 1).val = (y 1).val; rw [h.2]; omega

theorem idxz_5 : ∀ t : Fin cfg0.N, win0_5.index t 0 = 0 ∧ win0_5.index t 1 = 0 :=
  (by decide +kernel : ∀ t : Fin grid0.N, win0_5.index t 0 = 0 ∧ win0_5.index t 1 = 0)

/-- Window 5's block at every point is its array. -/
theorem iblk_5 (c : Dev nD) (t : Fin cfg0.N) : iblk m c 5 t = V m c main_call0_v1 := by
  funext y
  show V m c main_call0_v1 (((cfg0.win 5).blk t).view.emb y) = V m c main_call0_v1 y
  refine congrArg _ (funext fun a => Fin.ext ?_)
  have h := idxz_5 t
  match a with
  | ⟨0, _⟩ => show win0_5.index t 0 * 1 + 1 * (y 0).val = (y 0).val; rw [h.1]; omega
  | ⟨1, _⟩ => show win0_5.index t 1 * 128 + 1 * (y 1).val = (y 1).val; rw [h.2]; omega

theorem idxz_6 : ∀ t : Fin cfg0.N, win0_6.index t 0 = 0 ∧ win0_6.index t 1 = 0 :=
  (by decide +kernel : ∀ t : Fin grid0.N, win0_6.index t 0 = 0 ∧ win0_6.index t 1 = 0)

/-- Window 6's block at every point is its array. -/
theorem iblk_6 (c : Dev nD) (t : Fin cfg0.N) : iblk m c 6 t = V m c main_arg6 := by
  funext y
  show V m c main_arg6 (((cfg0.win 6).blk t).view.emb y) = V m c main_arg6 y
  refine congrArg _ (funext fun a => Fin.ext ?_)
  have h := idxz_6 t
  match a with
  | ⟨0, _⟩ => show win0_6.index t 0 * 128 + 1 * (y 0).val = (y 0).val; rw [h.1]; omega
  | ⟨1, _⟩ => show win0_6.index t 1 * 128 + 1 * (y 1).val = (y 1).val; rw [h.2]; omega

theorem idxz_7 : ∀ t : Fin cfg0.N, win0_7.index t 0 = 0 ∧ win0_7.index t 1 = 0 :=
  (by decide +kernel : ∀ t : Fin grid0.N, win0_7.index t 0 = 0 ∧ win0_7.index t 1 = 0)

/-- Window 7's block at every point is its array. -/
theorem iblk_7 (c : Dev nD) (t : Fin cfg0.N) : iblk m c 7 t = V m c main_call0_v2 := by
  funext y
  show V m c main_call0_v2 (((cfg0.win 7).blk t).view.emb y) = V m c main_call0_v2 y
  refine congrArg _ (funext fun a => Fin.ext ?_)
  have h := idxz_7 t
  match a with
  | ⟨0, _⟩ => show win0_7.index t 0 * 1 + 1 * (y 0).val = (y 0).val; rw [h.1]; omega
  | ⟨1, _⟩ => show win0_7.index t 1 * 128 + 1 * (y 1).val = (y 1).val; rw [h.2]; omega

theorem idxz_8 : ∀ t : Fin cfg0.N, win0_8.index t 0 = 0 ∧ win0_8.index t 1 = 0 :=
  (by decide +kernel : ∀ t : Fin grid0.N, win0_8.index t 0 = 0 ∧ win0_8.index t 1 = 0)

/-- Window 8's block at every point is its array. -/
theorem iblk_8 (c : Dev nD) (t : Fin cfg0.N) : iblk m c 8 t = V m c main_arg8 := by
  funext y
  show V m c main_arg8 (((cfg0.win 8).blk t).view.emb y) = V m c main_arg8 y
  refine congrArg _ (funext fun a => Fin.ext ?_)
  have h := idxz_8 t
  match a with
  | ⟨0, _⟩ => show win0_8.index t 0 * 128 + 1 * (y 0).val = (y 0).val; rw [h.1]; omega
  | ⟨1, _⟩ => show win0_8.index t 1 * 128 + 1 * (y 1).val = (y 1).val; rw [h.2]; omega

theorem idxz_9 : ∀ t : Fin cfg0.N, win0_9.index t 0 = 0 ∧ win0_9.index t 1 = 0 :=
  (by decide +kernel : ∀ t : Fin grid0.N, win0_9.index t 0 = 0 ∧ win0_9.index t 1 = 0)

/-- Window 9's block at every point is its array. -/
theorem iblk_9 (c : Dev nD) (t : Fin cfg0.N) : iblk m c 9 t = V m c main_call0_v3 := by
  funext y
  show V m c main_call0_v3 (((cfg0.win 9).blk t).view.emb y) = V m c main_call0_v3 y
  refine congrArg _ (funext fun a => Fin.ext ?_)
  have h := idxz_9 t
  match a with
  | ⟨0, _⟩ => show win0_9.index t 0 * 1 + 1 * (y 0).val = (y 0).val; rw [h.1]; omega
  | ⟨1, _⟩ => show win0_9.index t 1 * 128 + 1 * (y 1).val = (y 1).val; rw [h.2]; omega

theorem idxz_10 : ∀ t : Fin cfg0.N, win0_10.index t 0 = 0 ∧ win0_10.index t 1 = 0 :=
  (by decide +kernel : ∀ t : Fin grid0.N, win0_10.index t 0 = 0 ∧ win0_10.index t 1 = 0)

/-- Window 10's block at every point is its array. -/
theorem iblk_10 (c : Dev nD) (t : Fin cfg0.N) : iblk m c 10 t = V m c main_arg10 := by
  funext y
  show V m c main_arg10 (((cfg0.win 10).blk t).view.emb y) = V m c main_arg10 y
  refine congrArg _ (funext fun a => Fin.ext ?_)
  have h := idxz_10 t
  match a with
  | ⟨0, _⟩ => show win0_10.index t 0 * 128 + 1 * (y 0).val = (y 0).val; rw [h.1]; omega
  | ⟨1, _⟩ => show win0_10.index t 1 * 128 + 1 * (y 1).val = (y 1).val; rw [h.2]; omega

theorem idxz_11 : ∀ t : Fin cfg0.N, win0_11.index t 0 = 0 ∧ win0_11.index t 1 = 0 :=
  (by decide +kernel : ∀ t : Fin grid0.N, win0_11.index t 0 = 0 ∧ win0_11.index t 1 = 0)

/-- Window 11's block at every point is its array. -/
theorem iblk_11 (c : Dev nD) (t : Fin cfg0.N) : iblk m c 11 t = V m c main_call0_v4 := by
  funext y
  show V m c main_call0_v4 (((cfg0.win 11).blk t).view.emb y) = V m c main_call0_v4 y
  refine congrArg _ (funext fun a => Fin.ext ?_)
  have h := idxz_11 t
  match a with
  | ⟨0, _⟩ => show win0_11.index t 0 * 1 + 1 * (y 0).val = (y 0).val; rw [h.1]; omega
  | ⟨1, _⟩ => show win0_11.index t 1 * 128 + 1 * (y 1).val = (y 1).val; rw [h.2]; omega

theorem idxz_12 : ∀ t : Fin cfg0.N, win0_12.index t 0 = 0 ∧ win0_12.index t 1 = 0 :=
  (by decide +kernel : ∀ t : Fin grid0.N, win0_12.index t 0 = 0 ∧ win0_12.index t 1 = 0)

/-- Window 12's block at every point is its array. -/
theorem iblk_12 (c : Dev nD) (t : Fin cfg0.N) : iblk m c 12 t = V m c main_arg12 := by
  funext y
  show V m c main_arg12 (((cfg0.win 12).blk t).view.emb y) = V m c main_arg12 y
  refine congrArg _ (funext fun a => Fin.ext ?_)
  have h := idxz_12 t
  match a with
  | ⟨0, _⟩ => show win0_12.index t 0 * 128 + 1 * (y 0).val = (y 0).val; rw [h.1]; omega
  | ⟨1, _⟩ => show win0_12.index t 1 * 128 + 1 * (y 1).val = (y 1).val; rw [h.2]; omega

theorem idxz_13 : ∀ t : Fin cfg0.N, win0_13.index t 0 = 0 ∧ win0_13.index t 1 = 0 :=
  (by decide +kernel : ∀ t : Fin grid0.N, win0_13.index t 0 = 0 ∧ win0_13.index t 1 = 0)

/-- Window 13's block at every point is its array. -/
theorem iblk_13 (c : Dev nD) (t : Fin cfg0.N) : iblk m c 13 t = V m c main_call0_v5 := by
  funext y
  show V m c main_call0_v5 (((cfg0.win 13).blk t).view.emb y) = V m c main_call0_v5 y
  refine congrArg _ (funext fun a => Fin.ext ?_)
  have h := idxz_13 t
  match a with
  | ⟨0, _⟩ => show win0_13.index t 0 * 1 + 1 * (y 0).val = (y 0).val; rw [h.1]; omega
  | ⟨1, _⟩ => show win0_13.index t 1 * 128 + 1 * (y 1).val = (y 1).val; rw [h.2]; omega

theorem idxz_14 : ∀ t : Fin cfg0.N, win0_14.index t 0 = 0 ∧ win0_14.index t 1 = 0 :=
  (by decide +kernel : ∀ t : Fin grid0.N, win0_14.index t 0 = 0 ∧ win0_14.index t 1 = 0)

/-- Window 14's block at every point is its array. -/
theorem iblk_14 (c : Dev nD) (t : Fin cfg0.N) : iblk m c 14 t = V m c main_arg14 := by
  funext y
  show V m c main_arg14 (((cfg0.win 14).blk t).view.emb y) = V m c main_arg14 y
  refine congrArg _ (funext fun a => Fin.ext ?_)
  have h := idxz_14 t
  match a with
  | ⟨0, _⟩ => show win0_14.index t 0 * 128 + 1 * (y 0).val = (y 0).val; rw [h.1]; omega
  | ⟨1, _⟩ => show win0_14.index t 1 * 128 + 1 * (y 1).val = (y 1).val; rw [h.2]; omega

theorem idxz_15 : ∀ t : Fin cfg0.N, win0_15.index t 0 = 0 ∧ win0_15.index t 1 = 0 :=
  (by decide +kernel : ∀ t : Fin grid0.N, win0_15.index t 0 = 0 ∧ win0_15.index t 1 = 0)

/-- Window 15's block at every point is its array. -/
theorem iblk_15 (c : Dev nD) (t : Fin cfg0.N) : iblk m c 15 t = V m c main_call0_v6 := by
  funext y
  show V m c main_call0_v6 (((cfg0.win 15).blk t).view.emb y) = V m c main_call0_v6 y
  refine congrArg _ (funext fun a => Fin.ext ?_)
  have h := idxz_15 t
  match a with
  | ⟨0, _⟩ => show win0_15.index t 0 * 1 + 1 * (y 0).val = (y 0).val; rw [h.1]; omega
  | ⟨1, _⟩ => show win0_15.index t 1 * 128 + 1 * (y 1).val = (y 1).val; rw [h.2]; omega

theorem idxz_16 : ∀ t : Fin cfg0.N, win0_16.index t 0 = 0 ∧ win0_16.index t 1 = 0 :=
  (by decide +kernel : ∀ t : Fin grid0.N, win0_16.index t 0 = 0 ∧ win0_16.index t 1 = 0)

/-- Window 16's block at every point is its array. -/
theorem iblk_16 (c : Dev nD) (t : Fin cfg0.N) : iblk m c 16 t = V m c main_arg16 := by
  funext y
  show V m c main_arg16 (((cfg0.win 16).blk t).view.emb y) = V m c main_arg16 y
  refine congrArg _ (funext fun a => Fin.ext ?_)
  have h := idxz_16 t
  match a with
  | ⟨0, _⟩ => show win0_16.index t 0 * 128 + 1 * (y 0).val = (y 0).val; rw [h.1]; omega
  | ⟨1, _⟩ => show win0_16.index t 1 * 128 + 1 * (y 1).val = (y 1).val; rw [h.2]; omega

theorem idxz_17 : ∀ t : Fin cfg0.N, win0_17.index t 0 = 0 ∧ win0_17.index t 1 = 0 :=
  (by decide +kernel : ∀ t : Fin grid0.N, win0_17.index t 0 = 0 ∧ win0_17.index t 1 = 0)

/-- Window 17's block at every point is its array. -/
theorem iblk_17 (c : Dev nD) (t : Fin cfg0.N) : iblk m c 17 t = V m c main_call0_v7 := by
  funext y
  show V m c main_call0_v7 (((cfg0.win 17).blk t).view.emb y) = V m c main_call0_v7 y
  refine congrArg _ (funext fun a => Fin.ext ?_)
  have h := idxz_17 t
  match a with
  | ⟨0, _⟩ => show win0_17.index t 0 * 1 + 1 * (y 0).val = (y 0).val; rw [h.1]; omega
  | ⟨1, _⟩ => show win0_17.index t 1 * 128 + 1 * (y 1).val = (y 1).val; rw [h.2]; omega

theorem idxz_18 : ∀ t : Fin cfg0.N, win0_18.index t 0 = 0 ∧ win0_18.index t 1 = 0 :=
  (by decide +kernel : ∀ t : Fin grid0.N, win0_18.index t 0 = 0 ∧ win0_18.index t 1 = 0)

/-- Window 18's block at every point is its array. -/
theorem iblk_18 (c : Dev nD) (t : Fin cfg0.N) : iblk m c 18 t = V m c main_arg18 := by
  funext y
  show V m c main_arg18 (((cfg0.win 18).blk t).view.emb y) = V m c main_arg18 y
  refine congrArg _ (funext fun a => Fin.ext ?_)
  have h := idxz_18 t
  match a with
  | ⟨0, _⟩ => show win0_18.index t 0 * 128 + 1 * (y 0).val = (y 0).val; rw [h.1]; omega
  | ⟨1, _⟩ => show win0_18.index t 1 * 128 + 1 * (y 1).val = (y 1).val; rw [h.2]; omega

theorem idxz_19 : ∀ t : Fin cfg0.N, win0_19.index t 0 = 0 ∧ win0_19.index t 1 = 0 :=
  (by decide +kernel : ∀ t : Fin grid0.N, win0_19.index t 0 = 0 ∧ win0_19.index t 1 = 0)

/-- Window 19's block at every point is its array. -/
theorem iblk_19 (c : Dev nD) (t : Fin cfg0.N) : iblk m c 19 t = V m c main_call0_v8 := by
  funext y
  show V m c main_call0_v8 (((cfg0.win 19).blk t).view.emb y) = V m c main_call0_v8 y
  refine congrArg _ (funext fun a => Fin.ext ?_)
  have h := idxz_19 t
  match a with
  | ⟨0, _⟩ => show win0_19.index t 0 * 1 + 1 * (y 0).val = (y 0).val; rw [h.1]; omega
  | ⟨1, _⟩ => show win0_19.index t 1 * 128 + 1 * (y 1).val = (y 1).val; rw [h.2]; omega

theorem idxz_20 : ∀ t : Fin cfg0.N, win0_20.index t 0 = 0 ∧ win0_20.index t 1 = 0 :=
  (by decide +kernel : ∀ t : Fin grid0.N, win0_20.index t 0 = 0 ∧ win0_20.index t 1 = 0)

/-- Window 20's block at every point is its array. -/
theorem iblk_20 (c : Dev nD) (t : Fin cfg0.N) : iblk m c 20 t = V m c main_arg20 := by
  funext y
  show V m c main_arg20 (((cfg0.win 20).blk t).view.emb y) = V m c main_arg20 y
  refine congrArg _ (funext fun a => Fin.ext ?_)
  have h := idxz_20 t
  match a with
  | ⟨0, _⟩ => show win0_20.index t 0 * 128 + 1 * (y 0).val = (y 0).val; rw [h.1]; omega
  | ⟨1, _⟩ => show win0_20.index t 1 * 128 + 1 * (y 1).val = (y 1).val; rw [h.2]; omega

theorem idxz_21 : ∀ t : Fin cfg0.N, win0_21.index t 0 = 0 ∧ win0_21.index t 1 = 0 :=
  (by decide +kernel : ∀ t : Fin grid0.N, win0_21.index t 0 = 0 ∧ win0_21.index t 1 = 0)

/-- Window 21's block at every point is its array. -/
theorem iblk_21 (c : Dev nD) (t : Fin cfg0.N) : iblk m c 21 t = V m c main_call0_v9 := by
  funext y
  show V m c main_call0_v9 (((cfg0.win 21).blk t).view.emb y) = V m c main_call0_v9 y
  refine congrArg _ (funext fun a => Fin.ext ?_)
  have h := idxz_21 t
  match a with
  | ⟨0, _⟩ => show win0_21.index t 0 * 1 + 1 * (y 0).val = (y 0).val; rw [h.1]; omega
  | ⟨1, _⟩ => show win0_21.index t 1 * 128 + 1 * (y 1).val = (y 1).val; rw [h.2]; omega

end Cert.KernelIdeal.Blocks

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«174394_g59339268162203_cont_sun_m_386_9_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«174394_g59339268162203_cont_sun_m_386_9_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibBiasRelu.lean ====
/-
  A bias row added to every row of a matrix and the result clamped below at zero, on the extended reals: the
  function itself, the kernel body's spelling of it (the row re-shaped in place, broadcast down the rows, added, and
  the maximum taken with a splat of the zero word), the reference's spelling (the bias vector broadcast into a 1×k row
  and then into the n×k array, added, and the maximum taken with a broadcast zero), and the fact that an entry depends
  on one entry of the matrix. The zero is kept as the value of the zero word, the same on both sides.
  Nothing here mentions a program.
-/
import Idealize.ShloMosaic.PureOps.Ideal.Laws
import Idealize.ShloMosaic.Lib.ValueIdx
import Idealize.ShloMosaic.Lib.Pipeline.Value
import proofs.«174394_g59339268162203_cont_sun_m_386_9_alg».proof.Proof.LibBlockReads
import proofs.«174394_g59339268162203_cont_sun_m_386_9_alg».proof.Proof.LibRowVector

noncomputable section

namespace Cert.Lib.BiasRelu

open Idealize.ShloMosaic Idealize.ShloMosaic.ValueIdx Cert.Lib.RowVector

variable {n n' k : Nat}

/-- Entry (p, q) is the maximum of X(p, q) + b(0, q) and zero. -/
def biasRelu (X : (⟨2, ![n, k]⟩ : Shape).Idx → EReal) (b : (⟨2, ![1, k]⟩ : Shape).Idx → EReal) :
    (⟨2, ![n, k]⟩ : Shape).Idx → EReal :=
  fun i => max (X i + b (ix2 (0 : Fin 1) (⟨(i 1).val, idx2_lt1 i⟩ : Fin k))) (Ideal.ofBits .f32 0x00000000#32)

theorem biasRelu_apply (X : (⟨2, ![n, k]⟩ : Shape).Idx → EReal) (b : (⟨2, ![1, k]⟩ : Shape).Idx → EReal)
    (p : Fin n) (q : Fin k) :
    biasRelu X b (ix2 p q) = max (X (ix2 p q) + b (ix2 0 q)) (Ideal.ofBits .f32 0x00000000#32) := rfl

/-- An entry depends on one entry of the matrix: equal entries give equal results. -/
theorem biasRelu_rows (X : (⟨2, ![n, k]⟩ : Shape).Idx → EReal) (X' : (⟨2, ![n', k]⟩ : Shape).Idx → EReal)
    (b : (⟨2, ![1, k]⟩ : Shape).Idx → EReal) (p' : Fin n') (p : Fin n) (q : Fin k)
    (h : X' (ix2 p' q) = X (ix2 p q)) : biasRelu X' b (ix2 p' q) = biasRelu X b (ix2 p q) := by
  rw [biasRelu_apply, biasRelu_apply, h]

/-- The kernel body's spelling. -/
theorem body_eq (x0 : FVec Ideal ⟨2, ![n, k]⟩ .f32) (x2 : FVec Ideal ⟨2, ![1, k]⟩ .f32)
    (h0 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x0 h0) (broadcastTo ⟨2, ![n, k]⟩ (shapeCast ⟨2, ![1, k]⟩ x2 h2) hb))
      (broadcast ⟨2, ![n, k]⟩ (Scalar.ofBits (F := Ideal) .f32 0x00000000#32)) = biasRelu x0 x2 := by
  funext i
  obtain ⟨p, q, rfl⟩ : ∃ (p : Fin n) (q : Fin k), i = ix2 p q := ⟨i 0, i 1, eq_ix2 i⟩
  rw [maximumf_apply, addf_apply, shapeCast_self, shapeCast_self, Cert.Lib.BlockReads.broadcast_row_apply]
  rfl

/-- The reference's spelling: the bias vector as a 1×k row. -/
theorem host_eq (X : FVec Ideal ⟨2, ![n, k]⟩ .f32) (b : FVec Ideal ⟨1, ![k]⟩ .f32)
    (h1 : (⟨1, ![k]⟩ : Shape).BroadcastsInDim ⟨2, ![1, k]⟩ ![1])
    (h2 : (⟨2, ![1, k]⟩ : Shape).BroadcastsInDim ⟨2, ![n, k]⟩ ![0, 1])
    (h3 : (⟨0, ![]⟩ : Shape).BroadcastsInDim ⟨2, ![n, k]⟩ ![]) :
    maximumf (addf X (broadcastInDim ⟨2, ![n, k]⟩ ![0, 1] h2 (broadcastInDim ⟨2, ![1, k]⟩ ![1] h1 b)))
      (broadcastInDim ⟨2, ![n, k]⟩ ![] h3 (constant (F := Ideal) ⟨0, ![]⟩ .f32 0x00000000#32)) = biasRelu X (asRow b) := by
  funext i
  obtain ⟨p, q, rfl⟩ : ∃ (p : Fin n) (q : Fin k), i = ix2 p q := ⟨i 0, i 1, eq_ix2 i⟩
  rw [maximumf_apply, addf_apply, bcastInDim_rows_apply, bcastInDim_eq_asRow, bcastInDim_scalar_apply]
  rfl

end Cert.Lib.BiasRelu

end
-- ==== Proof.LibSplitLayers.lean ====
/-
  Layers of a perceptron over the extended reals whose first matrix product is taken band by band.

  A layer is a product with a matrix, a bias row added to every row, and the maximum with zero. When the input is
  several arrays laid side by side and the matrix is cut into the matching bands of rows, the one product is the sum
  of the bands' products: a sum over the joined column index splits into the sums over each band's columns, and that
  uses only that addition of extended reals is associative and commutative. A band of a single column is the
  product of a column with a row. Every entry of a layer depends on one row of its inputs, so a block of rows of the
  result is the layer of that block of rows.
-/
import Idealize.ShloMosaic.PureOps.Ideal.Laws
import Idealize.ShloMosaic.Lib.ValueIdx
import Idealize.ShloMosaic.Lib.Pipeline.Value
import proofs.«174394_g59339268162203_cont_sun_m_386_9_alg».proof.Proof.LibBlockReads
import proofs.«174394_g59339268162203_cont_sun_m_386_9_alg».proof.Proof.LibMatProd
import proofs.«174394_g59339268162203_cont_sun_m_386_9_alg».proof.Proof.LibRowVector
import proofs.«174394_g59339268162203_cont_sun_m_386_9_alg».proof.Proof.LibBiasRelu

open scoped BigOperators

noncomputable section

namespace Cert.Lib.SplitLayers

open Idealize.ShloMosaic Idealize.ShloMosaic.ValueIdx Cert.Lib.MatProd Cert.Lib.BiasRelu Cert.Lib.RowVector

variable {r r' k k₁ k₂ k₃ n : Nat}

/-! ## One layer -/

/-- Entry (p, q) is max (∑ c, X(p, c) · W(c, q) + b(0, q)) 0. -/
def layer (X : (⟨2, ![r, k]⟩ : Shape).Idx → EReal) (W : (⟨2, ![k, n]⟩ : Shape).Idx → EReal)
    (b : (⟨2, ![1, n]⟩ : Shape).Idx → EReal) : (⟨2, ![r, n]⟩ : Shape).Idx → EReal :=
  biasRelu (matProd X W) b

/-- Row p' of the layer of X' is row p of the layer of X when row p' of X' is row p of X. -/
theorem layer_rows (X : (⟨2, ![r, k]⟩ : Shape).Idx → EReal) (X' : (⟨2, ![r', k]⟩ : Shape).Idx → EReal)
    (W : (⟨2, ![k, n]⟩ : Shape).Idx → EReal) (b : (⟨2, ![1, n]⟩ : Shape).Idx → EReal)
    (p' : Fin r') (p : Fin r) (q : Fin n) (h : ∀ c : Fin k, X' (ix2 p' c) = X (ix2 p c)) :
    layer X' W b (ix2 p' q) = layer X W b (ix2 p q) :=
  biasRelu_rows _ _ b p' p q (matProd_block X X' W W p' q p q h fun _ => rfl)

/-- The same for a layer without the maximum read through a final function applied entry by entry. -/
theorem matProd_rows (X : (⟨2, ![r, k]⟩ : Shape).Idx → EReal) (X' : (⟨2, ![r', k]⟩ : Shape).Idx → EReal)
    (W : (⟨2, ![k, n]⟩ : Shape).Idx → EReal) (p' : Fin r') (p : Fin r) (q : Fin n)
    (h : ∀ c : Fin k, X' (ix2 p' c) = X (ix2 p c)) : matProd X' W (ix2 p' q) = matProd X W (ix2 p q) :=
  matProd_block X X' W W p' q p q h fun _ => rfl

/-- A bias row broadcast down the rows and added, then the maximum with a splat of the zero word. -/
theorem relu_bias_eq (M : FVec Ideal ⟨2, ![r, n]⟩ .f32) (b : FVec Ideal ⟨2, ![1, n]⟩ .f32)
    (hb : (⟨2, ![1, n]⟩ : Shape).Broadcasts ⟨2, ![r, n]⟩) :
    maximumf (addf M (broadcastTo ⟨2, ![r, n]⟩ b hb))
      (broadcast ⟨2, ![r, n]⟩ (Scalar.ofBits (F := Ideal) .f32 0x00000000#32)) = biasRelu M b := by
  funext i
  obtain ⟨p, q, rfl⟩ : ∃ (p : Fin r) (q : Fin n), i = ix2 p q := ⟨i 0, i 1, eq_ix2 i⟩
  rw [maximumf_apply, addf_apply, Cert.Lib.BlockReads.broadcast_row_apply]
  rfl

/-- The reference's spelling of a layer: the host's product, the bias vector broadcast into a row and down the
    rows, the maximum with a broadcast zero. -/
theorem host_layer (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (X : FVec Ideal ⟨2, ![r, k]⟩ .f32) (W : FVec Ideal ⟨2, ![k, n]⟩ .f32) (bv : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1])
    (h3 : (⟨0, ![]⟩ : Shape).BroadcastsInDim ⟨2, ![r, n]⟩ ![]) :
    maximumf (addf (Host.dotGeneral d none X W)
        (broadcastInDim ⟨2, ![r, n]⟩ ![0, 1] h2 (broadcastInDim ⟨2, ![1, n]⟩ ![1] h1 bv)))
      (broadcastInDim ⟨2, ![r, n]⟩ ![] h3 (constant (F := Ideal) ⟨0, ![]⟩ .f32 0x00000000#32))
    = layer X W (asRow bv) := by
  rw [Cert.Lib.BiasRelu.host_eq]
  unfold layer
  congr 1
  exact dotGeneral_eq_matProd d hlc hrc hln hrn hlb hrb none _ X W

/-! ## A column times a row -/

/-- A column broadcast along the rows times a row broadcast down the rows is the product of the r×1 by the 1×n
    array: the sum over the one contracted index. -/
theorem outer_eq (E : FVec Ideal ⟨2, ![r, 1]⟩ .f32) (w : FVec Ideal ⟨2, ![1, n]⟩ .f32)
    (he : (⟨2, ![r, 1]⟩ : Shape).Broadcasts ⟨2, ![r, n]⟩) (hw : (⟨2, ![1, n]⟩ : Shape).Broadcasts ⟨2, ![r, n]⟩) :
    mulf (broadcastTo ⟨2, ![r, n]⟩ E he) (broadcastTo ⟨2, ![r, n]⟩ w hw) = matProd E w := by
  funext i
  obtain ⟨p, q, rfl⟩ : ∃ (p : Fin r) (q : Fin n), i = ix2 p q := ⟨i 0, i 1, eq_ix2 i⟩
  rw [mulf_apply, Cert.Lib.BlockReads.broadcast_row_apply, matProd_apply, Fin.sum_univ_one]
  congr 1
  refine broadcastTo_apply E he (ix2 p q) (ix2 p 0) fun a => ?_
  match a with
  | ⟨0, _⟩ =>
    show p.val = if r = 1 then 0 else p.val
    split_ifs with hr
    · have := p.isLt; omega
    · rfl
  | ⟨1, _⟩ => rfl

/-! ## Two and three bands -/

/-- Entry (p, q) is max ((∑ U(p,c)·Wu(c,q) + ∑ V(p,c)·Wv(c,q)) + b(0,q)) 0. -/
def layer2 (U : (⟨2, ![r, k₁]⟩ : Shape).Idx → EReal) (V : (⟨2, ![r, k₂]⟩ : Shape).Idx → EReal)
    (Wu : (⟨2, ![k₁, n]⟩ : Shape).Idx → EReal) (Wv : (⟨2, ![k₂, n]⟩ : Shape).Idx → EReal)
    (b : (⟨2, ![1, n]⟩ : Shape).Idx → EReal) : (⟨2, ![r, n]⟩ : Shape).Idx → EReal :=
  biasRelu (fun i => matProd U Wu i + matProd V Wv i) b

/-- Entry (p, q) is max (((∑ U(p,c)·Wu(c,q) + ∑ V(p,c)·Wv(c,q)) + ∑ E(p,c)·We(c,q)) + b(0,q)) 0. -/
def layer3 (U : (⟨2, ![r, k₁]⟩ : Shape).Idx → EReal) (V : (⟨2, ![r, k₂]⟩ : Shape).Idx → EReal)
    (E : (⟨2, ![r, k₃]⟩ : Shape).Idx → EReal)
    (Wu : (⟨2, ![k₁, n]⟩ : Shape).Idx → EReal) (Wv : (⟨2, ![k₂, n]⟩ : Shape).Idx → EReal)
    (We : (⟨2, ![k₃, n]⟩ : Shape).Idx → EReal)
    (b : (⟨2, ![1, n]⟩ : Shape).Idx → EReal) : (⟨2, ![r, n]⟩ : Shape).Idx → EReal :=
  biasRelu (fun i => matProd U Wu i + matProd V Wv i + matProd E We i) b

theorem layer2_rows (U : (⟨2, ![r, k₁]⟩ : Shape).Idx → EReal) (U' : (⟨2, ![r', k₁]⟩ : Shape).Idx → EReal)
    (V : (⟨2, ![r, k₂]⟩ : Shape).Idx → EReal) (V' : (⟨2, ![r', k₂]⟩ : Shape).Idx → EReal)
    (Wu : (⟨2, ![k₁, n]⟩ : Shape).Idx → EReal) (Wv : (⟨2, ![k₂, n]⟩ : Shape).Idx → EReal)
    (b : (⟨2, ![1, n]⟩ : Shape).Idx → EReal) (p' : Fin r') (p : Fin r) (q : Fin n)
    (hU : ∀ c : Fin k₁, U' (ix2 p' c) = U (ix2 p c)) (hV : ∀ c : Fin k₂, V' (ix2 p' c) = V (ix2 p c)) :
    layer2 U' V' Wu Wv b (ix2 p' q) = layer2 U V Wu Wv b (ix2 p q) := by
  refine biasRelu_rows _ _ b p' p q ?_
  show matProd U' Wu (ix2 p' q) + matProd V' Wv (ix2 p' q) = matProd U Wu (ix2 p q) + matProd V Wv (ix2 p q)
  rw [matProd_rows U U' Wu p' p q hU, matProd_rows V V' Wv p' p q hV]

theorem layer3_rows (U : (⟨2, ![r, k₁]⟩ : Shape).Idx → EReal) (U' : (⟨2, ![r', k₁]⟩ : Shape).Idx → EReal)
    (V : (⟨2, ![r, k₂]⟩ : Shape).Idx → EReal) (V' : (⟨2, ![r', k₂]⟩ : Shape).Idx → EReal)
    (E : (⟨2, ![r, k₃]⟩ : Shape).Idx → EReal) (E' : (⟨2, ![r', k₃]⟩ : Shape).Idx → EReal)
    (Wu : (⟨2, ![k₁, n]⟩ : Shape).Idx → EReal) (Wv : (⟨2, ![k₂, n]⟩ : Shape).Idx → EReal)
    (We : (⟨2, ![k₃, n]⟩ : Shape).Idx → EReal)
    (b : (⟨2, ![1, n]⟩ : Shape).Idx → EReal) (p' : Fin r') (p : Fin r) (q : Fin n)
    (hU : ∀ c : Fin k₁, U' (ix2 p' c) = U (ix2 p c)) (hV : ∀ c : Fin k₂, V' (ix2 p' c) = V (ix2 p c))
    (hE : ∀ c : Fin k₃, E' (ix2 p' c) = E (ix2 p c)) :
    layer3 U' V' E' Wu Wv We b (ix2 p' q) = layer3 U V E Wu Wv We b (ix2 p q) := by
  refine biasRelu_rows _ _ b p' p q ?_
  show matProd U' Wu (ix2 p' q) + matProd V' Wv (ix2 p' q) + matProd E' We (ix2 p' q)
    = matProd U Wu (ix2 p q) + matProd V Wv (ix2 p q) + matProd E We (ix2 p q)
  rw [matProd_rows U U' Wu p' p q hU, matProd_rows V V' Wv p' p q hV, matProd_rows E E' We p' p q hE]

end Cert.Lib.SplitLayers

end
-- ==== Proof.Spec.lean ====
/-
  One step of gated message passing on a graph of N nodes with F features, as a function of whole arrays over the
  extended reals.

  The node features are first passed through a two-layer perceptron, H = max(Xin·W1 + b1, 0)·W2 + b2. Each node then
  collects its neighbours' features weighted by the adjacency matrix, A·H, and that sum goes through a second
  two-layer perceptron, giving the message O. The update of a node is the convex-looking combination
  (1 − z)·H + z·c of its own features H and a candidate c, where, entry by entry,
      z = logistic(((O·Wz + bz) + H·Wz' ) + bz'),   r = logistic(((O·Wr + br) + H·Wr') + br'),
      c = tanh(((O·Wc + bc) + (r·H)·Wc') + bc').
  Every operation above is row-local except the one product with A: row p of the result depends on row p of A, on row
  p of H, and on all of H through A·H. So a block of rows of the result can be computed from that block of rows of A,
  all of H, and that block of rows of H — which is how a kernel that walks down the rows of A computes it.

  Sums of extended reals are taken in any order and nothing is distributed or cancelled, so no entry needs to be
  finite. The one literal, 1.0, is kept as the value of its word. Nothing here mentions a program.
-/
import Idealize.ShloMosaic.PureOps.Ideal.Laws
import Idealize.ShloMosaic.Lib.ValueIdx
import proofs.«174394_g59339268162203_cont_sun_m_386_9_alg».proof.Proof.LibMatProd
import proofs.«174394_g59339268162203_cont_sun_m_386_9_alg».proof.Proof.LibRowVector
import proofs.«174394_g59339268162203_cont_sun_m_386_9_alg».proof.Proof.LibBiasRelu
import proofs.«174394_g59339268162203_cont_sun_m_386_9_alg».proof.Proof.LibSplitLayers

open scoped BigOperators

noncomputable section

namespace Cert.Spec

open Idealize.ShloMosaic Idealize.ShloMosaic.ValueIdx Cert.Lib.MatProd Cert.Lib.BiasRelu Cert.Lib.RowVector
  Cert.Lib.SplitLayers

/-- An r×n array of extended reals. -/
abbrev Mat (r n : Nat) : Type := (⟨2, ![r, n]⟩ : Shape).Idx → EReal

/-- A vector of n extended reals. -/
abbrev Vct (n : Nat) : Type := (⟨1, ![n]⟩ : Shape).Idx → EReal

variable {r r' k n : Nat}

/-! ## The pieces -/

/-- A bias row added to every row: entry (p, q) is M(p, q) + b(0, q). -/
def addRow (M : Mat r n) (b : Mat 1 n) : Mat r n :=
  fun i => M i + b (ix2 (0 : Fin 1) (⟨(i 1).val, idx2_lt1 i⟩ : Fin n))

theorem addRow_apply (M : Mat r n) (b : Mat 1 n) (p : Fin r) (q : Fin n) :
    addRow M b (ix2 p q) = M (ix2 p q) + b (ix2 0 q) := rfl

/-- X·W + b. -/
def affine (X : Mat r k) (W : Mat k n) (b : Mat 1 n) : Mat r n := addRow (matProd X W) b

/-- The two-layer perceptron max(X·W1 + b1, 0)·W2 + b2. -/
def mlp (X : Mat r k) (W1 : Mat k n) (b1 : Mat 1 n) (W2 : Mat n n) (b2 : Mat 1 n) : Mat r n :=
  affine (layer X W1 b1) W2 b2

/-- The pre-activation of a gate: ((O·Wa + ba) + H·Wb) + bb. -/
def gate (O H : Mat r n) (Wa : Mat n n) (ba : Mat 1 n) (Wb : Mat n n) (bb : Mat 1 n) : Mat r n :=
  addRow (fun i => affine O Wa ba i + matProd H Wb i) bb

/-- The logistic function entry by entry. -/
def sigm (M : Mat r n) : Mat r n := fun i => Ideal.logistic (M i)

/-- The hyperbolic tangent entry by entry. -/
def tanhm (M : Mat r n) : Mat r n := fun i => Ideal.tanh (M i)

/-- The product entry by entry. -/
def hmul (A B : Mat r n) : Mat r n := fun i => A i * B i

/-- The gated update of the rows H by the messages O: (1 − z)·H + z·c. -/
def update (O H : Mat r n) (Wz : Mat n n) (bz : Mat 1 n) (Wz' : Mat n n) (bz' : Mat 1 n)
    (Wr : Mat n n) (br : Mat 1 n) (Wr' : Mat n n) (br' : Mat 1 n)
    (Wc : Mat n n) (bc : Mat 1 n) (Wc' : Mat n n) (bc' : Mat 1 n) : Mat r n :=
  fun i => (Ideal.ofBits .f32 0x3F800000#32 - sigm (gate O H Wz bz Wz' bz') i) * H i
    + sigm (gate O H Wz bz Wz' bz') i
      * tanhm (gate O (hmul (sigm (gate O H Wr br Wr' br')) H) Wc bc Wc' bc') i

/-! ## Each piece is row-local -/

theorem addRow_rows (M : Mat r n) (M' : Mat r' n) (b : Mat 1 n) (p' : Fin r') (p : Fin r) (q : Fin n)
    (h : M' (ix2 p' q) = M (ix2 p q)) : addRow M' b (ix2 p' q) = addRow M b (ix2 p q) := by
  rw [addRow_apply, addRow_apply, h]

theorem affine_rows (X : Mat r k) (X' : Mat r' k) (W : Mat k n) (b : Mat 1 n) (p' : Fin r') (p : Fin r) (q : Fin n)
    (h : ∀ c : Fin k, X' (ix2 p' c) = X (ix2 p c)) : affine X' W b (ix2 p' q) = affine X W b (ix2 p q) :=
  addRow_rows _ _ b p' p q (matProd_rows X X' W p' p q h)

theorem mlp_rows (X : Mat r k) (X' : Mat r' k) (W1 : Mat k n) (b1 : Mat 1 n) (W2 : Mat n n) (b2 : Mat 1 n)
    (p' : Fin r') (p : Fin r) (q : Fin n) (h : ∀ c : Fin k, X' (ix2 p' c) = X (ix2 p c)) :
    mlp X' W1 b1 W2 b2 (ix2 p' q) = mlp X W1 b1 W2 b2 (ix2 p q) :=
  affine_rows _ _ W2 b2 p' p q fun c => layer_rows X X' W1 b1 p' p c h

theorem gate_rows (O H : Mat r n) (O' H' : Mat r' n) (Wa : Mat n n) (ba : Mat 1 n) (Wb : Mat n n) (bb : Mat 1 n)
    (p' : Fin r') (p : Fin r) (q : Fin n) (hO : ∀ c : Fin n, O' (ix2 p' c) = O (ix2 p c))
    (hH : ∀ c : Fin n, H' (ix2 p' c) = H (ix2 p c)) :
    gate O' H' Wa ba Wb bb (ix2 p' q) = gate O H Wa ba Wb bb (ix2 p q) := by
  refine addRow_rows _ _ bb p' p q ?_
  show affine O' Wa ba (ix2 p' q) + matProd H' Wb (ix2 p' q) = affine O Wa ba (ix2 p q) + matProd H Wb (ix2 p q)
  rw [affine_rows O O' Wa ba p' p q hO, matProd_rows H H' Wb p' p q hH]

theorem update_rows (O H : Mat r n) (O' H' : Mat r' n) (Wz : Mat n n) (bz : Mat 1 n) (Wz' : Mat n n) (bz' : Mat 1 n)
    (Wr : Mat n n) (br : Mat 1 n) (Wr' : Mat n n) (br' : Mat 1 n)
    (Wc : Mat n n) (bc : Mat 1 n) (Wc' : Mat n n) (bc' : Mat 1 n)
    (p' : Fin r') (p : Fin r) (q : Fin n) (hO : ∀ c : Fin n, O' (ix2 p' c) = O (ix2 p c))
    (hH : ∀ c : Fin n, H' (ix2 p' c) = H (ix2 p c)) :
    update O' H' Wz bz Wz' bz' Wr br Wr' br' Wc bc Wc' bc' (ix2 p' q)
      = update O H Wz bz Wz' bz' Wr br Wr' br' Wc bc Wc' bc' (ix2 p q) := by
  have hz : gate O' H' Wz bz Wz' bz' (ix2 p' q) = gate O H Wz bz Wz' bz' (ix2 p q) :=
    gate_rows O H O' H' Wz bz Wz' bz' p' p q hO hH
  have hrH : ∀ c : Fin n, hmul (sigm (gate O' H' Wr br Wr' br')) H' (ix2 p' c)
      = hmul (sigm (gate O H Wr br Wr' br')) H (ix2 p c) := fun c => by
    show Ideal.logistic (gate O' H' Wr br Wr' br' (ix2 p' c)) * H' (ix2 p' c)
      = Ideal.logistic (gate O H Wr br Wr' br' (ix2 p c)) * H (ix2 p c)
    rw [gate_rows O H O' H' Wr br Wr' br' p' p c hO hH, hH c]
  have hc : gate O' (hmul (sigm (gate O' H' Wr br Wr' br')) H') Wc bc Wc' bc' (ix2 p' q)
      = gate O (hmul (sigm (gate O H Wr br Wr' br')) H) Wc bc Wc' bc' (ix2 p q) :=
    gate_rows O _ O' _ Wc bc Wc' bc' p' p q hO hrH
  show (Ideal.ofBits .f32 0x3F800000#32 - Ideal.logistic (gate O' H' Wz bz Wz' bz' (ix2 p' q))) * H' (ix2 p' q)
      + Ideal.logistic (gate O' H' Wz bz Wz' bz' (ix2 p' q))
        * Ideal.tanh (gate O' (hmul (sigm (gate O' H' Wr br Wr' br')) H') Wc bc Wc' bc' (ix2 p' q))
    = (Ideal.ofBits .f32 0x3F800000#32 - Ideal.logistic (gate O H Wz bz Wz' bz' (ix2 p q))) * H (ix2 p q)
      + Ideal.logistic (gate O H Wz bz Wz' bz' (ix2 p q))
        * Ideal.tanh (gate O (hmul (sigm (gate O H Wr br Wr' br')) H) Wc bc Wc' bc' (ix2 p q))
  rw [hz, hc, hH q]

/-! ## The whole step -/

/-- The transformed node features H = max(Xin·W1 + b1, 0)·W2 + b2. -/
def feat (x0 : Mat 10000 128) (x2 : Mat 128 128) (x3 : Vct 128) (x4 : Mat 128 128) (x5 : Vct 128) : Mat 10000 128 :=
  mlp x0 x2 (asRow x3) x4 (asRow x5)

/-- The messages O = max((A·H)·W3 + b3, 0)·W4 + b4. -/
def msg (A : Mat 10000 10000) (H : Mat 10000 128) (x6 : Mat 128 128) (x7 : Vct 128) (x8 : Mat 128 128)
    (x9 : Vct 128) : Mat 10000 128 :=
  mlp (matProd A H) x6 (asRow x7) x8 (asRow x9)

/-- The step's result from the twenty-two argument arrays, in the programs' argument order. -/
def step (x0 : Mat 10000 128) (x1 : Mat 10000 10000) (x2 : Mat 128 128) (x3 : Vct 128) (x4 : Mat 128 128)
    (x5 : Vct 128) (x6 : Mat 128 128) (x7 : Vct 128) (x8 : Mat 128 128) (x9 : Vct 128) (x10 : Mat 128 128)
    (x11 : Vct 128) (x12 : Mat 128 128) (x13 : Vct 128) (x14 : Mat 128 128) (x15 : Vct 128) (x16 : Mat 128 128)
    (x17 : Vct 128) (x18 : Mat 128 128) (x19 : Vct 128) (x20 : Mat 128 128) (x21 : Vct 128) : Mat 10000 128 :=
  update (msg x1 (feat x0 x2 x3 x4 x5) x6 x7 x8 x9) (feat x0 x2 x3 x4 x5)
    x10 (asRow x11) x12 (asRow x13) x14 (asRow x15) x16 (asRow x17) x18 (asRow x19) x20 (asRow x21)

/-- A block of rows of the step, computed from the same rows of the adjacency matrix and of H, and all of H: row y of
    the block's update is row p of the whole step's when row y of A' is row p of A and row y of H' is row p of H. -/
theorem step_block {r' : Nat} (A' : Mat r' 10000) (H' : Mat r' 128)
    (x0 : Mat 10000 128) (x1 : Mat 10000 10000) (x2 : Mat 128 128) (x3 : Vct 128) (x4 : Mat 128 128)
    (x5 : Vct 128) (x6 : Mat 128 128) (x7 : Vct 128) (x8 : Mat 128 128) (x9 : Vct 128) (x10 : Mat 128 128)
    (x11 : Vct 128) (x12 : Mat 128 128) (x13 : Vct 128) (x14 : Mat 128 128) (x15 : Vct 128) (x16 : Mat 128 128)
    (x17 : Vct 128) (x18 : Mat 128 128) (x19 : Vct 128) (x20 : Mat 128 128) (x21 : Vct 128)
    (y : Fin r') (p : Fin 10000) (q : Fin 128)
    (hA : ∀ c : Fin 10000, A' (ix2 y c) = x1 (ix2 p c))
    (hH : ∀ c : Fin 128, H' (ix2 y c) = feat x0 x2 x3 x4 x5 (ix2 p c)) :
    update (mlp (matProd A' (feat x0 x2 x3 x4 x5)) x6 (asRow x7) x8 (asRow x9)) H'
        x10 (asRow x11) x12 (asRow x13) x14 (asRow x15) x16 (asRow x17) x18 (asRow x19) x20 (asRow x21) (ix2 y q)
      = step x0 x1 x2 x3 x4 x5 x6 x7 x8 x9 x10 x11 x12 x13 x14 x15 x16 x17 x18 x19 x20 x21 (ix2 p q) :=
  update_rows _ _ _ _ _ _ _ _ _ _ _ _ _ _ _ _ y p q
    (fun c => mlp_rows _ _ x6 (asRow x7) x8 (asRow x9) y p c fun c' =>
      matProd_rows x1 A' (feat x0 x2 x3 x4 x5) y p c' hA) hH

end Cert.Spec

end
-- ==== Proof.Payload.lean ====
/-
  The arithmetic of the kernel body is the specification's, block by block.

  The body computes, from a block of 640 rows of the adjacency matrix, the whole array of transformed node features
  and the block's own 640 rows of it, first the messages of the block (a product with the features, then a two-layer
  perceptron), then three gates — each a sum of two products with a bias row added after each —, and the final
  combination (1 − z)·H + z·c. Each of these is spelt with products accumulated into zeros, bias rows re-shaped in
  place and repeated down the rows, and splats of the words of 0 and 1. Read at an index, each spelling is the
  corresponding function of the specification: a product into zeros is the matrix product, a row repeated down the
  rows and added is the bias row added to every row, the rounding to a narrower format is the identity on the
  extended reals, and the entry-by-entry operations are the operations of the extended reals. Nothing is reordered,
  so no entry needs to be finite.
-/
import proofs.«174394_g59339268162203_cont_sun_m_386_9_alg».proof.Proof.Gen.KernelIdeal.Skeleton
import proofs.«174394_g59339268162203_cont_sun_m_386_9_alg».proof.Proof.Spec
import proofs.«174394_g59339268162203_cont_sun_m_386_9_alg».proof.Proof.LibMatProd
import proofs.«174394_g59339268162203_cont_sun_m_386_9_alg».proof.Proof.LibBiasRelu
import proofs.«174394_g59339268162203_cont_sun_m_386_9_alg».proof.Proof.LibRowVector
import proofs.«174394_g59339268162203_cont_sun_m_386_9_alg».proof.Proof.LibSplitLayers
import proofs.«174394_g59339268162203_cont_sun_m_386_9_alg».proof.Proof.LibBlockReads

open scoped BigOperators

noncomputable section

namespace Cert.Payload

open Idealize.ShloMosaic Idealize.ShloMosaic.ValueIdx Cert.Lib.MatProd Cert.Lib.BiasRelu Cert.Lib.RowVector
  Cert.Lib.SplitLayers Cert.Spec Cert.KernelIdeal Cert.KernelIdeal.Gen

variable {r k n : Nat}

/-! ## The body's spellings of the pieces, for any number of rows -/

/-- Rounding to a narrower format is the identity on the extended reals. -/
theorem truncf_id {s : Shape} {φ ψ : FTy} (a : FVec Ideal s φ) (h : ψ.bits < φ.bits) :
    (truncf ψ a h : FVec Ideal s ψ) = a := funext fun i => truncf_apply a h i

/-- X·W + b: the product accumulated into zeros, the bias row re-shaped in place, repeated down the rows, added. -/
theorem body_affine {φ₁ φ₂ : FTy} (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (X : FVec Ideal ⟨2, ![r, k]⟩ φ₁) (W : FVec Ideal ⟨2, ![k, n]⟩ φ₂) (b : FVec Ideal ⟨2, ![1, n]⟩ .f32)
    (h : (⟨2, ![1, n]⟩ : Shape).ShapeCasts ⟨2, ![1, n]⟩) (hb : (⟨2, ![1, n]⟩ : Shape).Broadcasts ⟨2, ![r, n]⟩) :
    addf (matmul d none X W (constant ⟨2, ![r, n]⟩ .f32 0x00000000#32))
      (broadcastTo ⟨2, ![r, n]⟩ (shapeCast ⟨2, ![1, n]⟩ b h) hb) = affine X W b := by
  rw [matmul_zero_eq_matProd d hlc hrc hln hrn hlb hrb none, shapeCast_self]
  funext i
  obtain ⟨p, q, rfl⟩ : ∃ (p : Fin r) (q : Fin n), i = ix2 p q := ⟨i 0, i 1, eq_ix2 i⟩
  rw [addf_apply, Cert.Lib.BlockReads.broadcast_row_apply]
  rfl

/-- max(X·W + b, 0): the same, and the maximum with a splat of the zero word. -/
theorem body_layer {φ₁ φ₂ : FTy} (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (X : FVec Ideal ⟨2, ![r, k]⟩ φ₁) (W : FVec Ideal ⟨2, ![k, n]⟩ φ₂) (b : FVec Ideal ⟨2, ![1, n]⟩ .f32)
    (h : (⟨2, ![1, n]⟩ : Shape).ShapeCasts ⟨2, ![1, n]⟩) (hb : (⟨2, ![1, n]⟩ : Shape).Broadcasts ⟨2, ![r, n]⟩) :
    maximumf (addf (matmul d none X W (constant ⟨2, ![r, n]⟩ .f32 0x00000000#32))
        (broadcastTo ⟨2, ![r, n]⟩ (shapeCast ⟨2, ![1, n]⟩ b h) hb))
      (broadcast ⟨2, ![r, n]⟩ (Scalar.ofBits (F := Ideal) .f32 0x00000000#32)) = layer X W b := by
  rw [matmul_zero_eq_matProd d hlc hrc hln hrn hlb hrb none, shapeCast_self, relu_bias_eq]
  rfl

/-- (P + H·W) + b: a second product added to an array already there, then the bias row. -/
theorem body_gate {φ₁ φ₂ : FTy} (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (P : FVec Ideal ⟨2, ![r, n]⟩ .f32)
    (H : FVec Ideal ⟨2, ![r, k]⟩ φ₁) (W : FVec Ideal ⟨2, ![k, n]⟩ φ₂) (b : FVec Ideal ⟨2, ![1, n]⟩ .f32)
    (h : (⟨2, ![1, n]⟩ : Shape).ShapeCasts ⟨2, ![1, n]⟩) (hb : (⟨2, ![1, n]⟩ : Shape).Broadcasts ⟨2, ![r, n]⟩) :
    addf (addf P (matmul d none H W (constant ⟨2, ![r, n]⟩ .f32 0x00000000#32)))
      (broadcastTo ⟨2, ![r, n]⟩ (shapeCast ⟨2, ![1, n]⟩ b h) hb)
      = addRow (fun i => P i + matProd H W i) b := by
  rw [matmul_zero_eq_matProd d hlc hrc hln hrn hlb hrb none, shapeCast_self]
  funext i
  obtain ⟨p, q, rfl⟩ : ∃ (p : Fin r) (q : Fin n), i = ix2 p q := ⟨i 0, i 1, eq_ix2 i⟩
  rw [addf_apply, addf_apply, Cert.Lib.BlockReads.broadcast_row_apply]
  rfl

/-! ## The six payloads -/

/-- The messages of a block: the product of the block's rows of the adjacency matrix with the features, through the
    second perceptron. -/
theorem pay3_eq (v3 : Vec Ideal S640x10000 .f32) (v5 : Vec Ideal S10000x128 .f32) (v8 : Vec Ideal S128x128 .f32)
    (v10 : Vec Ideal S1x128 .f32) (v16 : Vec Ideal S128x128 .f32) (v18 : Vec Ideal S1x128 .f32) :
    k0_pay3 (F := Ideal) v3 v5 v8 v10 v16 v18 = mlp (matProd v3 v5) v8 v10 v16 v18 := by
  simp only [k0_pay3]
  rw [truncf_id, truncf_id,
    matmul_zero_eq_matProd dot_S640x10000_S10000x128_S640x128_1_0_0_1_n_n rfl rfl rfl rfl rfl rfl none,
    body_layer dot_S640x128_S128x128_S640x128_1_0_0_1_n_n rfl rfl rfl rfl rfl rfl,
    body_affine dot_S640x128_S128x128_S640x128_1_0_0_1_n_n rfl rfl rfl rfl rfl rfl]
  rfl

/-- The first product of the update gate: the messages times the gate's first matrix, plus its first bias row. -/
theorem pay4_eq (v3 : Vec Ideal S640x10000 .f32) (v5 : Vec Ideal S10000x128 .f32) (v8 : Vec Ideal S128x128 .f32)
    (v10 : Vec Ideal S1x128 .f32) (v16 : Vec Ideal S128x128 .f32) (v18 : Vec Ideal S1x128 .f32)
    (v25 : Vec Ideal S128x128 .f32) (v27 : Vec Ideal S1x128 .f32) :
    k0_pay4 (F := Ideal) v3 v5 v8 v10 v16 v18 v25 v27 = affine (k0_pay3 (F := Ideal) v3 v5 v8 v10 v16 v18) v25 v27 := by
  simp only [k0_pay4]
  rw [body_affine dot_S640x128_S128x128_S640x128_1_0_0_1_n_n rfl rfl rfl rfl rfl rfl]

/-- The update gate from its first product: the logistic of ((that) + H·W') + b'. -/
theorem pay5_eq (v24 : Vec Ideal S640x128 .f32) (v30 : FVec Ideal S640x128 .f32) (v31 : Vec Ideal S128x128 .f32)
    (v34 : Vec Ideal S1x128 .f32) :
    k0_pay5 (F := Ideal) v24 v30 v31 v34 = sigm (addRow (fun i => v30 i + matProd v24 v31 i) v34) := by
  simp only [k0_pay5]
  rw [body_gate dot_S640x128_S128x128_S640x128_1_0_0_1_n_n rfl rfl rfl rfl rfl rfl]
  rfl

/-- With the first product X·Wa + ba in place, that is the logistic of the gate's pre-activation. -/
theorem pay5_gate (O v24 : Vec Ideal S640x128 .f32) (v25 : Vec Ideal S128x128 .f32) (v27 : Vec Ideal S1x128 .f32)
    (v31 : Vec Ideal S128x128 .f32) (v34 : Vec Ideal S1x128 .f32) :
    k0_pay5 (F := Ideal) v24 (affine O v25 v27) v31 v34 = sigm (gate O v24 v25 v27 v31 v34) :=
  pay5_eq v24 (affine O v25 v27) v31 v34

/-- The candidate: the reset gate from the messages and the rows H, then the hyperbolic tangent of the third gate's
    pre-activation on the messages and the reset rows. -/
theorem pay6_eq (v21 : FVec Ideal S640x128 .f32) (v24 : Vec Ideal S640x128 .f32)
    (v39 : Vec Ideal S128x128 .f32) (v41 : Vec Ideal S1x128 .f32) (v45 : Vec Ideal S128x128 .f32)
    (v48 : Vec Ideal S1x128 .f32) (v53 : Vec Ideal S128x128 .f32) (v55 : Vec Ideal S1x128 .f32)
    (v60 : Vec Ideal S128x128 .f32) (v63 : Vec Ideal S1x128 .f32) :
    k0_pay6 (F := Ideal) v21 v24 v39 v41 v45 v48 v53 v55 v60 v63
      = tanhm (gate v21 (hmul (sigm (gate v21 v24 v39 v41 v45 v48)) v24) v53 v55 v60 v63) := by
  simp only [k0_pay6]
  rw [body_affine dot_S640x128_S128x128_S640x128_1_0_0_1_n_n rfl rfl rfl rfl rfl rfl v21 v39,
    body_affine dot_S640x128_S128x128_S640x128_1_0_0_1_n_n rfl rfl rfl rfl rfl rfl v21 v53,
    body_gate dot_S640x128_S128x128_S640x128_1_0_0_1_n_n rfl rfl rfl rfl rfl rfl (affine v21 v39 v41) v24 v45,
    body_gate dot_S640x128_S128x128_S640x128_1_0_0_1_n_n rfl rfl rfl rfl rfl rfl (affine v21 v53 v55)]
  rfl

/-- The final combination, entry by entry: (1 − z)·H + z·c, the 1 being the value of its word. -/
theorem pay1_eq (v24 : Vec Ideal S640x128 .f32) (v38 v67 : FVec Ideal S640x128 .f32) :
    k0_pay1 (F := Ideal) v24 v38 v67
      = fun i => (Ideal.ofBits .f32 0x3F800000#32 - v38 i) * v24 i + v38 i * v67 i := by
  simp only [k0_pay1]
  funext i
  rw [addf_apply, mulf_apply, mulf_apply, subf_apply, broadcast_apply]
  rfl

/-! ## The two stores -/

/-- What the first grid point stores into the scratch: the transformed node features of the whole input. -/
theorem pay2_eq (v74 : Vec Ideal S10000x128 .f32) (v75 : Vec Ideal S128x128 .f32) (v77 : Vec Ideal S1x128 .f32)
    (v83 : Vec Ideal S128x128 .f32) (v85 : Vec Ideal S1x128 .f32) :
    Cert.KernelIdeal.Gen.k0_pay2 (F := Ideal) v74 v75 v77 v83 v85 = Cert.Spec.mlp v74 v75 v77 v83 v85 := by
  simp only [k0_pay2]
  rw [shapeCast_self,
    body_layer dot_S10000x128_S128x128_S10000x128_1_0_0_1_n_n rfl rfl rfl rfl rfl rfl,
    body_affine dot_S10000x128_S128x128_S10000x128_1_0_0_1_n_n rfl rfl rfl rfl rfl rfl]
  rfl

/-- What every grid point stores into its output block, from the block of 640 rows of the adjacency matrix (v3), the
    first 10000 rows of the scratch (v5), the block's own 640 rows of the scratch (v24) and the eighteen weight and
    bias blocks: the gated update of those rows by the block's messages. -/
theorem out_eq (v3 : Vec Ideal S640x10000 .f32) (v5 : Vec Ideal S10000x128 .f32) (v8 v16 v25 v31 v39 v45 v53 v60 : Vec Ideal S128x128 .f32)
    (v10 v18 v27 v34 v41 v48 v55 v63 : Vec Ideal S1x128 .f32) (v24 : Vec Ideal S640x128 .f32) :
    Cert.KernelIdeal.Gen.k0_pay1 (F := Ideal) v24
        (Cert.KernelIdeal.Gen.k0_pay5 v24 (Cert.KernelIdeal.Gen.k0_pay4 v3 v5 v8 v10 v16 v18 v25 v27) v31 v34)
        (Cert.KernelIdeal.Gen.k0_pay6 (Cert.KernelIdeal.Gen.k0_pay3 v3 v5 v8 v10 v16 v18) v24 v39 v41 v45 v48 v53 v55 v60 v63)
      = Cert.Spec.update (Cert.Spec.mlp (Cert.Lib.MatProd.matProd v3 v5) v8 v10 v16 v18) v24
          v25 v27 v31 v34 v39 v41 v45 v48 v53 v55 v60 v63 := by
  rw [pay4_eq, pay3_eq, pay5_gate, pay6_eq, pay1_eq]
  rfl

end Cert.Payload

end
-- ==== Proof.IdealRows.lean ====
/-
  The kernel's stores are the specification's rows.

  Read at extended reals. At the first grid point the body fills the scratch's first 10000 rows from the whole input
  features and the first perceptron's weights: those rows are then the specification's transformed features H. At
  any point t, given a scratch whose first 10000 rows are H, the body's stored block is the gated update computed
  from the adjacency window's block, all of H, and the scratch rows 640·t … 640·t + 639. Row y of that block, for y
  inside the array (640·t + y < 10000), depends only on row y of the adjacency block — which is row 640·t + y of the
  adjacency matrix, whatever the block holds past the array's end — and on row 640·t + y of H, which is the scratch
  row the body read. So on the rows inside the array the stored block is the specification's result read through
  the output window's block; past the array's end nothing is said, and nothing is written back.
-/
import proofs.«174394_g59339268162203_cont_sun_m_386_9_alg».proof.Proof.IdealBlocks
import proofs.«174394_g59339268162203_cont_sun_m_386_9_alg».proof.Proof.Payload
import proofs.«174394_g59339268162203_cont_sun_m_386_9_alg».proof.Proof.Spec
import Idealize.ShloMosaic.Lib.Pipeline.FrameBody
import Idealize.ShloMosaic.Lib.Pipeline.Value
import Idealize.ShloMosaic.Lib.Tactic

set_option maxRecDepth 16384

noncomputable section

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Cert.KernelIdeal.Body Cert.KernelIdeal.Blocks Cert.Spec Cert.Lib.MatProd Cert.Lib.RowVector
open Idealize.ShloMosaic.ValueIdx

variable (m : (ℓ : Loc nD τ sig) → Buf (Elt Ideal) ℓ)

/-- The transformed node features of the launch memory on core c. -/
def feats (c : Dev nD) : Mat 10000 128 :=
  feat (m ((c : Thread nD τ).loc main_arg0)) (m ((c : Thread nD τ).loc main_arg2)) (m ((c : Thread nD τ).loc main_arg3)) (m ((c : Thread nD τ).loc main_arg4)) (m ((c : Thread nD τ).loc main_arg5))

/-- The step's result from the launch memory on core c. -/
def result (c : Dev nD) : Mat 10000 128 :=
  step (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))

/-- What the first point leaves in the scratch's first 10000 rows is the transformed features. -/
theorem top_first (c : Dev nD) (t : Fin cfg0.N) (ds : Vec Ideal S10240x128 .f32) :
    scrTop (scrNew (iblk m c 0 t) (iblk m c 2 t) (iblk m c 3 t) (iblk m c 4 t) (iblk m c 5 t) ds) = feats m c := by
  rw [scrTop_scrNew, Cert.Payload.pay2_eq, iblk_0, iblk_2, iblk_3, iblk_4, iblk_5, V_main_arg0, V_main_arg2, V_main_arg4, V_v0, V_v1,
    shapeCast_eq_asRow, shapeCast_eq_asRow]
  rfl

set_option maxHeartbeats 1600000 in
/-- On the rows inside the array, the block the body stores at point t is the result read through the output
    window's block there — given a scratch whose first 10000 rows are the transformed features, and whatever the
    adjacency window's staging buffer holds past the array's end (d1). -/
theorem out_block (c : Dev nD) (t : Fin cfg0.N) (s : Vec Ideal S10240x128 .f32) (hs : scrTop s = feats m c)
    (d1 : S640x10000.Idx → Elt Ideal .f32) :
    win0_22.cut (grid0.coords t)
        (outOf (grid0.coords t) (win0_1.fill (grid0.coords t) d1 (iblk m c 1 t)) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) s)
      = (win0_22.blk t).view.read (Elt Ideal) (result m c) := by
  funext j
  obtain ⟨h22a, h22b, h22c, h22d⟩ := idx22 t
  obtain ⟨h1a, h1b, h1c, h1d⟩ := idx1 t
  obtain ⟨hoa, hob⟩ := off_blk t
  have ht : t.val < 16 := lt_of_lt_of_eq t.isLt N_0
  have hj0 : (j 0).val < min 640 (10000 - 640 * t.val) := lt_of_lt_of_eq (j 0).isLt h22c
  have hj1 : (j 1).val < 128 := lt_of_lt_of_eq (j 1).isLt h22d
  have hy : (j 0).val < 640 := lt_of_lt_of_le hj0 (min_le_left _ _)
  have hp : 640 * t.val + (j 0).val < 10000 := by
    have := lt_of_lt_of_le hj0 (min_le_right _ _); omega
  -- the row of the block, the column, and the row of the array
  obtain ⟨y, hyv⟩ : ∃ y : Fin 640, y.val = (j 0).val := ⟨⟨(j 0).val, hy⟩, rfl⟩
  obtain ⟨q, hqv⟩ : ∃ q : Fin 128, q.val = (j 1).val := ⟨⟨(j 1).val, hj1⟩, rfl⟩
  obtain ⟨p, hpv⟩ : ∃ p : Fin 10000, p.val = 640 * t.val + (j 0).val := ⟨⟨_, hp⟩, rfl⟩
  have eL : win0_22.xinj (grid0.coords t) j = ix2 y q := funext fun a => Fin.ext (by
    match a with
    | ⟨0, _⟩ => exact hyv.symm
    | ⟨1, _⟩ => exact hqv.symm)
  have eR : (win0_22.blk t).view.emb j = ix2 p q := funext fun a => Fin.ext (by
    match a with
    | ⟨0, _⟩ => show win0_22.index t 0 * 640 + 1 * (j 0).val = p.val; rw [h22a, hpv]; omega
    | ⟨1, _⟩ => show win0_22.index t 1 * 128 + 1 * (j 1).val = q.val; rw [h22b, hqv]; omega)
  show outOf (grid0.coords t) (win0_1.fill (grid0.coords t) d1 (iblk m c 1 t)) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) s
      (win0_22.xinj (grid0.coords t) j) = result m c ((win0_22.blk t).view.emb j)
  rw [eL, eR]
  unfold outOf
  rw [Cert.Payload.out_eq, hs, iblk_6, iblk_7, iblk_8, iblk_9, iblk_10, iblk_11, iblk_12, iblk_13, iblk_14, iblk_15, iblk_16, iblk_17, iblk_18, iblk_19, iblk_20, iblk_21, V_main_arg6, V_main_arg8, V_main_arg10, V_main_arg12, V_main_arg14, V_main_arg16, V_main_arg18, V_main_arg20, V_v2, V_v3, V_v4, V_v5, V_v6, V_v7, V_v8, V_v9]
  simp only [shapeCast_eq_asRow]
  -- row y of the adjacency window's buffer is row p of the adjacency matrix
  have hA : ∀ c' : Fin 10000, win0_1.fill (grid0.coords t) d1 (iblk m c 1 t) (ix2 y c')
      = (m ((c : Thread nD τ).loc main_arg1)) (ix2 p c') := fun c' => by
    have hc0 : y.val < win0_1.xsize (grid0.coords t) 0 := by rw [h1c, hyv]; exact hj0
    have hc1 : c'.val < win0_1.xsize (grid0.coords t) 1 := by rw [h1d]; exact c'.isLt
    obtain ⟨j', hj'0, hj'1⟩ : ∃ j' : (win0_1.xblock (grid0.coords t)).Idx, (j' 0).val = y.val ∧ (j' 1).val = c'.val :=
      ⟨fun a => match a with | ⟨0, _⟩ => ⟨y.val, hc0⟩ | ⟨1, _⟩ => ⟨c'.val, hc1⟩, rfl, rfl⟩
    have e1 : ix2 y c' = win0_1.xinj (grid0.coords t) j' := funext fun a => Fin.ext (by
      match a with
      | ⟨0, _⟩ => exact hj'0.symm
      | ⟨1, _⟩ => exact hj'1.symm)
    rw [e1, Window.fill_xinj]
    show V m c main_arg1 (((cfg0.win 1).blk t).view.emb j') = _
    rw [V_main_arg1]
    refine congrArg _ (funext fun a => Fin.ext ?_)
    match a with
    | ⟨0, _⟩ => show win0_1.index t 0 * 640 + 1 * (j' 0).val = p.val; rw [h1a, hj'0, hpv, hyv]; omega
    | ⟨1, _⟩ => show win0_1.index t 1 * 10000 + 1 * (j' 1).val = c'.val; rw [h1b, hj'1]; omega
  -- row y of the scratch rows the body read is row p of the transformed features
  have hH : ∀ c' : Fin 128, scrBlk (grid0.coords t) s (ix2 y c') = feats m c (ix2 p c') := fun c' => by
    rw [← hs]
    show s ((Rect.unit (s := S10240x128) (k0_off1 (grid0.coords t)) S640x128.size (k0_off1_inb (grid0.coords t))).toLoadRect.idx (ix2 y c'))
      = s (topRect.toLoadRect.idx (ix2 p c'))
    refine congrArg s (funext fun a => Fin.ext ?_)
    match a with
    | ⟨0, _⟩ => show k0_off1 (grid0.coords t) 0 + 1 * y.val = 0 + 1 * p.val; rw [hoa, hyv, hpv]; omega
    | ⟨1, _⟩ => show k0_off1 (grid0.coords t) 1 + 1 * c'.val = 0 + 1 * c'.val; rw [hob]
  exact step_block _ _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) y p q hA hH

end Cert.KernelIdeal.Rows

end
-- ==== Proof.IdealData.lean ====
/-
  The program read at extended reals ends with its result array at the specification's result.

  The proof data names what every staging buffer holds after the body at every grid point: an input window's buffer
  its block (the adjacency window's, whose last block overhangs the matrix, filled out past the array's end by a
  word nothing reads), and the output window's the block of the specification's result, filled out the same way.
  The region's invariant carries the scratch: before the first point at anything, afterwards at contents whose
  first 10000 rows are the transformed features. The body obligation follows from the two runs of the body: at the
  first point the store fills those rows; at every point the stored block agrees with the result's block on the rows
  inside the array, which is all the obligation asks of a window whose blocks may overhang. The output's blocks
  tile the 10000 rows (block t holds row r exactly when t = r / 640), so after the last write-back the result array
  is the specification's result; the argument arrays are never written.
-/
import proofs.«174394_g59339268162203_cont_sun_m_386_9_alg».proof.Proof.IdealRows
import proofs.«174394_g59339268162203_cont_sun_m_386_9_alg».proof.Proof.IdealBodyLater
import proofs.«174394_g59339268162203_cont_sun_m_386_9_alg».proof.Proof.IdealBodyFirst
import Idealize.ShloMosaic.Lib.Pipeline.FrameBody
import Idealize.ShloMosaic.Lib.Pipeline.Value
import Idealize.ShloMosaic.Lib.Tactic

set_option maxRecDepth 16384

noncomputable section

namespace Cert.KernelIdeal.Data

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Cert.KernelIdeal.Body Cert.KernelIdeal.Blocks Cert.KernelIdeal.Rows

local notation "𝕀" => MT nD τ sig Unit (Elt Ideal) ℕ (UR sig nD τ) ℕ

variable (m : (ℓ : Loc nD τ sig) → Buf (Elt Ideal) ℓ) (ρ : Dev nD → PrngReg)

/-! ## The invariant and the proof data -/

/-- The region's invariant before position n: before the first point the plain one (the scratch at anything);
    afterwards the scratch at contents whose first 10000 rows are the transformed features, and the generator
    register at some state. -/
def PhiS (c : Dev nD) : ℕ → sProp 𝕀
  | 0 => Pipeline.ΦA spec0 c
  | _ + 1 => iprop(iprop(∃ s : Vec Ideal S10240x128 .f32, ⌜scrTop s = feats m c⌝ ∗ owns (c : Thread nD τ) scM fullShare s)
      ∗ (∃ r, prngReg c r))

theorem PhiS_zero (c : Dev nD) (n : ℕ) (hz : n = 0) : PhiS m c n = Pipeline.ΦA spec0 c := by subst hz; rfl

theorem PhiS_pos (c : Dev nD) (n : ℕ) (hz : n ≠ 0) :
    PhiS m c n = iprop(iprop(∃ s : Vec Ideal S10240x128 .f32, ⌜scrTop s = feats m c⌝ ∗ owns (c : Thread nD τ) scM fullShare s)
      ∗ (∃ r, prngReg c r)) := by
  cases n with
  | zero => exact absurd rfl hz
  | succ n => rfl

/-- The adjacency window's buffer after the body at point t: its block, filled out past the matrix's end by a word
    nothing reads. -/
def adjBuf (c : Dev nD) (t : Fin cfg0.N) : S640x10000.Idx → Elt Ideal .f32 :=
  win0_1.fill (grid0.coords t) (fun _ => Scalar.ofBits (F := Ideal) .f32 0#32) (iblk m c 1 t)

/-- The output window's buffer after the body at point t: the result's block, filled out the same way. -/
def outBuf (c : Dev nD) (t : Fin cfg0.N) : S640x128.Idx → Elt Ideal .f32 :=
  win0_22.fill (grid0.coords t) (fun _ => Scalar.ofBits (F := Ideal) .f32 0#32)
    ((win0_22.blk t).view.read (Elt Ideal) (result m c))

/-- The proof data of the one pipeline on core c. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => adjBuf m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => outBuf m c t
    | ⟨_ + 23, h⟩ => absurd h (Nat.not_lt.2 (Nat.le_add_left _ _))
  Φ t := PhiS m c t.val
  q _ := fullShare
  owed _ := 0

theorem A_eq (c : Dev nD) (w : Fin cfg0.W) : (dats m 0 c).A w = V m c (Pipeline.arrRef spec0 w) := by
  dsimp only [dats]

theorem Phi_cast (c : Dev nD) (t : Fin cfg0.N) : (dats m 0 c).Φ t.castSucc = PhiS m c t.val := by
  dsimp only [dats]; simp only [Fin.coe_castSucc]

theorem Phi_succ (c : Dev nD) (t : Fin cfg0.N) : (dats m 0 c).Φ t.succ = PhiS m c (t.val + 1) := rfl

theorem after_0 (c : Dev nD) (t : Fin cfg0.N) : (dats m 0 c).after 0 t = iblk m c 0 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = iblk m c 21 t := by dsimp only [dats]
theorem after_1 (c : Dev nD) (t : Fin cfg0.N) : (dats m 0 c).after 1 t = adjBuf m c t := by dsimp only [dats]
theorem after_22 (c : Dev nD) (t : Fin cfg0.N) : (dats m 0 c).after 22 t = outBuf m c t := by dsimp only [dats]

/-- What the write-back at point t writes: the result's block. -/
theorem cut_after22 (c : Dev nD) (t : Fin cfg0.N) :
    win0_22.cut (grid0.coords t) ((dats m 0 c).after 22 t) = (win0_22.blk t).view.read (Elt Ideal) (result m c) := by
  rw [after_22]; unfold outBuf; exact win0_22.cut_fill _ _ _

theorem cut_after1 (c : Dev nD) (t : Fin cfg0.N) :
    win0_1.cut (grid0.coords t) ((dats m 0 c).after 1 t) = iblk m c 1 t := by
  rw [after_1]; unfold adjBuf; exact win0_1.cut_fill _ _ _

/-! ## What the body finds in each staging buffer -/

theorem before_0 (c : Dev nD) (t : Fin cfg0.N) (d) : (dats m 0 c).before 0 t d = iblk m c 0 t :=
  before0_0_of m (dats m 0 c) (A_eq m c 0) (after_0 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d
theorem before_18 (c : Dev nD) (t : Fin cfg0.N) (d) : (dats m 0 c).before 18 t d = iblk m c 18 t :=
  before0_18_of m (dats m 0 c) (A_eq m c 18) (after_18 m c) t d
theorem before_19 (c : Dev nD) (t : Fin cfg0.N) (d) : (dats m 0 c).before 19 t d = iblk m c 19 t :=
  before0_19_of m (dats m 0 c) (A_eq m c 19) (after_19 m c) t d
theorem before_20 (c : Dev nD) (t : Fin cfg0.N) (d) : (dats m 0 c).before 20 t d = iblk m c 20 t :=
  before0_20_of m (dats m 0 c) (A_eq m c 20) (after_20 m c) t d
theorem before_21 (c : Dev nD) (t : Fin cfg0.N) (d) : (dats m 0 c).before 21 t d = iblk m c 21 t :=
  before0_21_of m (dats m 0 c) (A_eq m c 21) (after_21 m c) t d

/-- The adjacency window is fetched at every point: its buffer holds the block on the rows inside the matrix and
    anything past them. -/
theorem before_1 (c : Dev nD) (t : Fin cfg0.N) (d) :
    (dats m 0 c).before 1 t d = win0_1.fill (grid0.coords t) d (iblk m c 1 t) := by
  rw [Dat.before_fetched (dats m 0 c) 1 t (fetch0_1 t)]
  unfold Dat.fetched Dat.blockOf iblk; rw [A_eq]; try rfl

/-- The output window's buffer is fresh at every point (the first, or after a write-back). -/
theorem before_22 (c : Dev nD) (t : Fin cfg0.N) (d) : (dats m 0 c).before 22 t d = d :=
  Dat.before_out_reset (dats m 0 c) 22 rfl t
    (by by_cases h : t.val = 0
        · exact .inl h
        · exact .inr ⟨h, flush0_22 _⟩) d

/-! ## The body obligation -/

set_option maxHeartbeats 8000000 in
/-- The body at any point, on what the pipeline hands it and to what the obligation asks back. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d))
      ∗ (∃ d, owns (c : Thread nD τ) (st0_8 t) fullShare ((dats m 0 c).before 8 t d))
      ∗ (∃ d, owns (c : Thread nD τ) (st0_9 t) fullShare ((dats m 0 c).before 9 t d))
      ∗ (∃ d, owns (c : Thread nD τ) (st0_10 t) fullShare ((dats m 0 c).before 10 t d))
      ∗ (∃ d, owns (c : Thread nD τ) (st0_11 t) fullShare ((dats m 0 c).before 11 t d))
      ∗ (∃ d, owns (c : Thread nD τ) (st0_12 t) fullShare ((dats m 0 c).before 12 t d))
      ∗ (∃ d, owns (c : Thread nD τ) (st0_13 t) fullShare ((dats m 0 c).before 13 t d))
      ∗ (∃ d, owns (c : Thread nD τ) (st0_14 t) fullShare ((dats m 0 c).before 14 t d))
      ∗ (∃ d, owns (c : Thread nD τ) (st0_15 t) fullShare ((dats m 0 c).before 15 t d))
      ∗ (∃ d, owns (c : Thread nD τ) (st0_16 t) fullShare ((dats m 0 c).before 16 t d))
      ∗ (∃ d, owns (c : Thread nD τ) (st0_17 t) fullShare ((dats m 0 c).before 17 t d))
      ∗ (∃ d, owns (c : Thread nD τ) (st0_18 t) fullShare ((dats m 0 c).before 18 t d))
      ∗ (∃ d, owns (c : Thread nD τ) (st0_19 t) fullShare ((dats m 0 c).before 19 t d))
      ∗ (∃ d, owns (c : Thread nD τ) (st0_20 t) fullShare ((dats m 0 c).before 20 t d))
      ∗ (∃ d, owns (c : Thread nD τ) (st0_21 t) fullShare ((dats m 0 c).before 21 t d))
      ∗ (∃ d, owns (c : Thread nD τ) (st0_22 t) fullShare ((dats m 0 c).before 22 t d)))
    ⊢ wp frame (wpE (defs₀ (F := Ideal)) Variants.none c none) Set.univ (bodyAt0 t) (fun _ =>
      iprop((dats m 0 c).Φ t.succ ∗ (dats m 0 c).owesAt () t.succ
      ∗ owns (c : Thread nD τ) (st0_0 t) fullShare ((dats m 0 c).after 0 t)
      ∗ (∃ d, owns (c : Thread nD τ) (st0_1 t) fullShare (win0_1.fill (grid0.coords t) d (win0_1.cut (grid0.coords t) ((dats m 0 c).after 1 t))))
      ∗ owns (c : Thread nD τ) (st0_2 t) fullShare ((dats m 0 c).after 2 t)
      ∗ owns (c : Thread nD τ) (st0_3 t) fullShare ((dats m 0 c).after 3 t)
      ∗ owns (c : Thread nD τ) (st0_4 t) fullShare ((dats m 0 c).after 4 t)
      ∗ owns (c : Thread nD τ) (st0_5 t) fullShare ((dats m 0 c).after 5 t)
      ∗ owns (c : Thread nD τ) (st0_6 t) fullShare ((dats m 0 c).after 6 t)
      ∗ owns (c : Thread nD τ) (st0_7 t) fullShare ((dats m 0 c).after 7 t)
      ∗ owns (c : Thread nD τ) (st0_8 t) fullShare ((dats m 0 c).after 8 t)
      ∗ owns (c : Thread nD τ) (st0_9 t) fullShare ((dats m 0 c).after 9 t)
      ∗ owns (c : Thread nD τ) (st0_10 t) fullShare ((dats m 0 c).after 10 t)
      ∗ owns (c : Thread nD τ) (st0_11 t) fullShare ((dats m 0 c).after 11 t)
      ∗ owns (c : Thread nD τ) (st0_12 t) fullShare ((dats m 0 c).after 12 t)
      ∗ owns (c : Thread nD τ) (st0_13 t) fullShare ((dats m 0 c).after 13 t)
      ∗ owns (c : Thread nD τ) (st0_14 t) fullShare ((dats m 0 c).after 14 t)
      ∗ owns (c : Thread nD τ) (st0_15 t) fullShare ((dats m 0 c).after 15 t)
      ∗ owns (c : Thread nD τ) (st0_16 t) fullShare ((dats m 0 c).after 16 t)
      ∗ owns (c : Thread nD τ) (st0_17 t) fullShare ((dats m 0 c).after 17 t)
      ∗ owns (c : Thread nD τ) (st0_18 t) fullShare ((dats m 0 c).after 18 t)
      ∗ owns (c : Thread nD τ) (st0_19 t) fullShare ((dats m 0 c).after 19 t)
      ∗ owns (c : Thread nD τ) (st0_20 t) fullShare ((dats m 0 c).after 20 t)
      ∗ owns (c : Thread nD τ) (st0_21 t) fullShare ((dats m 0 c).after 21 t)
      ∗ (∃ d, owns (c : Thread nD τ) (st0_22 t) fullShare (win0_22.fill (grid0.coords t) d (win0_22.cut (grid0.coords t) ((dats m 0 c).after 22 t)))))) := by
  simp only [before_0, before_1, before_2, before_3, before_4, before_5, before_6, before_7, before_8, before_9, before_10, before_11, before_12, before_13, before_14, before_15, before_16, before_17, before_18, before_19, before_20, before_21, before_22, after_0, after_2, after_3, after_4, after_5, after_6, after_7, after_8, after_9, after_10, after_11, after_12, after_13, after_14, after_15, after_16, after_17, after_18, after_19, after_20, after_21, cut_after1]
  rw [show (dats m 0 c).owesAt () t.succ = (dats m 0 c).owesAt () t.castSucc from rfl, Phi_cast, Phi_succ,
    PhiS_pos m c (t.val + 1) (Nat.succ_ne_zero _)]
  by_cases h0 : t.val = 0
  · have hc : atFirst (grid0.coords t) := (atFirst_iff t).mpr h0
    rw [PhiS_zero m c _ h0, PhiA_eq]
    iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply (run_first (F := Ideal) c (grid0.coords t) _ _ _ _ _ _ _ _ _ _ _ _ _ _ _ _ _ _ _ _ _ _ _ _ _ _ _ _ _ _ _ _ _ _ _ _ _ _ _ _ _ _ _ _ _ _ _ _ hc (iblk m c 0 t) (win0_1.fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) ds Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexists d22; iexact H22
    isplitl [HS]; · iexact HS
    iintro ⟨H0, H1, H2, H3, H4, H5, H6, H7, H8, H9, H10, H11, H12, H13, H14, H15, H16, H17, H18, H19, H20, H21, H22, HS⟩
    isplitl [HS Hg]
    · isplitl [HS]
      · iexists (scrNew (iblk m c 0 t) (iblk m c 2 t) (iblk m c 3 t) (iblk m c 4 t) (iblk m c 5 t) ds); isplitr
        · ipureintro; exact top_first m c t ds
        iexact HS
      iexact Hg
    isplitl [Ho]; · iexact Ho
    isplitl [H0]; · iexact H0
    isplitl [H1]; · iexists d1; rw [cut_after1]; iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexists (outOf (grid0.coords t) (win0_1.fill (grid0.coords t) d1 (iblk m c 1 t)) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (scrNew (iblk m c 0 t) (iblk m c 2 t) (iblk m c 3 t) (iblk m c 4 t) (iblk m c 5 t) ds))
    rw [win0_22.fill_congr_cut (grid0.coords t) ((out_block m c t (scrNew (iblk m c 0 t) (iblk m c 2 t) (iblk m c 3 t) (iblk m c 4 t) (iblk m c 5 t) ds) (top_first m c t ds) d1).trans (cut_after22 m c t).symm)]
    iexact H22
  · have hc : ¬atFirst (grid0.coords t) := fun h => h0 ((atFirst_iff t).mp h)
    rw [PhiS_pos m c _ h0]
    iintro ⟨⟨⟨%ds, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply (run_later (F := Ideal) c (grid0.coords t) _ _ _ _ _ _ _ _ _ _ _ _ _ _ _ _ _ _ _ _ _ _ _ _ _ _ _ _ _ _ _ _ _ _ _ _ _ _ _ _ _ _ _ _ _ _ _ _ hc (iblk m c 0 t) (win0_1.fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) ds Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexists d22; iexact H22
    isplitl [HS]; · iexact HS
    iintro ⟨H0, H1, H2, H3, H4, H5, H6, H7, H8, H9, H10, H11, H12, H13, H14, H15, H16, H17, H18, H19, H20, H21, H22, HS⟩
    isplitl [HS Hg]
    · isplitl [HS]
      · iexists ds; isplitr
        · ipureintro; exact hs
        iexact HS
      iexact Hg
    isplitl [Ho]; · iexact Ho
    isplitl [H0]; · iexact H0
    isplitl [H1]; · iexists d1; rw [cut_after1]; iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexists (outOf (grid0.coords t) (win0_1.fill (grid0.coords t) d1 (iblk m c 1 t)) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) ds)
    rw [win0_22.fill_congr_cut (grid0.coords t) ((out_block m c t ds (hs) d1).trans (cut_after22 m c t).symm)]
    iexact H22

/-- The library's body obligation, at every point. -/
theorem body_obligation (c : Dev nD) :
    Pipeline.BodyObligationLoose (dats m 0 c) (defs₀ (F := Ideal)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 16 := N_0; omega), PhiA_eq]
  iintro ⟨⟨%s, -, HS⟩, Hg⟩
  isplitl [HS]
  · iexists _; iexact HS
  iexact Hg

/-! ## The run -/

set_option backward.isDefEq.respectTransparency.types false in
/-- Every weakly fair execution terminates, nothing faulting, with every array of the pipeline at what the library
    computes from the proof data and every other unscoped buffer as the region found it. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

/-! ## The result array after the last write-back -/

/-- Row r of the result lies in the block of point r / 640 and every column lies in every block. -/
theorem cover (i : S10000x128.Idx) :
    ∃ t : Fin cfg0.N, (cfg0.win 22).flush t = true ∧ i ∈ ((cfg0.win 22).blk t).view.set := by
  have hi0 : (i 0).val < 10000 := (i 0).isLt
  have hi1 : (i 1).val < 128 := (i 1).isLt
  have hN : cfg0.N = 16 := N_0
  obtain ⟨t, htv⟩ : ∃ t : Fin cfg0.N, t.val = (i 0).val / 640 := ⟨⟨(i 0).val / 640, by rw [hN]; omega⟩, rfl⟩
  obtain ⟨ha, hb, hc, hd⟩ := idx22 t
  refine ⟨t, flush0_22 t, ?_⟩
  show i ∈ ((View.whole main_v0).slice (win0_22.rect t)).set
  rw [View.set_slice_whole, Rect.mem_set_unit]
  intro a
  match a with
  | ⟨0, _⟩ =>
    show win0_22.index t 0 * 640 ≤ (i 0).val
      ∧ (i 0).val < win0_22.index t 0 * 640 + win0_22.xsize (grid0.coords t) 0
    rw [ha, hc, htv]
    refine ⟨by omega, ?_⟩
    rcases le_total (640 : ℕ) (10000 - 640 * ((i 0).val / 640)) with h | h
    · rw [min_eq_left h]; omega
    · rw [min_eq_right h]; omega
  | ⟨1, _⟩ =>
    show win0_22.index t 1 * 128 ≤ (i 1).val
      ∧ (i 1).val < win0_22.index t 1 * 128 + win0_22.xsize (grid0.coords t) 1
    rw [hb, hd]; omega

/-- The result array ends at the specification's result. -/
theorem final (c : Dev nD) : (dats m 0 c).arrAt 22 cfg0.N = result m c :=
  (dats m 0 c).arrAt_eq_of_cover 22 (result m c) (fun t _ => cut_after22 m c t) (cover)

set_option maxHeartbeats 1600000 in
/-- The program read at extended reals runs, ends with its result array at the specification's result of the launch
    memory, and leaves its argument arrays unchanged. -/
theorem run_value : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => ⟨((h c).1 22).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c),
      ((h c).1 8).trans (((dats m 0 c).arrAt_in 8 rfl _).trans ((A_eq m c 8).trans (V_main_arg8 m c))),
      ((h c).2 main_arg9 (Pipeline.mem_restRefs_of main_arg9 (by decide) (by decide))).trans (V_main_arg9 m c),
      ((h c).1 10).trans (((dats m 0 c).arrAt_in 10 rfl _).trans ((A_eq m c 10).trans (V_main_arg10 m c))),
      ((h c).2 main_arg11 (Pipeline.mem_restRefs_of main_arg11 (by decide) (by decide))).trans (V_main_arg11 m c),
      ((h c).1 12).trans (((dats m 0 c).arrAt_in 12 rfl _).trans ((A_eq m c 12).trans (V_main_arg12 m c))),
      ((h c).2 main_arg13 (Pipeline.mem_restRefs_of main_arg13 (by decide) (by decide))).trans (V_main_arg13 m c),
      ((h c).1 14).trans (((dats m 0 c).arrAt_in 14 rfl _).trans ((A_eq m c 14).trans (V_main_arg14 m c))),
      ((h c).2 main_arg15 (Pipeline.mem_restRefs_of main_arg15 (by decide) (by decide))).trans (V_main_arg15 m c),
      ((h c).1 16).trans (((dats m 0 c).arrAt_in 16 rfl _).trans ((A_eq m c 16).trans (V_main_arg16 m c))),
      ((h c).2 main_arg17 (Pipeline.mem_restRefs_of main_arg17 (by decide) (by decide))).trans (V_main_arg17 m c),
      ((h c).1 18).trans (((dats m 0 c).arrAt_in 18 rfl _).trans ((A_eq m c 18).trans (V_main_arg18 m c))),
      ((h c).2 main_arg19 (Pipeline.mem_restRefs_of main_arg19 (by decide) (by decide))).trans (V_main_arg19 m c),
      ((h c).1 20).trans (((dats m 0 c).arrAt_in 20 rfl _).trans ((A_eq m c 20).trans (V_main_arg20 m c))),
      ((h c).2 main_arg21 (Pipeline.mem_restRefs_of main_arg21 (by decide) (by decide))).trans (V_main_arg21 m c)⟩) (run_main m ρ)

end Cert.KernelIdeal.Data

end
-- ==== Proof.LibSigmoidLayer.lean ====
/-
  The last layer of a perceptron with the logistic function, over the extended reals.

  Entry (p, q) is logistic (∑ c, X(p, c) · W(c, q) + b(0, q)), where logistic x = 1 / (1 + e^(-x)) with the
  conventions of the extended reals at the infinities. A kernel's one logistic operation and the reference's
  expansion of it into a negation, an exponential, an addition to one and a quotient of one are this one function;
  the pattern 0x3F800000 is the real 1.
-/
import Idealize.ShloMosaic.PureOps.Ideal.Laws
import Idealize.ShloMosaic.Lib.ValueIdx
import Idealize.ShloMosaic.Lib.Pipeline.Value
import proofs.«174394_g59339268162203_cont_sun_m_386_9_alg».proof.Proof.LibBlockReads
import proofs.«174394_g59339268162203_cont_sun_m_386_9_alg».proof.Proof.LibMatProd
import proofs.«174394_g59339268162203_cont_sun_m_386_9_alg».proof.Proof.LibRowVector
import proofs.«174394_g59339268162203_cont_sun_m_386_9_alg».proof.Proof.LibSplitLayers

open scoped BigOperators

noncomputable section

namespace Cert.Lib.SigmoidLayer

open Idealize.ShloMosaic Idealize.ShloMosaic.ValueIdx Cert.Lib.MatProd Cert.Lib.RowVector Cert.Lib.SplitLayers

variable {r r' k n : Nat}

/-- Entry (p, q) is logistic (∑ c, X(p, c) · W(c, q) + b(0, q)). -/
def sigLayer (X : (⟨2, ![r, k]⟩ : Shape).Idx → EReal) (W : (⟨2, ![k, n]⟩ : Shape).Idx → EReal)
    (b : (⟨2, ![1, n]⟩ : Shape).Idx → EReal) : (⟨2, ![r, n]⟩ : Shape).Idx → EReal :=
  fun i => Ideal.logistic (matProd X W i + b (ix2 (0 : Fin 1) (⟨(i 1).val, idx2_lt1 i⟩ : Fin n)))

theorem sigLayer_apply (X : (⟨2, ![r, k]⟩ : Shape).Idx → EReal) (W : (⟨2, ![k, n]⟩ : Shape).Idx → EReal)
    (b : (⟨2, ![1, n]⟩ : Shape).Idx → EReal) (p : Fin r) (q : Fin n) :
    sigLayer X W b (ix2 p q) = Ideal.logistic (matProd X W (ix2 p q) + b (ix2 0 q)) := rfl

/-- An entry depends on one row of the input. -/
theorem sigLayer_rows (X : (⟨2, ![r, k]⟩ : Shape).Idx → EReal) (X' : (⟨2, ![r', k]⟩ : Shape).Idx → EReal)
    (W : (⟨2, ![k, n]⟩ : Shape).Idx → EReal) (b : (⟨2, ![1, n]⟩ : Shape).Idx → EReal)
    (p' : Fin r') (p : Fin r) (q : Fin n) (h : ∀ c : Fin k, X' (ix2 p' c) = X (ix2 p c)) :
    sigLayer X' W b (ix2 p' q) = sigLayer X W b (ix2 p q) := by
  rw [sigLayer_apply, sigLayer_apply, matProd_rows X X' W p' p q h]

/-- The kernel body's spelling: the product into zeros, the bias row broadcast down the rows, the logistic. -/
theorem body_sig {φ₁ φ₂ : FTy} (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (X : FVec Ideal ⟨2, ![r, k]⟩ φ₁) (W : FVec Ideal ⟨2, ![k, n]⟩ φ₂) (b : FVec Ideal ⟨2, ![1, n]⟩ .f32)
    (hb : (⟨2, ![1, n]⟩ : Shape).Broadcasts ⟨2, ![r, n]⟩) :
    logistic (addf (matmul d none X W (constant ⟨2, ![r, n]⟩ .f32 0x00000000#32)) (broadcastTo ⟨2, ![r, n]⟩ b hb))
      = sigLayer X W b := by
  rw [matmul_zero_eq_matProd d hlc hrc hln hrn hlb hrb none]
  funext i
  obtain ⟨p, q, rfl⟩ : ∃ (p : Fin r) (q : Fin n), i = ix2 p q := ⟨i 0, i 1, eq_ix2 i⟩
  show Ideal.logistic (addf (matProd X W) (broadcastTo ⟨2, ![r, n]⟩ b hb) (ix2 p q)) = _
  rw [addf_apply, Cert.Lib.BlockReads.broadcast_row_apply]
  rfl

/-- The pattern of 1.0 is the real 1. -/
theorem ofBits_one : Ideal.ofBits .f32 0x3F800000#32 = 1 := by
  simp [Ideal.ofBits, Ideal.ieee, -EReal.coe_mul]; norm_num

/-- The reference's spelling: one over one plus the exponential of the negated affine layer. -/
theorem host_sig (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (X : FVec Ideal ⟨2, ![r, k]⟩ .f32) (W : FVec Ideal ⟨2, ![k, n]⟩ .f32) (bv : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1])
    (h3 : (⟨0, ![]⟩ : Shape).BroadcastsInDim ⟨2, ![r, n]⟩ ![]) :
    Host.divf (broadcastInDim ⟨2, ![r, n]⟩ ![] h3 (constant (F := Ideal) ⟨0, ![]⟩ .f32 0x3F800000#32))
      (addf (broadcastInDim ⟨2, ![r, n]⟩ ![] h3 (constant (F := Ideal) ⟨0, ![]⟩ .f32 0x3F800000#32))
        (Host.exp (Host.negf (addf (Host.dotGeneral d none X W)
          (broadcastInDim ⟨2, ![r, n]⟩ ![0, 1] h2 (broadcastInDim ⟨2, ![1, n]⟩ ![1] h1 bv))))))
    = sigLayer X W (asRow bv) := by
  have e3 : Host.dotGeneral d none X W = matProd X W := dotGeneral_eq_matProd d hlc hrc hln hrn hlb hrb none _ X W
  funext i
  obtain ⟨p, q, rfl⟩ : ∃ (p : Fin r) (q : Fin n), i = ix2 p q := ⟨i 0, i 1, eq_ix2 i⟩
  have e1 : broadcastInDim ⟨2, ![r, n]⟩ ![] h3 (constant (F := Ideal) ⟨0, ![]⟩ .f32 0x3F800000#32) (ix2 p q) = 1 := by
    rw [bcastInDim_scalar_apply, constant_apply, ofBits_one]
  have e2 : addf (Host.dotGeneral d none X W)
      (broadcastInDim ⟨2, ![r, n]⟩ ![0, 1] h2 (broadcastInDim ⟨2, ![1, n]⟩ ![1] h1 bv)) (ix2 p q)
      = matProd X W (ix2 p q) + asRow bv (ix2 0 q) := by
    rw [addf_apply, e3, bcastInDim_rows_apply, bcastInDim_eq_asRow]
  show Ideal.div (broadcastInDim ⟨2, ![r, n]⟩ ![] h3 (constant (F := Ideal) ⟨0, ![]⟩ .f32 0x3F800000#32) (ix2 p q))
      (broadcastInDim ⟨2, ![r, n]⟩ ![] h3 (constant (F := Ideal) ⟨0, ![]⟩ .f32 0x3F800000#32) (ix2 p q)
        + Ideal.exp (-(addf (Host.dotGeneral d none X W)
          (broadcastInDim ⟨2, ![r, n]⟩ ![0, 1] h2 (broadcastInDim ⟨2, ![1, n]⟩ ![1] h1 bv)) (ix2 p q)))) = _
  rw [e1, e2]
  rfl

end Cert.Lib.SigmoidLayer

end
-- ==== Proof.RefStep.lean ====
/-
  The reference's computation, operation by operation, is the gated message-passing step of the specification.

  Each stage of the reference is one whole-array operation applied to earlier stages. Grouping the stages: a product,
  a bias vector broadcast into a row and down the rows, a sum and a maximum with zero make a layer; a product, the
  broadcast bias and a sum make an affine map; two such sums and a second bias make the pre-activation of a gate;
  a negation, an exponential, a sum with one and a quotient of one make the logistic function; and the last four
  stages combine the gates entry by entry. Every equation is read index by index; sums of extended reals are never
  re-ordered and the literal 1.0 is kept as the value of its word.
-/
import proofs.«174394_g59339268162203_cont_sun_m_386_9_alg».proof.Proof.Gen.ReferenceIdeal.Read
import proofs.«174394_g59339268162203_cont_sun_m_386_9_alg».proof.Proof.Spec
import proofs.«174394_g59339268162203_cont_sun_m_386_9_alg».proof.Proof.LibSigmoidLayer

open scoped BigOperators

noncomputable section

namespace Cert.RefStep

open Idealize.ShloMosaic Idealize.ShloMosaic.ValueIdx Cert.Lib.MatProd Cert.Lib.BiasRelu Cert.Lib.RowVector
  Cert.Lib.SplitLayers Cert.Lib.SigmoidLayer Cert.Spec Cert.ReferenceIdeal Cert.ReferenceIdeal.Gen
  Cert.ReferenceIdeal.Read

variable {r k n : Nat}

/-! ## The reference's spellings of the pieces -/

/-- A bias vector broadcast into a row and then down the rows, added to an array, is the bias row added to every
    row. -/
theorem host_addRow (M : FVec Ideal ⟨2, ![r, n]⟩ .f32) (bv : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1]) :
    addf M (broadcastInDim ⟨2, ![r, n]⟩ ![0, 1] h2 (broadcastInDim ⟨2, ![1, n]⟩ ![1] h1 bv))
      = addRow M (asRow bv) := by
  funext i
  obtain ⟨p, q, rfl⟩ : ∃ (p : Fin r) (q : Fin n), i = ix2 p q := ⟨i 0, i 1, eq_ix2 i⟩
  rw [addf_apply, bcastInDim_rows_apply, bcastInDim_eq_asRow, addRow_apply]

/-- The reference's spelling of an affine map: the host's product and the broadcast bias added. -/
theorem host_affine (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (X : FVec Ideal ⟨2, ![r, k]⟩ .f32) (W : FVec Ideal ⟨2, ![k, n]⟩ .f32) (bv : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1]) :
    addf (Host.dotGeneral (F := Ideal) d none X W)
        (broadcastInDim ⟨2, ![r, n]⟩ ![0, 1] h2 (broadcastInDim ⟨2, ![1, n]⟩ ![1] h1 bv))
      = affine X W (asRow bv) := by
  rw [host_addRow]
  unfold affine
  congr 1
  exact dotGeneral_eq_matProd d hlc hrc hln hrn hlb hrb none _ X W

/-- The reference's spelling of a gate's pre-activation: an affine map of the messages, the product of the rows with
    a second matrix added, and a second broadcast bias added. -/
theorem host_gate (d : DotDims ⟨2, ![r, n]⟩ ⟨2, ![n, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (O H : FVec Ideal ⟨2, ![r, n]⟩ .f32) (Wa Wb : FVec Ideal ⟨2, ![n, n]⟩ .f32)
    (ba bb : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1]) :
    addf (addf (addf (Host.dotGeneral (F := Ideal) d none O Wa)
            (broadcastInDim ⟨2, ![r, n]⟩ ![0, 1] h2 (broadcastInDim ⟨2, ![1, n]⟩ ![1] h1 ba)))
          (Host.dotGeneral (F := Ideal) d none H Wb))
        (broadcastInDim ⟨2, ![r, n]⟩ ![0, 1] h2 (broadcastInDim ⟨2, ![1, n]⟩ ![1] h1 bb))
      = gate O H Wa (asRow ba) Wb (asRow bb) := by
  have e : Host.dotGeneral (F := Ideal) d none H Wb = matProd H Wb :=
    dotGeneral_eq_matProd d hlc hrc hln hrn hlb hrb none _ H Wb
  rw [host_addRow, host_affine d hlc hrc hln hrn hlb hrb, e]
  rfl

/-- The reference's spelling of the logistic function: one over one plus the exponential of the negation. -/
theorem host_sigm (M : FVec Ideal ⟨2, ![r, n]⟩ .f32)
    (h3 : (⟨0, ![]⟩ : Shape).BroadcastsInDim ⟨2, ![r, n]⟩ ![]) :
    Host.divf (F := Ideal)
        (broadcastInDim ⟨2, ![r, n]⟩ ![] h3 (constant (F := Ideal) ⟨0, ![]⟩ .f32 0x3F800000#32))
        (addf (broadcastInDim ⟨2, ![r, n]⟩ ![] h3 (constant (F := Ideal) ⟨0, ![]⟩ .f32 0x3F800000#32))
          (Host.exp (F := Ideal) (Host.negf (F := Ideal) M)))
      = sigm M := by
  funext i
  have e1 : broadcastInDim ⟨2, ![r, n]⟩ ![] h3 (constant (F := Ideal) ⟨0, ![]⟩ .f32 0x3F800000#32) i = 1 := by
    rw [bcastInDim_scalar_apply, constant_apply, ofBits_one]
  show Ideal.div (broadcastInDim ⟨2, ![r, n]⟩ ![] h3 (constant (F := Ideal) ⟨0, ![]⟩ .f32 0x3F800000#32) i)
      (broadcastInDim ⟨2, ![r, n]⟩ ![] h3 (constant (F := Ideal) ⟨0, ![]⟩ .f32 0x3F800000#32) i
        + Ideal.exp (-(M i))) = _
  rw [e1]
  rfl

/-! ## The stages of the reference -/

section Stages

variable (x0 : (⟨S10000x128, .f32⟩ : BufTy).Contents (Elt Ideal))
  (x1 : (⟨S10000x10000, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S128x128, .f32⟩ : BufTy).Contents (Elt Ideal)) (x11 : (⟨S128, .f32⟩ : BufTy).Contents (Elt Ideal))
  (x12 : (⟨S128x128, .f32⟩ : BufTy).Contents (Elt Ideal)) (x13 : (⟨S128, .f32⟩ : BufTy).Contents (Elt Ideal))
  (x14 : (⟨S128x128, .f32⟩ : BufTy).Contents (Elt Ideal)) (x15 : (⟨S128, .f32⟩ : BufTy).Contents (Elt Ideal))
  (x16 : (⟨S128x128, .f32⟩ : BufTy).Contents (Elt Ideal)) (x17 : (⟨S128, .f32⟩ : BufTy).Contents (Elt Ideal))
  (x18 : (⟨S128x128, .f32⟩ : BufTy).Contents (Elt Ideal)) (x19 : (⟨S128, .f32⟩ : BufTy).Contents (Elt Ideal))
  (x20 : (⟨S128x128, .f32⟩ : BufTy).Contents (Elt Ideal)) (x21 : (⟨S128, .f32⟩ : BufTy).Contents (Elt Ideal))

/-- Stages 0–4: the first layer of the node features. -/
theorem v4_eq : val_main_v4 (F := Ideal) x0 x2 x3 = layer x0 x2 (asRow x3) := by
  unfold val_main_v4 val_main_v3 val_main_v2 val_main_v1 val_main_v0 val_main_call0_v0 val_main_call0_cst
  exact host_layer _ rfl rfl rfl rfl rfl rfl x0 x2 x3 _ _ _

/-- Stages 5–8: the transformed node features. -/
theorem v8_eq : val_main_v8 (F := Ideal) x0 x2 x3 x4 x5 = feat x0 x2 x3 x4 x5 := by
  unfold val_main_v8 val_main_v7 val_main_v6 val_main_v5
  rw [v4_eq]
  exact host_affine _ rfl rfl rfl rfl rfl rfl _ x4 x5 _ _

/-- Stage 9: every node collects its neighbours' features. -/
theorem v9_eq : val_main_v9 (F := Ideal) x0 x1 x2 x3 x4 x5 = matProd x1 (feat x0 x2 x3 x4 x5) := by
  unfold val_main_v9
  rw [v8_eq]
  exact dotGeneral_eq_matProd dot_S10000x10000_S10000x128_S10000x128_1_0_0_1_n_n rfl rfl rfl rfl rfl rfl none _ x1 _

/-- Stages 10–14: the first layer of the messages. -/
theorem v14_eq : val_main_v14 (F := Ideal) x0 x1 x2 x3 x4 x5 x6 x7
    = layer (matProd x1 (feat x0 x2 x3 x4 x5)) x6 (asRow x7) := by
  unfold val_main_v14 val_main_v13 val_main_v12 val_main_v11 val_main_v10 val_main_call1_v0 val_main_call1_cst
  rw [v9_eq]
  exact host_layer _ rfl rfl rfl rfl rfl rfl _ x6 x7 _ _ _

/-- Stages 15–18: the messages. -/
theorem v18_eq : val_main_v18 (F := Ideal) x0 x1 x2 x3 x4 x5 x6 x7 x8 x9
    = msg x1 (feat x0 x2 x3 x4 x5) x6 x7 x8 x9 := by
  unfold val_main_v18 val_main_v17 val_main_v16 val_main_v15
  rw [v14_eq]
  exact host_affine _ rfl rfl rfl rfl rfl rfl _ x8 x9 _ _

/-- Stages 19–27: the pre-activation of the update gate. -/
theorem v27_eq : val_main_v27 (F := Ideal) x0 x1 x2 x3 x4 x5 x6 x7 x8 x9 x10 x11 x12 x13
    = gate (msg x1 (feat x0 x2 x3 x4 x5) x6 x7 x8 x9) (feat x0 x2 x3 x4 x5) x10 (asRow x11) x12 (asRow x13) := by
  unfold val_main_v27 val_main_v26 val_main_v25 val_main_v24 val_main_v23 val_main_v22 val_main_v21 val_main_v20
    val_main_v19
  rw [v18_eq, v8_eq]
  exact host_gate _ rfl rfl rfl rfl rfl rfl _ _ x10 x12 x11 x13 _ _

/-- Stages 28–33: the update gate. -/
theorem v33_eq : val_main_v33 (F := Ideal) x0 x1 x2 x3 x4 x5 x6 x7 x8 x9 x10 x11 x12 x13
    = sigm (gate (msg x1 (feat x0 x2 x3 x4 x5) x6 x7 x8 x9) (feat x0 x2 x3 x4 x5)
        x10 (asRow x11) x12 (asRow x13)) := by
  unfold val_main_v33 val_main_v32 val_main_cst_0 val_main_v31 val_main_v30 val_main_cst val_main_v29 val_main_v28
  rw [v27_eq]
  exact host_sigm _ _

/-- Stages 34–42: the pre-activation of the reset gate. -/
theorem v42_eq : val_main_v42 (F := Ideal) x0 x1 x2 x3 x4 x5 x6 x7 x8 x9 x14 x15 x16 x17
    = gate (msg x1 (feat x0 x2 x3 x4 x5) x6 x7 x8 x9) (feat x0 x2 x3 x4 x5) x14 (asRow x15) x16 (asRow x17) := by
  unfold val_main_v42 val_main_v41 val_main_v40 val_main_v39 val_main_v38 val_main_v37 val_main_v36 val_main_v35
    val_main_v34
  rw [v18_eq, v8_eq]
  exact host_gate _ rfl rfl rfl rfl rfl rfl _ _ x14 x16 x15 x17 _ _

/-- Stages 43–48: the reset gate. -/
theorem v48_eq : val_main_v48 (F := Ideal) x0 x1 x2 x3 x4 x5 x6 x7 x8 x9 x14 x15 x16 x17
    = sigm (gate (msg x1 (feat x0 x2 x3 x4 x5) x6 x7 x8 x9) (feat x0 x2 x3 x4 x5)
        x14 (asRow x15) x16 (asRow x17)) := by
  unfold val_main_v48 val_main_v47 val_main_cst_2 val_main_v46 val_main_v45 val_main_cst_1 val_main_v44 val_main_v43
  rw [v42_eq]
  exact host_sigm _ _

/-- Stage 53: the node features scaled by the reset gate. -/
theorem v53_eq : val_main_v53 (F := Ideal) x0 x1 x2 x3 x4 x5 x6 x7 x8 x9 x14 x15 x16 x17
    = hmul (sigm (gate (msg x1 (feat x0 x2 x3 x4 x5) x6 x7 x8 x9) (feat x0 x2 x3 x4 x5)
        x14 (asRow x15) x16 (asRow x17))) (feat x0 x2 x3 x4 x5) := by
  unfold val_main_v53
  rw [v48_eq, v8_eq]
  rfl

/-- Stages 49–58: the pre-activation of the candidate. -/
theorem v58_eq : val_main_v58 (F := Ideal) x0 x1 x2 x3 x4 x5 x6 x7 x8 x9 x14 x15 x16 x17 x18 x19 x20 x21
    = gate (msg x1 (feat x0 x2 x3 x4 x5) x6 x7 x8 x9)
        (hmul (sigm (gate (msg x1 (feat x0 x2 x3 x4 x5) x6 x7 x8 x9) (feat x0 x2 x3 x4 x5)
          x14 (asRow x15) x16 (asRow x17))) (feat x0 x2 x3 x4 x5))
        x18 (asRow x19) x20 (asRow x21) := by
  unfold val_main_v58 val_main_v57 val_main_v56 val_main_v55 val_main_v54 val_main_v52 val_main_v51 val_main_v50
    val_main_v49
  rw [v18_eq, v53_eq]
  exact host_gate _ rfl rfl rfl rfl rfl rfl _ _ x18 x20 x19 x21 _ _

/-- Stage 59: the candidate. -/
theorem v59_eq : val_main_v59 (F := Ideal) x0 x1 x2 x3 x4 x5 x6 x7 x8 x9 x14 x15 x16 x17 x18 x19 x20 x21
    = tanhm (gate (msg x1 (feat x0 x2 x3 x4 x5) x6 x7 x8 x9)
        (hmul (sigm (gate (msg x1 (feat x0 x2 x3 x4 x5) x6 x7 x8 x9) (feat x0 x2 x3 x4 x5)
          x14 (asRow x15) x16 (asRow x17))) (feat x0 x2 x3 x4 x5))
        x18 (asRow x19) x20 (asRow x21)) := by
  unfold val_main_v59
  rw [v58_eq]
  rfl

/-- Stages 60–64: the gated update, so the reference's result is the step of the specification. -/
theorem val_eq : val_main_v64 (F := Ideal) x0 x1 x2 x3 x4 x5 x6 x7 x8 x9 x10 x11 x12 x13 x14 x15 x16 x17 x18 x19 x20 x21
    = step x0 x1 x2 x3 x4 x5 x6 x7 x8 x9 x10 x11 x12 x13 x14 x15 x16 x17 x18 x19 x20 x21 := by
  unfold val_main_v64 val_main_v63 val_main_v62 val_main_v61 val_main_v60 val_main_cst_3
  rw [v33_eq, v59_eq, v8_eq]
  funext i
  rw [addf_apply, mulf_apply, mulf_apply, subf_apply, bcastInDim_scalar_apply, constant_apply]
  rfl

end Stages

end Cert.RefStep

end
-- ==== Proof.lean ====
/-
  The certificate of the fused message-passing kernel against its reference.

  Both programs compute one step of gated message passing on 10000 nodes with 128 features: the node features pass
  through a two-layer perceptron, giving H; the messages are a second two-layer perceptron of A·H for the adjacency
  matrix A; and the update of each node is (1 − z)·H + z·c for an update gate z, a reset gate r and a candidate c,
  each a logistic or hyperbolic-tangent function of two products with the messages and with H (or r·H).

  The kernel walks down A in sixteen blocks of 640 rows. At the first block it computes all of H into a scratch of
  10240 rows; at every block it multiplies the block of A by H, runs the second perceptron and the gates on the
  block's 640 rows, reading the block's own rows of H from the scratch, and writes the block of the result. The last
  block overhangs the 10000 rows by 240: what is computed there is never written back.

  The frames of the kernel, read at words and at extended reals, need nothing of what is computed: from any contents
  of its buffers the body runs to the end and faults nowhere, and no argument array is ever written. The reference
  is a straight line of host operations, so its run is read back directly. The kernel's idealization rewrites
  nothing. For the value claim, read at extended reals: the kernel's result array ends at the specification's step of
  the argument arrays, because every operation but the product with A is row-local, so a block of rows of the
  result is computed from that block of rows of A, all of H, and that block of rows of H; and the reference's run,
  operation by operation, is the same step. The kernel's one logistic operation and the reference's
  1 / (1 + exp(−x)) are one function on the extended reals, no sum is re-ordered and nothing is distributed, so no
  entry needs to be finite and the precondition is not used.
-/
import proofs.«174394_g59339268162203_cont_sun_m_386_9_alg».proof.Defs
import proofs.«174394_g59339268162203_cont_sun_m_386_9_alg».proof.Proof.Gen.Kernel
import proofs.«174394_g59339268162203_cont_sun_m_386_9_alg».proof.Proof.Gen.KernelIdeal
import proofs.«174394_g59339268162203_cont_sun_m_386_9_alg».proof.Proof.Gen.ReferenceIdeal
import proofs.«174394_g59339268162203_cont_sun_m_386_9_alg».proof.Proof.Gen.ReferenceIdeal.Run
import proofs.«174394_g59339268162203_cont_sun_m_386_9_alg».proof.Proof.Gen.ReferenceIdeal.Read
import proofs.«174394_g59339268162203_cont_sun_m_386_9_alg».proof.Proof.Gen.Pre_finite_inputs
import proofs.«174394_g59339268162203_cont_sun_m_386_9_alg».proof.Proof.BitsFrameRel
import proofs.«174394_g59339268162203_cont_sun_m_386_9_alg».proof.Proof.IdealFrameRel
import proofs.«174394_g59339268162203_cont_sun_m_386_9_alg».proof.Proof.IdealData
import proofs.«174394_g59339268162203_cont_sun_m_386_9_alg».proof.Proof.RefStep
import Idealize.ShloMosaic.Adequacy
import Idealize.ShloMosaic.Init

noncomputable section

namespace Cert.Proof

open Idealize.ShloMosaic Idealize.SL.Sem

/-- The kernel read at words runs and leaves its arguments unchanged. -/
theorem frame_kernel : Cert.frame_Kernel := fun m ρ _ => Cert.Kernel.FrameRel.frame (F := Bits) m ρ

/-- The kernel read at extended reals runs and leaves its arguments unchanged. -/
theorem frame_kernelIdeal : Cert.frame_KernelIdeal := fun m ρ _ => Cert.KernelIdeal.FrameRel.frame (F := Ideal) m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

set_option maxHeartbeats 1600000 in
/-- From memories that agree on the arguments, both programs end with the specification's step of those arguments
    in their result arrays. -/
theorem algebraic : Cert.algebraic_KernelIdeal_ReferenceIdeal := by
  intro m ρ m' ρ' _ hagree
  refine ⟨fun c => Cert.KernelIdeal.Rows.result m c, Cert.KernelIdeal.Data.run_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17, e18, e19, e20, e21⟩ := hagree c
  rw [Cert.ReferenceIdeal.Read.val_main_v64_eq, Cert.RefStep.val_eq, e0, e1, e2, e3, e4, e5, e6, e7, e8, e9, e10, e11, e12, e13, e14, e15, e16, e17, e18, e19, e20, e21]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
